-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x5 : Shape := ⟨2, ![64, 5]⟩
abbrev S5 : Shape := ⟨1, ![5]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  main_v53

def fn_part2 {F : FTy → Type} [FloatOps F] (main_arg7 : FVec F S64 .f32) (main_arg8 : FVec F S64 .f32) (main_arg9 : FVec F S64x5 .f32) (main_arg10 : FVec F S5 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x5 .f32 := Host.absf main_arg9
  let main_cst_16 : FVec F S_ .f32 := constant S_ .f32 0x7F800000#32
  let main_v45 : FVec F S64x5 .f32 := broadcastInDim S64x5 ![] bcast_S_S64x5 main_cst_16
  let main_v46 : IVec S64x5 1 := cmpf .olt main_v44 main_v45
  let main_c_17 : IVec S_ 1 := constantI S_ 1 1#1
  let main_v47 : IVec S_ 1 := (fun x v => Host.reduce IntOp.andi x v reducesTo_S64x5_S_d0_1 h_S_) main_v46 main_c_17
  let main_v48 : IVec S_ 1 := andi main_v43 main_v47
  let main_v49 : FVec F S5 .f32 := Host.absf main_arg10
  let main_cst_18 : FVec F S_ .f32 := constant S_ .f32 0x7F800000#32
  let main_v50 : FVec F S5 .f32 := broadcastInDim S5 ![] bcast_S_S5 main_cst_18
  fn_part3 (F := F) main_v48 main_v49 main_v50

def fn_part1 {F : FTy → Type} [FloatOps F] (main_arg4 : FVec F S128 .f32) (main_arg5 : FVec F S128x64 .f32) (main_arg6 : FVec F S64 .f32) (main_arg7 : FVec F S64 .f32) (main_arg8 : FVec F S64 .f32) (main_arg9 : FVec F S64x5 .f32) (main_arg10 : FVec F S5 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S128x64 .f32) (main_arg6 : FVec F S64 .f32) (main_arg7 : FVec F S64 .f32) (main_arg8 : FVec F S64 .f32) (main_arg9 : FVec F S64x5 .f32) (main_arg10 : FVec F S5 .f32) (main_arg11 : IVec S1600000 32) (main_arg12 : IVec S1600000 32) (main_arg13 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x5 : Shape := ⟨2, ![64, 5]⟩
abbrev S5 : Shape := ⟨1, ![5]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S20x1x128 : Shape := ⟨3, ![20, 1, 128]⟩
abbrev S5000x128 : Shape := ⟨2, ![5000, 128]⟩
abbrev S1x1x128 : Shape := ⟨3, ![1, 1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S20x1x64 : Shape := ⟨3, ![20, 1, 64]⟩
abbrev S1x1x64 : Shape := ⟨3, ![1, 1, 64]⟩
abbrev S1x5 : Shape := ⟨2, ![1, 5]⟩
abbrev S1600000x5 : Shape := ⟨2, ![1600000, 5]⟩
abbrev S6400x64 : Shape := ⟨2, ![6400, 64]⟩
abbrev S6400x5 : Shape := ⟨2, ![6400, 5]⟩
abbrev S6400 : Shape := ⟨1, ![6400]⟩
abbrev S6400x1 : Shape := ⟨2, ![6400, 1]⟩

abbrev nBuf : Space → Nat
  | .hbm => 109
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x5, .f32⟩
  | .hbm, ⟨10, _⟩ => ⟨S5, .f32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S20x1x128, .f32⟩
  | .hbm, ⟨30, _⟩ => ⟨S20x1x128, .f32⟩
  | .hbm, ⟨31, _⟩ => ⟨S_, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S20x1x64, .f32⟩
  | .hbm, ⟨66, _⟩ => ⟨S20x1x64, .f32⟩
  | .hbm, ⟨67, _⟩ => ⟨S_, .f32⟩
  | .hbm, ⟨68, _⟩ => ⟨S1x64, .f32⟩
  | .hbm, ⟨69, _⟩ => ⟨S_, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x64, .f32⟩
  | .hbm, ⟨74, _⟩ => ⟨S_, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S_, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S100000x64, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .f32⟩
  | .hbm, ⟨103, _⟩ => ⟨S1600000x64, .f32⟩
  | .hbm, ⟨104, _⟩ => ⟨S1x5, .f32⟩
  | .hbm, ⟨105, _⟩ => ⟨S1600000x5, .f32⟩
  | .hbm, ⟨106, _⟩ => ⟨S_, .i32⟩
  | .hbm, ⟨107, _⟩ => ⟨S1600000, .i32⟩
  | .hbm, ⟨108, _⟩ => ⟨S1600000, .i32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S1x1x64, .f32⟩
  | .local _ .vmem, ⟨29, _⟩ => ⟨S1x1x64, .f32⟩
  | .local _ .vmem, ⟨30, _⟩ => ⟨S1x1x64, .f32⟩
  | .local _ .vmem, ⟨31, _⟩ => ⟨S1x1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S6400x64, .f32⟩
  | .local _ .vmem, ⟨41, _⟩ => ⟨S6400x64, .f32⟩
  | .local _ .vmem, ⟨42, _⟩ => ⟨S64x5, .f32⟩
  | .local _ .vmem, ⟨43, _⟩ => ⟨S1x5, .f32⟩
  | .local _ .vmem, ⟨44, _⟩ => ⟨S6400x5, .f32⟩
  | .local _ .vmem, ⟨45, _⟩ => ⟨S6400x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_cst_1 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37_0 : Ref sig .tc := ⟨.hbm, 64, rfl⟩
abbrev main_v37_1 : Ref sig .tc := ⟨.hbm, 65, rfl⟩
abbrev main_v37_2 : Ref sig .tc := ⟨.hbm, 66, rfl⟩
abbrev main_cst_9 : Ref sig .tc := ⟨.hbm, 67, rfl⟩
abbrev main_v38 : Ref sig .tc := ⟨.hbm, 68, rfl⟩
abbrev main_cst_10 : Ref sig .tc := ⟨.hbm, 69, rfl⟩
abbrev main_v39 : Ref sig .tc := ⟨.hbm, 70, rfl⟩
abbrev main_cst_11 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_13 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_14 : Ref sig .tc := ⟨.hbm, 85, rfl⟩
abbrev main_v51 : Ref sig .tc := ⟨.hbm, 86, rfl⟩
abbrev main_v52 : Ref sig .tc := ⟨.hbm, 87, rfl⟩
abbrev main_c_15 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_16 : Ref sig .tc := ⟨.hbm, 94, rfl⟩
abbrev main_v58 : Ref sig .tc := ⟨.hbm, 95, rfl⟩
abbrev main_v59 : Ref sig .tc := ⟨.hbm, 96, rfl⟩
abbrev main_c_17 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_18 : Ref sig .tc := ⟨.hbm, 106, rfl⟩
abbrev main_v68 : Ref sig .tc := ⟨.hbm, 107, rfl⟩
abbrev main_v69 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![250], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6400x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x5 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x5 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S6400x5 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S1x128_d0 : S20x1x128.ReducesTo [0] S1x128
  h_S_ : 0 < S_.numel
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  reducesTo_S20x1x64_S1x64_d0 : S20x1x64.ReducesTo [0] S1x64
  bcast_S_S1x64 : S_.BroadcastsInDim S1x64 (![] : Fin 0 → Fin S1x64.rank)
  shapeCasts_S5_S1x5 : S5.ShapeCasts S1x5
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S6400x5 : S1x5.Broadcasts S6400x5
  reduces_S6400x5_S6400 : S6400x5.Reduces [1] S6400
  shapeCasts_S6400_S6400x1 : S6400.ShapeCasts S6400x1
  broadcasts_S6400x1_S6400x5 : S6400x1.Broadcasts S6400x5
  inb_S6400x5_S6400x5_0_0 : ∀ a, (![0, 0] : Fin 2 → Nat) a + S6400x5.size a ≤ S6400x5.size a
  h_S6400x5 : 0 < S6400x5.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S6400x64_S64x5_S6400x5_1_0_0_1_n_n_wf : DotDims.WF S6400x64 S64x5 S6400x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S20x1x128.size a
  hwx0_4 : ∀ i : grid0.Coords, EltTy.bits .f32 = 32 ∨ (Rect.block (s := S20x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S20x1x128.size a
  hwx0_5 : ∀ i : grid0.Coords, EltTy.bits .f32 = 32 ∨ (Rect.block (s := S20x1x128) S1x1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x64.size a ≤ S20x1x64.size a
  hwx3_3 : ∀ i : grid3.Coords, EltTy.bits .f32 = 32 ∨ (Rect.block (s := S20x1x64) S1x1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x64.size a ≤ S20x1x64.size a
  hwx3_4 : ∀ i : grid3.Coords, EltTy.bits .f32 = 32 ∨ (Rect.block (s := S20x1x64) S1x1x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6400x64.size a ≤ S1600000x64.size a
  hwx5_0 : ∀ i : grid5.Coords, EltTy.bits .f32 = 32 ∨ (Rect.block (s := S1600000x64) S6400x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x5.size a ≤ S64x5.size a
  hwx5_1 : ∀ i : grid5.Coords, EltTy.bits .f32 = 32 ∨ (Rect.block (s := S64x5) S64x5.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x5.size a ≤ S1x5.size a
  hwx5_2 : ∀ i : grid5.Coords, EltTy.bits .f32 = 32 ∨ (Rect.block (s := S1x5) S1x5.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S6400x5.size a ≤ S1600000x5.size a
  hwx5_3 : ∀ i : grid5.Coords, EltTy.bits .f32 = 32 ∨ (Rect.block (s := S1600000x5) S6400x5.size (cc5_transform_3 i) (hinb5_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S6400x64_S64x5_S6400x5_1_0_0_1_n_n : DotDims S6400x64 S64x5 S6400x5 where
  lhsContracting := [1]
  rhsContracting := [0]
  lhsNonContracting := [0]
  rhsNonContracting := [1]
  lhsBatch := []
  rhsBatch := []
  wf := dot_S6400x64_S64x5_S6400x5_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37_1) S1x1x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37_2) S1x1x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v37_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v50) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v65) S6400x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x5.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x5.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S6400x5.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x5 : Shape := ⟨2, ![64, 5]⟩
abbrev S5 : Shape := ⟨1, ![5]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S1600000x64 : Shape := ⟨2, ![1600000, 64]⟩
abbrev S1600000x5 : Shape := ⟨2, ![1600000, 5]⟩
abbrev S1x5 : Shape := ⟨2, ![1, 5]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128x64, .f32⟩
  | 6 => ⟨S64, .f32⟩
  | 7 => ⟨S64, .f32⟩
  | 8 => ⟨S64, .f32⟩
  | 9 => ⟨S64x5, .f32⟩
  | 10 => ⟨S5, .f32⟩
  | 11 => ⟨S1600000, .i32⟩
  | 12 => ⟨S1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S_, .f32⟩
  | 35 => ⟨S128, .f32⟩
  | 36 => ⟨S_, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S100000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S_, .f32⟩
  | 85 => ⟨S64, .f32⟩
  | 86 => ⟨S_, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S100000x64, .f32⟩
  | 93 => ⟨S_, .f32⟩
  | 94 => ⟨S64, .f32⟩
  | 95 => ⟨S_, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S64, .f32⟩
  | 106 => ⟨S64, .f32⟩
  | 107 => ⟨S64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S1600000x64, .f32⟩
  | 5 => ⟨S1600000x5, .f32⟩
  | 6 => ⟨S1x5, .f32⟩
  | 7 => ⟨S1600000x5, .f32⟩
  | 8 => ⟨S1600000x5, .f32⟩
  | 9 => ⟨S_, .f32⟩
  | 10 => ⟨S1600000, .f32⟩
  | 11 => ⟨S_, .f32⟩
  | 12 => ⟨S1600000, .f32⟩
  | 13 => ⟨S1600000, .f32⟩
  | 14 => ⟨S1600000x1, .f32⟩
  | 15 => ⟨S1600000x5, .f32⟩
  | 16 => ⟨S1600000x5, .f32⟩
  | 17 => ⟨S1600000x5, .f32⟩
  | 18 => ⟨S_, .f32⟩
  | 19 => ⟨S1600000, .f32⟩
  | 20 => ⟨S1600000x1, .f32⟩
  | 21 => ⟨S1600000x5, .f32⟩
  | 22 => ⟨S1600000x5, .f32⟩
  | 23 => ⟨S_, .i32⟩
  | 24 => ⟨S1600000, .i32⟩
  | 25 => ⟨S1600000, .i32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_cst : Ref sig .tc := ⟨.hbm, 31, rfl⟩
abbrev main_call0_v0 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_14 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_c_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_18 : Ref sig .tc := ⟨.hbm, 137, rfl⟩
abbrev main_v99 : Ref sig .tc := ⟨.hbm, 138, rfl⟩
abbrev main_cst_19 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_20 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_21 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  bcast_S_S64 : S_.BroadcastsInDim S64 (![] : Fin 0 → Fin S64.rank)
  bcast_S5_S1x5_1 : S5.BroadcastsInDim S1x5 (![1] : Fin 1 → Fin S1x5.rank)
  bcast_S1x5_S1600000x5_0_1 : S1x5.BroadcastsInDim S1600000x5 (![0, 1] : Fin 2 → Fin S1600000x5.rank)
  reducesTo_S1600000x5_S1600000_d1 : S1600000x5.ReducesTo [1] S1600000
  bcast_S1600000x1_S1600000x5_0_1 : S1600000x1.BroadcastsInDim S1600000x5 (![0, 1] : Fin 2 → Fin S1600000x5.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x5_S1600000x5_1_0_0_1_n_n_wf : DotDims.WF S1600000x64 S64x5 S1600000x5 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x5_S1600000x5_1_0_0_1_n_n : DotDims S1600000x64 S64x5 S1600000x5 where
  lhsContracting := [1]
  rhsContracting := [0]
  lhsNonContracting := [0]
  rhsNonContracting := [1]
  lhsBatch := []
  rhsBatch := []
  wf := dot_S1600000x64_S64x5_S1600000x5_1_0_0_1_n_n_wf

class Facts : Prop extends Facts₀ where

variable [Facts]
-- ==== Proof.KRun.lean ====
/-
  The kernel's run on the extended reals, with its three results named.

  @main is twelve segments — host stretches and six kernel launches. Every weakly fair execution from a memory `m` with zero
  counters ends, and in every final state each unscoped buffer of a core holds the contents of the last segment boundary
  (`Gen.W12 m ρ c`: the launch memory pushed through every stretch's operations and every launch's write-backs). Read at the
  three returned buffers and at the fourteen arguments, this is the run the value claim is stated over: the launch over the
  segments is the frame's, the final state is read at three more buffers.
-/
import proofs.«158174_j29059748725634_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; each returned buffer ends at the last boundary's
    contents and each argument as launched. -/
theorem run_main : θ_run defs (onTc (τ := τ) (main (F := F))) ⟨m, fun _ => 0, ρ⟩ (fun r => ∀ c : Dev nD,
      r.2.mem ((c.tc : Thread nD τ).loc main_v67) = W12 m ρ c (Proc.devRef .tc main_v67)
      ∧ r.2.mem ((c.tc : Thread nD τ).loc main_v69) = W12 m ρ c (Proc.devRef .tc main_v69)
      ∧ r.2.mem ((c.tc : Thread nD τ).loc main_v50) = W12 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v67 (by decide)),
       h c _ (mem_uc main_v69 (by decide)),
       h c _ (mem_uc main_v50 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.KernelIdeal.RunValue

end
-- ==== Proof.Spec.lean ====
/-
  The layers of a two-layer graph auto-encoder as whole-array functions on the extended reals, entry by entry.

  Every array is a function from the indices of a literal shape to the extended reals. A node array has 100000 rows, cut
  into 20 consecutive blocks of 5000 rows: row `r` of block `t` is row `5000·t + r` (`rowOf`).
  * `affine X W b`: row `p` of `X` against column `q` of `W`, plus the bias row `b (0, q)`; `relu Y` the entrywise larger of
    `Y` and the zero word; `product X W` the plain matrix product; `addRow X b` adds the bias row to every row.
  * `blockSums H`, `blockSumSq H`: for each block `t` and column `j`, the sum of the block's 5000 entries of column `j`, and of
    their squares.
  * `bnApply H μ v γ β`: `γ·(h − μ)·(v + ε)^(-1/2) + β` column by column, `ε` the word `0x3727C5AC`.
  * `softmaxRows L`: each row's exponentials of the entries less the row's largest entry, over their sum.
-/
import Idealize.ShloMosaic.PureOps.Ideal.Laws
import Idealize.ShloMosaic.Lib.ValueIdx

noncomputable section

namespace Cert.Spec

open Idealize.ShloMosaic Idealize.ShloMosaic.ValueIdx
open scoped BigOperators

/-- An `[a, b]` array of extended reals. -/
abbrev Mat (a b : ℕ) : Type := (⟨2, ![a, b]⟩ : Shape).Idx → EReal

/-- The zero word and the normalisation's epsilon, as extended reals. -/
abbrev zeroW : EReal := Ideal.ofBits .f32 0x00000000#32
abbrev epsW : EReal := Ideal.ofBits .f32 0x3727C5AC#32
abbrev negInfW : EReal := Ideal.ofBits .f32 0xFF800000#32

variable {n K M : ℕ}

/-- `X · W + b`, the bias one `[1, M]` row. -/
def affine (X : Mat n K) (W : Mat K M) (b : Mat 1 M) : Mat n M :=
  fun i => (∑ k : Fin K, X (ix2 (i 0) k) * W (ix2 k (i 1))) + b (ix2 (0 : Fin 1) (i 1))

theorem affine_apply (X : Mat n K) (W : Mat K M) (b : Mat 1 M) (p : Fin n) (q : Fin M) :
    affine X W b (ix2 p q) = (∑ k : Fin K, X (ix2 p k) * W (ix2 k q)) + b (ix2 (0 : Fin 1) q) := rfl

/-- `X · W`. -/
def product (X : Mat n K) (W : Mat K M) : Mat n M :=
  fun i => ∑ k : Fin K, X (ix2 (i 0) k) * W (ix2 k (i 1))

theorem product_apply (X : Mat n K) (W : Mat K M) (p : Fin n) (q : Fin M) :
    product X W (ix2 p q) = ∑ k : Fin K, X (ix2 p k) * W (ix2 k q) := rfl

/-- Every row of `X` plus the bias row. -/
def addRow (X : Mat n M) (b : Mat 1 M) : Mat n M := fun i => X i + b (ix2 (0 : Fin 1) (i 1))

theorem addRow_apply (X : Mat n M) (b : Mat 1 M) (p : Fin n) (q : Fin M) :
    addRow X b (ix2 p q) = X (ix2 p q) + b (ix2 (0 : Fin 1) q) := rfl

/-- The entrywise larger of `Y` and zero. -/
def relu (Y : Mat n M) : Mat n M := fun i => max (Y i) zeroW

theorem relu_apply (Y : Mat n M) (i : (⟨2, ![n, M]⟩ : Shape).Idx) : relu Y i = max (Y i) zeroW := rfl

/-- Row `r` of block `t` of a 100000-row array cut into 20 blocks of 5000 rows. -/
def rowOf (t : Fin 20) (r : Fin 5000) : Fin 100000 := ⟨t.val * 5000 + r.val, by omega⟩

theorem rowOf_val (t : Fin 20) (r : Fin 5000) : (rowOf t r).val = t.val * 5000 + r.val := rfl

/-- Per block `t` and column `j`: the sum of the block's entries of column `j`. -/
def blockSums (H : Mat 100000 M) : (⟨3, ![20, 1, M]⟩ : Shape).Idx → EReal :=
  fun i => ∑ r : Fin 5000, H (ix2 (rowOf (i 0) r) (i 2))

theorem blockSums_apply (H : Mat 100000 M) (t : Fin 20) (u : Fin 1) (j : Fin M) :
    blockSums H (ix3 t u j) = ∑ r : Fin 5000, H (ix2 (rowOf t r) j) := rfl

/-- Per block `t` and column `j`: the sum of the squares of the block's entries of column `j`. -/
def blockSumSq (H : Mat 100000 M) : (⟨3, ![20, 1, M]⟩ : Shape).Idx → EReal :=
  fun i => ∑ r : Fin 5000, H (ix2 (rowOf (i 0) r) (i 2)) * H (ix2 (rowOf (i 0) r) (i 2))

theorem blockSumSq_apply (H : Mat 100000 M) (t : Fin 20) (u : Fin 1) (j : Fin M) :
    blockSumSq H (ix3 t u j) = ∑ r : Fin 5000, H (ix2 (rowOf t r) j) * H (ix2 (rowOf t r) j) := rfl

/-- `γ · (h − μ) · (v + ε)^(-1/2) + β`, the four statistics one `[1, M]` row each. -/
def bnApply (H : Mat n M) (μ v γ β : Mat 1 M) : Mat n M :=
  fun i => γ (ix2 (0 : Fin 1) (i 1)) * (H i - μ (ix2 (0 : Fin 1) (i 1)))
      * Ideal.rsqrt (v (ix2 (0 : Fin 1) (i 1)) + epsW) + β (ix2 (0 : Fin 1) (i 1))

theorem bnApply_apply (H : Mat n M) (μ v γ β : Mat 1 M) (p : Fin n) (q : Fin M) :
    bnApply H μ v γ β (ix2 p q)
      = γ (ix2 (0 : Fin 1) q) * (H (ix2 p q) - μ (ix2 (0 : Fin 1) q)) * Ideal.rsqrt (v (ix2 (0 : Fin 1) q) + epsW)
        + β (ix2 (0 : Fin 1) q) := rfl

/-- The largest entry of row `p`, folded from minus infinity, and once more against minus infinity. -/
def rowTop (L : Mat n M) (p : Fin n) : EReal :=
  max negInfW (Finset.univ.fold max negInfW fun k : Fin M => L (ix2 p k))

/-- Each row's exponentials of the entries less the row's largest entry, over their sum. -/
def softmaxRows (L : Mat n M) : Mat n M :=
  fun i => Ideal.div (Ideal.exp (L i - rowTop L (i 0))) (∑ k : Fin M, Ideal.exp (L (ix2 (i 0) k) - rowTop L (i 0)))

theorem softmaxRows_apply (L : Mat n M) (p : Fin n) (q : Fin M) :
    softmaxRows L (ix2 p q)
      = Ideal.div (Ideal.exp (L (ix2 p q) - rowTop L p)) (∑ k : Fin M, Ideal.exp (L (ix2 p k) - rowTop L p)) := rfl

end Cert.Spec

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.Model.lean ====
/-
  The two pipelines of the graph auto-encoder as compositions of the layer functions, and the statistics they differ in.

  Both programs compute, for node features `x`: a neighbourhood sum, a dense layer with relu, a batch normalisation over the
  100000 rows, a second such encoder layer, and a softmax decoder over products of looked-up rows. They differ in two places.
  * Batch statistics. One side sums each column block by block (20 blocks of 5000 rows, `meanBlocks`) and takes the
    variance as the larger of `E[h²] − mean²` and zero (`varBlocks`); the other sums each column over all rows (`meanAll`)
    and takes the mean squared deviation (`varAll`).
  * The second layer. One side multiplies by the weights first and sums over neighbours afterwards (`agg' (product e W)`),
    the other sums first (`product (agg e) W`).
  The neighbourhood sums `agg`, `agg'` and the edge lookup `emb` are parameters here: any functions of a whole array.
-/
import Idealize.ShloMosaic.PureOps.Ideal.Laws
import Idealize.ShloMosaic.Lib.ValueIdx
import proofs.«158174_j29059748725634_2_alg».proof.Proof.Spec
import proofs.«158174_j29059748725634_2_alg».proof.Proof.LibAsRow

noncomputable section

namespace Cert.Model

open Idealize.ShloMosaic Idealize.ShloMosaic.ValueIdx Cert.Spec
open scoped BigOperators

/-- The row count 100000 as its f32 word read on the extended reals. -/
abbrev nW : EReal := Ideal.ofBits .f32 0x47C35000#32

variable {M : ℕ}

/-- Column means from per-block partial sums. -/
def meanBlocks (H : Mat 100000 M) : Mat 1 M :=
  fun i => Ideal.div (zeroW + ∑ t : Fin 20, blockSums H (ix3 t (i 0) (i 1))) nW

/-- Column variances as the larger of `E[h²] − mean²` and zero, from per-block partial sums. -/
def varBlocks (H : Mat 100000 M) : Mat 1 M :=
  fun i => max (Ideal.div (zeroW + ∑ t : Fin 20, blockSumSq H (ix3 t (i 0) (i 1))) nW - meanBlocks H i * meanBlocks H i) zeroW

/-- Column means over all rows. -/
def meanAll (H : Mat 100000 M) : Mat 1 M :=
  fun i => Ideal.div (zeroW + ∑ p : Fin 100000, H (ix2 p (i 1))) nW

/-- Column variances as the mean squared deviation over all rows. -/
def varAll (H : Mat 100000 M) : Mat 1 M :=
  fun i => Ideal.div (zeroW + ∑ p : Fin 100000, (H (ix2 p (i 1)) - meanAll H i) * (H (ix2 p (i 1)) - meanAll H i)) nW

section Pipelines

variable (agg : Mat 100000 128 → Mat 100000 128) (agg' : Mat 100000 64 → Mat 100000 64)
  (emb : Mat 100000 64 → Mat 1600000 64)
  (x : Mat 100000 128) (W1 : Mat 128 128) (b1 g1 c1 : Mat 1 128) (W2 : Mat 128 64) (b2 g2 c2 : Mat 1 64)
  (Wd : Mat 64 5) (bd : Mat 1 5)

/-- First hidden layer, the same on both sides. -/
def hid1 : Mat 100000 128 := relu (affine (agg x) W1 b1)

/-- Block-summed side: first encoding, second hidden layer, second encoding, prediction. -/
def encB1 : Mat 100000 128 := bnApply (hid1 agg x W1 b1) (meanBlocks (hid1 agg x W1 b1)) (varBlocks (hid1 agg x W1 b1)) g1 c1
def hidB2 : Mat 100000 64 := relu (addRow (agg' (product (encB1 agg x W1 b1 g1 c1) W2)) b2)
def encB2 : Mat 100000 64 :=
  bnApply (hidB2 agg agg' x W1 b1 g1 c1 W2 b2) (meanBlocks (hidB2 agg agg' x W1 b1 g1 c1 W2 b2))
    (varBlocks (hidB2 agg agg' x W1 b1 g1 c1 W2 b2)) g2 c2
def predB : Mat 1600000 5 := softmaxRows (affine (emb (encB2 agg agg' x W1 b1 g1 c1 W2 b2 g2 c2)) Wd bd)

/-- All-rows side. -/
def encA1 : Mat 100000 128 := bnApply (hid1 agg x W1 b1) (meanAll (hid1 agg x W1 b1)) (varAll (hid1 agg x W1 b1)) g1 c1
def hidA2 : Mat 100000 64 := relu (affine (agg (encA1 agg x W1 b1 g1 c1)) W2 b2)
def encA2 : Mat 100000 64 :=
  bnApply (hidA2 agg x W1 b1 g1 c1 W2 b2) (meanAll (hidA2 agg x W1 b1 g1 c1 W2 b2))
    (varAll (hidA2 agg x W1 b1 g1 c1 W2 b2)) g2 c2
def predA : Mat 1600000 5 := softmaxRows (affine (emb (encA2 agg x W1 b1 g1 c1 W2 b2 g2 c2)) Wd bd)

end Pipelines

end Cert.Model

end
-- ==== Proof.KStretch.lean ====
/-
  The kernel's host stretches on the extended reals, read as functions of the contents they start from.

  Between its six kernel launches @main runs straight lines of host operations. Each stretch is read here at the buffers the
  next launch (or the return) takes: the neighbourhood sums (rows looked up at the source numbers, wrapped when negative,
  and accumulated at the target numbers into zeros), the bias and scale vectors reshaped to one row, the column statistics
  from the per-block partial sums — the total over the 20 blocks from zero, divided by the row count; the variance as
  the larger of `E[h²] − mean²` and zero —, and the products of looked-up rows the decoder takes. A buffer no operation of
  a stretch writes, and no launch has among its arrays, keeps its contents: each argument is read back to the launch memory.
-/
import proofs.«158174_j29059748725634_2_alg».proof.Proof.Gen.KernelIdeal.Frame
import proofs.«158174_j29059748725634_2_alg».proof.Proof.Model
import Idealize.ShloMosaic.Lib.StableHlo.Run
import Idealize.ShloMosaic.PureOps.Ideal.Laws
import Idealize.ShloMosaic.Lib.ValueIdx
import Idealize.ShloMosaic.Lib.Pipeline.Value

set_option maxRecDepth 16384

noncomputable section

namespace Cert.KernelIdeal.HostValue

open Idealize.ShloMosaic Idealize.ShloMosaic.TcCoe Idealize.SL.Sem Idealize.ShloMosaic.StableHlo
open Idealize.ShloMosaic.ValueIdx
open Cert.KernelIdeal Cert.KernelIdeal.Gen
open scoped BigOperators

/-- A float array and a 32-bit integer array of a literal shape, at the extended reals. -/
abbrev A (s : Shape) : Type := FVec Ideal s .f32
abbrev I (s : Shape) : Type := IVec s 32

/-! ## The stretches' operations as functions -/

/-- Source numbers as a column, a negative number wrapped by the row count. -/
def wrapCol (s : I S1600000) : I S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Target numbers as a column. -/
def col (d : I S1600000) : I S1600000x1 := broadcastInDim S1600000x1 ![0] bcast_S1600000_S1600000x1_0 d

def zeros128 : A S100000x128 := broadcastInDim S100000x128 ![] bcast_S_S100000x128 (constant (F := Ideal) S_ .f32 0x00000000#32)
def zeros64 : A S100000x64 := broadcastInDim S100000x64 ![] bcast_S_S100000x64 (constant (F := Ideal) S_ .f32 0x00000000#32)

/-- The neighbourhood sum of 128-wide rows. -/
def agg128 (s d : I S1600000) (X : A S100000x128) : A S100000x128 :=
  Host.scatterAdd (F := Ideal) scatter_S100000x128_S1600000x1_S1600000x128_1_0_0_1 zeros128 (col d)
    (Host.gather gather_S100000x128_S1600000x1_S1600000x128_1_0_n_n_0_1_1128 X (wrapCol s))

/-- The neighbourhood sum of 64-wide rows. -/
def agg64 (s d : I S1600000) (X : A S100000x64) : A S100000x64 :=
  Host.scatterAdd (F := Ideal) scatter_S100000x64_S1600000x1_S1600000x64_1_0_0_1 zeros64 (col d)
    (Host.gather gather_S100000x64_S1600000x1_S1600000x64_1_0_n_n_0_1_164 X (wrapCol s))

/-- Per edge, the source's row times the target's row. -/
def emb (s d : I S1600000) (E : A S100000x64) : A S1600000x64 :=
  mulf (Host.gather gather_S100000x64_S1600000x1_S1600000x64_1_0_n_n_0_1_164 E (wrapCol s))
    (Host.gather gather_S100000x64_S1600000x1_S1600000x64_1_0_n_n_0_1_164 E (wrapCol d))

def row128 (b : A S128) : A S1x128 := fun i => shapeCast S1x128 b shapeCasts_S128_S1x128 i
def row64 (b : A S64) : A S1x64 := fun i => shapeCast S1x64 b shapeCasts_S64_S1x64 i
def row5 (b : A S5) : A S1x5 := fun i => shapeCast S1x5 b shapeCasts_S5_S1x5 i

def total128 (P : A S20x1x128) : A S1x128 := Host.reduceAdd (F := Ideal) P (constant (F := Ideal) S_ .f32 0x00000000#32) reducesTo_S20x1x128_S1x128_d0 h_S_
def total64 (P : A S20x1x64) : A S1x64 := Host.reduceAdd (F := Ideal) P (constant (F := Ideal) S_ .f32 0x00000000#32) reducesTo_S20x1x64_S1x64_d0 h_S_

def mean128 (P : A S20x1x128) : A S1x128 :=
  Host.divf (F := Ideal) (total128 P) (broadcastInDim S1x128 ![] bcast_S_S1x128 (constant (F := Ideal) S_ .f32 0x47C35000#32))
def mean64 (P : A S20x1x64) : A S1x64 :=
  Host.divf (F := Ideal) (total64 P) (broadcastInDim S1x64 ![] bcast_S_S1x64 (constant (F := Ideal) S_ .f32 0x47C35000#32))

def var128 (P Q : A S20x1x128) : A S1x128 :=
  maximumf (subf (mean128 Q) (mulf (mean128 P) (mean128 P))) (broadcastInDim S1x128 ![] bcast_S_S1x128 (constant (F := Ideal) S_ .f32 0x00000000#32))
def var64 (P Q : A S20x1x64) : A S1x64 :=
  maximumf (subf (mean64 Q) (mulf (mean64 P) (mean64 P))) (broadcastInDim S1x64 ![] bcast_S_S1x64 (constant (F := Ideal) S_ .f32 0x00000000#32))

/-! ## Each stretch at the buffers read after it -/

section Stretches
variable (W : Valuation τ sig (Elt Ideal))

theorem s0_v9 : StableHlo.after (hostOps0 (F := Ideal)) W (Proc.devRef .tc main_v9)
    = agg128 (W (Proc.devRef .tc main_arg11)) (W (Proc.devRef .tc main_arg12)) (W (Proc.devRef .tc main_arg0)) := by
  after_results_simp <;> rfl
theorem s0_v10 : StableHlo.after (hostOps0 (F := Ideal)) W (Proc.devRef .tc main_v10) = row128 (W (Proc.devRef .tc main_arg2)) := by
  after_results_simp <;> rfl

theorem s1_v15 : StableHlo.after (hostOps1 (F := Ideal)) W (Proc.devRef .tc main_v15) = mean128 (W (Proc.devRef .tc main_v11_1)) := by
  after_results_simp <;> rfl
theorem s1_v21 : StableHlo.after (hostOps1 (F := Ideal)) W (Proc.devRef .tc main_v21)
    = var128 (W (Proc.devRef .tc main_v11_1)) (W (Proc.devRef .tc main_v11_2)) := by
  after_results_simp <;> rfl
theorem s1_v22 : StableHlo.after (hostOps1 (F := Ideal)) W (Proc.devRef .tc main_v22) = row128 (W (Proc.devRef .tc main_arg3)) := by
  after_results_simp <;> rfl
theorem s1_v23 : StableHlo.after (hostOps1 (F := Ideal)) W (Proc.devRef .tc main_v23) = row128 (W (Proc.devRef .tc main_arg4)) := by
  after_results_simp <;> rfl

theorem s3_v35 : StableHlo.after (hostOps3 (F := Ideal)) W (Proc.devRef .tc main_v35)
    = agg64 (W (Proc.devRef .tc main_arg11)) (W (Proc.devRef .tc main_arg12)) (W (Proc.devRef .tc main_v25)) := by
  after_results_simp <;> rfl
theorem s3_v36 : StableHlo.after (hostOps3 (F := Ideal)) W (Proc.devRef .tc main_v36) = row64 (W (Proc.devRef .tc main_arg6)) := by
  after_results_simp <;> rfl

theorem s4_v41 : StableHlo.after (hostOps4 (F := Ideal)) W (Proc.devRef .tc main_v41) = mean64 (W (Proc.devRef .tc main_v37_1)) := by
  after_results_simp <;> rfl
theorem s4_v47 : StableHlo.after (hostOps4 (F := Ideal)) W (Proc.devRef .tc main_v47)
    = var64 (W (Proc.devRef .tc main_v37_1)) (W (Proc.devRef .tc main_v37_2)) := by
  after_results_simp <;> rfl
theorem s4_v48 : StableHlo.after (hostOps4 (F := Ideal)) W (Proc.devRef .tc main_v48) = row64 (W (Proc.devRef .tc main_arg7)) := by
  after_results_simp <;> rfl
theorem s4_v49 : StableHlo.after (hostOps4 (F := Ideal)) W (Proc.devRef .tc main_v49) = row64 (W (Proc.devRef .tc main_arg8)) := by
  after_results_simp <;> rfl

theorem s5_v65 : StableHlo.after (hostOps5 (F := Ideal)) W (Proc.devRef .tc main_v65)
    = emb (W (Proc.devRef .tc main_arg11)) (W (Proc.devRef .tc main_arg12)) (W (Proc.devRef .tc main_v50)) := by
  after_results_simp <;> rfl
theorem s5_v66 : StableHlo.after (hostOps5 (F := Ideal)) W (Proc.devRef .tc main_v66) = row5 (W (Proc.devRef .tc main_arg10)) := by
  after_results_simp <;> rfl

theorem s6_v69 : StableHlo.after (hostOps6 (F := Ideal)) W (Proc.devRef .tc main_v69)
    = subi (W (Proc.devRef .tc main_arg13)) (broadcastInDim S1600000 ![] bcast_S_S1600000 (constantI S_ 32 1#32)) := by
  after_results_simp <;> rfl

end Stretches

/-! ## The rows and the statistics in closed form -/

theorem row128_eq (b : A S128) : row128 b = Cert.Lib.asRow (n := 128) b := Cert.Lib.shapeCast_eq_asRow b _
theorem row64_eq (b : A S64) : row64 b = Cert.Lib.asRow (n := 64) b := Cert.Lib.shapeCast_eq_asRow b _
theorem row5_eq (b : A S5) : row5 b = Cert.Lib.asRow (n := 5) b := Cert.Lib.shapeCast_eq_asRow b _

theorem scalar128 (w : BitVec 32) (i : S1x128.Idx) :
    (broadcastInDim S1x128 ![] bcast_S_S1x128 (constant (F := Ideal) S_ .f32 w)) i = Ideal.ofBits .f32 w :=
  broadcastInDim_apply _ bcast_S_S1x128 (constant (F := Ideal) S_ .f32 w) i (fun a => a.elim0) (fun a => a.elim0)
theorem scalar64 (w : BitVec 32) (i : S1x64.Idx) :
    (broadcastInDim S1x64 ![] bcast_S_S1x64 (constant (F := Ideal) S_ .f32 w)) i = Ideal.ofBits .f32 w :=
  broadcastInDim_apply _ bcast_S_S1x64 (constant (F := Ideal) S_ .f32 w) i (fun a => a.elim0) (fun a => a.elim0)

theorem total128_apply (P : A S20x1x128) (i : S1x128.Idx) :
    total128 P i = Cert.Spec.zeroW + ∑ t : Fin 20, P (ix3 t (i 0) (i 1)) := by
  unfold total128
  simp only [Host.reduceAdd, Ideal.hostReduceAdd_def]
  rw [Ideal.hostReduceAdd_single reducesTo_S20x1x128_S1x128_d0 (by decide)]
  refine congrArg (_ + ·) (Finset.sum_congr rfl fun k _ => ?_)
  exact congrArg P (funext fun a => Fin.ext (by match a with | ⟨0, _⟩ => rfl | ⟨1, _⟩ => rfl | ⟨2, _⟩ => rfl))
theorem total64_apply (P : A S20x1x64) (i : S1x64.Idx) :
    total64 P i = Cert.Spec.zeroW + ∑ t : Fin 20, P (ix3 t (i 0) (i 1)) := by
  unfold total64
  simp only [Host.reduceAdd, Ideal.hostReduceAdd_def]
  rw [Ideal.hostReduceAdd_single reducesTo_S20x1x64_S1x64_d0 (by decide)]
  refine congrArg (_ + ·) (Finset.sum_congr rfl fun k _ => ?_)
  exact congrArg P (funext fun a => Fin.ext (by match a with | ⟨0, _⟩ => rfl | ⟨1, _⟩ => rfl | ⟨2, _⟩ => rfl))

theorem mean128_apply (P : A S20x1x128) (i : S1x128.Idx) :
    mean128 P i = Ideal.div (Cert.Spec.zeroW + ∑ t : Fin 20, P (ix3 t (i 0) (i 1))) Cert.Model.nW := by
  show Ideal.div (total128 P i) ((broadcastInDim S1x128 ![] bcast_S_S1x128 (constant (F := Ideal) S_ .f32 0x47C35000#32)) i) = _
  rw [total128_apply, scalar128]
theorem mean64_apply (P : A S20x1x64) (i : S1x64.Idx) :
    mean64 P i = Ideal.div (Cert.Spec.zeroW + ∑ t : Fin 20, P (ix3 t (i 0) (i 1))) Cert.Model.nW := by
  show Ideal.div (total64 P i) ((broadcastInDim S1x64 ![] bcast_S_S1x64 (constant (F := Ideal) S_ .f32 0x47C35000#32)) i) = _
  rw [total64_apply, scalar64]

/-- The statistics of a 128-column array from its block sums. -/
theorem mean128_blocks (H : Cert.Spec.Mat 100000 128) : mean128 (Cert.Spec.blockSums H) = Cert.Model.meanBlocks H :=
  funext fun i => mean128_apply _ i
theorem var128_blocks (H : Cert.Spec.Mat 100000 128) :
    var128 (Cert.Spec.blockSums H) (Cert.Spec.blockSumSq H) = Cert.Model.varBlocks H := funext fun i => by
  show max (mean128 (Cert.Spec.blockSumSq H) i - mean128 (Cert.Spec.blockSums H) i * mean128 (Cert.Spec.blockSums H) i)
      ((broadcastInDim S1x128 ![] bcast_S_S1x128 (constant (F := Ideal) S_ .f32 0x00000000#32)) i) = _
  rw [mean128_apply, mean128_apply, scalar128]; rfl
theorem mean64_blocks (H : Cert.Spec.Mat 100000 64) : mean64 (Cert.Spec.blockSums H) = Cert.Model.meanBlocks H :=
  funext fun i => mean64_apply _ i
theorem var64_blocks (H : Cert.Spec.Mat 100000 64) :
    var64 (Cert.Spec.blockSums H) (Cert.Spec.blockSumSq H) = Cert.Model.varBlocks H := funext fun i => by
  show max (mean64 (Cert.Spec.blockSumSq H) i - mean64 (Cert.Spec.blockSums H) i * mean64 (Cert.Spec.blockSums H) i)
      ((broadcastInDim S1x64 ![] bcast_S_S1x64 (constant (F := Ideal) S_ .f32 0x00000000#32)) i) = _
  rw [mean64_apply, mean64_apply, scalar64]; rfl

/-! ## The arguments at the boundaries where a stretch reads them -/

section Args
variable (m : (ℓ : Loc nD τ sig) → Buf (Elt Ideal) ℓ) (ρ : Dev nD → PrngReg)

/-- A stretch keeps a buffer none of its operations writes. -/
local macro "keeps% " ops:ident b:ident : term =>
  `(StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

theorem W2_main_arg3 (c : Dev nD) : W2 m ρ c (Proc.devRef .tc main_arg3) = m ((c : Thread nD τ).loc main_arg3) :=
  ((W2_of_ne m ρ c main_arg3 (by decide)).trans (keeps% hostOps0 main_arg3)).trans rfl
theorem W2_main_arg4 (c : Dev nD) : W2 m ρ c (Proc.devRef .tc main_arg4) = m ((c : Thread nD τ).loc main_arg4) :=
  ((W2_of_ne m ρ c main_arg4 (by decide)).trans (keeps% hostOps0 main_arg4)).trans rfl
theorem W4_main_arg5 (c : Dev nD) : W4 m ρ c (Proc.devRef .tc main_arg5) = m ((c : Thread nD τ).loc main_arg5) :=
  ((W4_of_ne m ρ c main_arg5 (by decide)).trans ((keeps% hostOps1 main_arg5).trans ((W2_of_ne m ρ c main_arg5 (by decide)).trans (keeps% hostOps0 main_arg5)))).trans rfl
theorem W5_main_arg11 (c : Dev nD) : W5 m ρ c (Proc.devRef .tc main_arg11) = m ((c : Thread nD τ).loc main_arg11) :=
  ((W5_of_ne m ρ c main_arg11 (by decide)).trans ((W4_of_ne m ρ c main_arg11 (by decide)).trans ((keeps% hostOps1 main_arg11).trans ((W2_of_ne m ρ c main_arg11 (by decide)).trans (keeps% hostOps0 main_arg11))))).trans rfl
theorem W5_main_arg12 (c : Dev nD) : W5 m ρ c (Proc.devRef .tc main_arg12) = m ((c : Thread nD τ).loc main_arg12) :=
  ((W5_of_ne m ρ c main_arg12 (by decide)).trans ((W4_of_ne m ρ c main_arg12 (by decide)).trans ((keeps% hostOps1 main_arg12).trans ((W2_of_ne m ρ c main_arg12 (by decide)).trans (keeps% hostOps0 main_arg12))))).trans rfl
theorem W5_main_arg6 (c : Dev nD) : W5 m ρ c (Proc.devRef .tc main_arg6) = m ((c : Thread nD τ).loc main_arg6) :=
  ((W5_of_ne m ρ c main_arg6 (by decide)).trans ((W4_of_ne m ρ c main_arg6 (by decide)).trans ((keeps% hostOps1 main_arg6).trans ((W2_of_ne m ρ c main_arg6 (by decide)).trans (keeps% hostOps0 main_arg6))))).trans rfl
theorem W7_main_arg7 (c : Dev nD) : W7 m ρ c (Proc.devRef .tc main_arg7) = m ((c : Thread nD τ).loc main_arg7) :=
  ((W7_of_ne m ρ c main_arg7 (by decide)).trans ((keeps% hostOps3 main_arg7).trans ((W5_of_ne m ρ c main_arg7 (by decide)).trans ((W4_of_ne m ρ c main_arg7 (by decide)).trans ((keeps% hostOps1 main_arg7).trans ((W2_of_ne m ρ c main_arg7 (by decide)).trans (keeps% hostOps0 main_arg7))))))).trans rfl
theorem W7_main_arg8 (c : Dev nD) : W7 m ρ c (Proc.devRef .tc main_arg8) = m ((c : Thread nD τ).loc main_arg8) :=
  ((W7_of_ne m ρ c main_arg8 (by decide)).trans ((keeps% hostOps3 main_arg8).trans ((W5_of_ne m ρ c main_arg8 (by decide)).trans ((W4_of_ne m ρ c main_arg8 (by decide)).trans ((keeps% hostOps1 main_arg8).trans ((W2_of_ne m ρ c main_arg8 (by decide)).trans (keeps% hostOps0 main_arg8))))))).trans rfl
theorem W9_main_arg11 (c : Dev nD) : W9 m ρ c (Proc.devRef .tc main_arg11) = m ((c : Thread nD τ).loc main_arg11) :=
  ((W9_of_ne m ρ c main_arg11 (by decide)).trans ((keeps% hostOps4 main_arg11).trans ((W7_of_ne m ρ c main_arg11 (by decide)).trans (keeps% hostOps3 main_arg11)))).trans (W5_main_arg11 m ρ c)
theorem W9_main_arg12 (c : Dev nD) : W9 m ρ c (Proc.devRef .tc main_arg12) = m ((c : Thread nD τ).loc main_arg12) :=
  ((W9_of_ne m ρ c main_arg12 (by decide)).trans ((keeps% hostOps4 main_arg12).trans ((W7_of_ne m ρ c main_arg12 (by decide)).trans (keeps% hostOps3 main_arg12)))).trans (W5_main_arg12 m ρ c)
theorem W9_main_arg10 (c : Dev nD) : W9 m ρ c (Proc.devRef .tc main_arg10) = m ((c : Thread nD τ).loc main_arg10) :=
  ((W9_of_ne m ρ c main_arg10 (by decide)).trans ((keeps% hostOps4 main_arg10).trans ((W7_of_ne m ρ c main_arg10 (by decide)).trans ((keeps% hostOps3 main_arg10).trans ((W5_of_ne m ρ c main_arg10 (by decide)).trans ((W4_of_ne m ρ c main_arg10 (by decide)).trans ((keeps% hostOps1 main_arg10).trans ((W2_of_ne m ρ c main_arg10 (by decide)).trans (keeps% hostOps0 main_arg10))))))))).trans rfl
theorem W9_main_arg9 (c : Dev nD) : W9 m ρ c (Proc.devRef .tc main_arg9) = m ((c : Thread nD τ).loc main_arg9) :=
  ((W9_of_ne m ρ c main_arg9 (by decide)).trans ((keeps% hostOps4 main_arg9).trans ((W7_of_ne m ρ c main_arg9 (by decide)).trans ((keeps% hostOps3 main_arg9).trans ((W5_of_ne m ρ c main_arg9 (by decide)).trans ((W4_of_ne m ρ c main_arg9 (by decide)).trans ((keeps% hostOps1 main_arg9).trans ((W2_of_ne m ρ c main_arg9 (by decide)).trans (keeps% hostOps0 main_arg9))))))))).trans rfl
theorem W11_main_arg13 (c : Dev nD) : W11 m ρ c (Proc.devRef .tc main_arg13) = m ((c : Thread nD τ).loc main_arg13) :=
  ((W11_of_ne m ρ c main_arg13 (by decide)).trans ((keeps% hostOps5 main_arg13).trans ((W9_of_ne m ρ c main_arg13 (by decide)).trans ((keeps% hostOps4 main_arg13).trans ((W7_of_ne m ρ c main_arg13 (by decide)).trans ((keeps% hostOps3 main_arg13).trans ((W5_of_ne m ρ c main_arg13 (by decide)).trans ((W4_of_ne m ρ c main_arg13 (by decide)).trans ((keeps% hostOps1 main_arg13).trans ((W2_of_ne m ρ c main_arg13 (by decide)).trans (keeps% hostOps0 main_arg13))))))))))).trans rfl

/-- The first launch's weights, the first layer's output and statistics, and the later launches' inputs that a stretch
    or a launch leaves alone. -/
theorem W1_main_arg1 (c : Dev nD) : W1 m ρ c (Proc.devRef .tc main_arg1) = m ((c : Thread nD τ).loc main_arg1) :=
  (keeps% hostOps0 main_arg1).trans rfl
theorem W3_main_v11_0 (c : Dev nD) : W3 m ρ c (Proc.devRef .tc main_v11_0) = W2 m ρ c (Proc.devRef .tc main_v11_0) :=
  keeps% hostOps1 main_v11_0
theorem W8_main_v37_0 (c : Dev nD) : W8 m ρ c (Proc.devRef .tc main_v37_0) = W7 m ρ c (Proc.devRef .tc main_v37_0) :=
  keeps% hostOps4 main_v37_0
theorem W10_main_arg9 (c : Dev nD) : W10 m ρ c (Proc.devRef .tc main_arg9) = m ((c : Thread nD τ).loc main_arg9) :=
  (keeps% hostOps5 main_arg9).trans (W9_main_arg9 m ρ c)
theorem W12_main_v67 (c : Dev nD) : W12 m ρ c (Proc.devRef .tc main_v67) = W11 m ρ c (Proc.devRef .tc main_v67) :=
  keeps% hostOps6 main_v67
theorem W12_main_v50 (c : Dev nD) : W12 m ρ c (Proc.devRef .tc main_v50) = W9 m ρ c (Proc.devRef .tc main_v50) :=
  (keeps% hostOps6 main_v50).trans ((W11_of_ne m ρ c main_v50 (by decide)).trans (keeps% hostOps5 main_v50))

end Args

end Cert.KernelIdeal.HostValue

end
-- ==== Proof.LibColSum.lean ====
/-
  A column's sum read at an index.

  A `vector.multi_reduction <add>` of a `[K, R]` array over its FIRST axis, read on the extended reals at column `p`, is
  the sum of the `K` entries `src (k, p)` of that column: the reduced index `(p)` with the coordinate `k` put back on the
  reduced axis is `(k, p)`. The companion of the sum over the last axis of an `[R, K]` array.
-/
import Idealize.ShloMosaic.PureOps.Ideal.Laws
import Idealize.ShloMosaic.Lib.ValueIdx

noncomputable section

namespace Cert.Lib

open Idealize.ShloMosaic Idealize.ShloMosaic.ValueIdx
open scoped BigOperators

variable {K R : ℕ}

/-- The reduced index `(p)` with coordinate `k` inserted on axis 0 is `(k, p)`. -/
theorem lift_firstAxis2 (h : (⟨2, ![K, R]⟩ : Shape).Reduces [0] (⟨1, ![R]⟩ : Shape)) (p : Fin R)
    (k : Fin ((⟨2, ![K, R]⟩ : Shape).size 0)) : h.lift (ix1 p) k = ix2 (⟨k.val, k.isLt⟩ : Fin K) p := by
  funext c; apply Fin.ext
  fin_cases c <;> rfl

/-- A float sum over the first axis of a `[K, R]` array, at column `p`: the sum over that column. -/
theorem multiReduction_add_cols {φ : FTy} (src : FVec Ideal ⟨2, ![K, R]⟩ φ) (acc : BitVec φ.bits)
    (h : (⟨2, ![K, R]⟩ : Shape).Reduces [0] (⟨1, ![R]⟩ : Shape)) (hφ : FKind.Formats φ)
    (hacc : acc = FKind.add.neutral φ hφ) (p : Fin R) :
    multiReduction .add [0] (⟨1, ![R]⟩ : Shape) src acc h hφ hacc (ix1 p) = ∑ k : Fin K, src (ix2 k p) := by
  refine (Ideal.multiReduction_add_single src acc h hφ hacc (ix1 p)).trans ?_
  exact Finset.sum_congr rfl fun k _ => congrArg src (lift_firstAxis2 h p k)

end Cert.Lib

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.KRegion0.lean ====
/-
  What the linear-and-rectify region leaves in its three output arrays, as whole-array functions of its three input arrays.

  The region runs over 20 grid points. At point t it reads rows 5000·t … 5000·t + 4999 of the [100000, 128] aggregated
  features, the whole [128, 128] weights and the one bias row; it multiplies the block by the weights, adds the bias row to
  every row and takes the larger of each entry and zero; that block is the region's first output's rows 5000·t …; the
  column sums of the block and of its entrywise squares are row (t, 0, ·) of the two [20, 1, 128] statistics outputs.
-/
import proofs.«158174_j29059748725634_2_alg».proof.Proof.Gen.KernelIdeal.Frame
import proofs.«158174_j29059748725634_2_alg».proof.Proof.Spec
import proofs.«158174_j29059748725634_2_alg».proof.Proof.LibColSum
import proofs.«158174_j29059748725634_2_alg».proof.Proof.LibMatDot
import Idealize.ShloMosaic.Lib.ValueLayout
import Idealize.ShloMosaic.Lib.Pipeline.Value

set_option maxRecDepth 16384

noncomputable section

namespace Cert.KernelIdeal.RegionValue

open Cert.KernelIdeal Cert.KernelIdeal.Gen Cert.Lib
open Idealize.ShloMosaic Idealize.ShloMosaic.TcCoe Idealize.ShloMosaic.ValueIdx Idealize.SL.Sem
open Idealize.ShloMosaic.Pipeline (Dat)
open scoped BigOperators

/-! ## The body's three stored values at an entry -/

/-- The rectified block at (p, q): the larger of row p of x0 against column q of x1, plus x2 (0, q), and zero. -/
theorem linearRelu_apply (x0 : Vec Ideal S5000x128 .f32) (x1 : Vec Ideal S128x128 .f32) (x2 : Vec Ideal S1x128 .f32)
    (p : Fin 5000) (q : Fin 128) :
    k0_pay1 x0 x1 x2 (ix2 p q)
      = max ((∑ k : Fin 128, x0 (ix2 p k) * x1 (ix2 k q)) + x2 (ix2 (0 : Fin 1) q)) Spec.zeroW := by
  unfold k0_pay1
  show max (FloatOps.matmul (F := Ideal) (matDot (a := 5000) (K := 128) (b := 128) _) none
        (truncf .bf16 (shapeCast S5000x128 x0 _) _) (truncf .bf16 x1 _) (constant (F := Ideal) S5000x128 .f32 0x00000000#32) (ix2 p q)
      + broadcastTo S5000x128 (shapeCast S1x128 x2 _) _ (ix2 p q)) _ = _
  rw [shapeCast_self, shapeCast_self]
  refine congrArg₂ (fun a b : EReal => max (a + b) Spec.zeroW) ?_ ?_
  · exact matmul_plain_zero_apply _ none _ _ p q
  · exact broadcastTo_1b_ab_apply x2 _ p q

/-- The block's column sums at (u, u', q): the sum of column q of the rectified block. -/
theorem colSums0_apply (x0 : Vec Ideal S5000x128 .f32) (x1 : Vec Ideal S128x128 .f32) (x2 : Vec Ideal S1x128 .f32)
    (u u' : Fin 1) (q : Fin 128) :
    k0_pay2 x0 x1 x2 (ix3 u u' q) = ∑ r : Fin 5000, k0_pay1 x0 x1 x2 (ix2 r q) := by
  unfold k0_pay2
  refine (ValueIdx.shapeCast_ab_1ab_apply _ _ u u' q).trans ?_
  refine (shapeCast_a_1a_apply _ _ u' q).trans ?_
  exact multiReduction_add_cols (K := 5000) (R := 128) (k0_pay1 x0 x1 x2) _ _ _ _ q

/-- The column sums of the block's squares. -/
theorem colSumSq0_apply (x0 : Vec Ideal S5000x128 .f32) (x1 : Vec Ideal S128x128 .f32) (x2 : Vec Ideal S1x128 .f32)
    (u u' : Fin 1) (q : Fin 128) :
    k0_pay3 x0 x1 x2 (ix3 u u' q) = ∑ r : Fin 5000, k0_pay1 x0 x1 x2 (ix2 r q) * k0_pay1 x0 x1 x2 (ix2 r q) := by
  unfold k0_pay3
  refine (ValueIdx.shapeCast_ab_1ab_apply _ _ u u' q).trans ?_
  refine (shapeCast_a_1a_apply _ _ u' q).trans ?_
  exact multiReduction_add_cols (K := 5000) (R := 128) (mulf (k0_pay1 x0 x1 x2) (k0_pay1 x0 x1 x2)) _ _ _ _ q

/-! ## The index maps over the grid -/

/-- Point t reads and writes block t of the row-blocked arrays, the whole weights and bias row, and slab t of the
    statistics. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- A grid point as a block number. -/
def blockOf0 (t : Fin cfg0.N) : Fin 20 := ⟨t.val, t.isLt.trans_eq N_0⟩

theorem blockOf0_val (t : Fin cfg0.N) : (blockOf0 t).val = t.val := rfl

section Region
variable (V : (c : Dev nD) → (b : Ref sig .tc) → Buf (Elt Ideal) ((c : Thread nD τ).loc b))

/-- The features' block at point t, at (p, k): row 5000·t + p of the array. -/
theorem iblk0_0_apply (c : Dev nD) (t : Fin cfg0.N) (p : Fin 5000) (k : Fin 128) :
    (iblk0 (F := Ideal) V c 0 t : Vec Ideal S5000x128 .f32) (ix2 p k)
      = (V c (Pipeline.arrRef spec0 0) : Spec.Mat 100000 128) (ix2 (Spec.rowOf (blockOf0 t) p) k) := by
  obtain ⟨e0, e1, -⟩ := idx0 t
  show (V c (Pipeline.arrRef spec0 0) : Spec.Mat 100000 128) (((cfg0.win 0).blk t).view.emb (ix2 p k)) = _
  refine congrArg (V c (Pipeline.arrRef spec0 0) : Spec.Mat 100000 128) ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weights' block at every point is the whole array. -/
theorem iblk0_1_apply (c : Dev nD) (t : Fin cfg0.N) (k : Fin 128) (q : Fin 128) :
    (iblk0 (F := Ideal) V c 1 t : Vec Ideal S128x128 .f32) (ix2 k q)
      = (V c (Pipeline.arrRef spec0 1) : Spec.Mat 128 128) (ix2 k q) := by
  obtain ⟨-, -, e0, e1, -⟩ := idx0 t
  show (V c (Pipeline.arrRef spec0 1) : Spec.Mat 128 128) (((cfg0.win 1).blk t).view.emb (ix2 k q)) = _
  refine congrArg (V c (Pipeline.arrRef spec0 1) : Spec.Mat 128 128) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias row's block at every point is the row. -/
theorem iblk0_2_apply (c : Dev nD) (t : Fin cfg0.N) (q : Fin 128) :
    (iblk0 (F := Ideal) V c 2 t : Vec Ideal S1x128 .f32) (ix2 (0 : Fin 1) q)
      = (V c (Pipeline.arrRef spec0 2) : Spec.Mat 1 128) (ix2 (0 : Fin 1) q) := by
  obtain ⟨-, -, -, -, e0, e1, -⟩ := idx0 t
  show (V c (Pipeline.arrRef spec0 2) : Spec.Mat 1 128) (((cfg0.win 2).blk t).view.emb (ix2 (0 : Fin 1) q)) = _
  refine congrArg (V c (Pipeline.arrRef spec0 2) : Spec.Mat 1 128) ?_
  funext a; apply Fin.ext
  match a with
  | ⟨0, _⟩ => show win0_2.index t (0 : Fin 2) * 1 + 1 * 0 = 0; omega
  | ⟨1, _⟩ => show win0_2.index t (1 : Fin 2) * 128 + 1 * q.val = q.val; omega

end Region

/-! ## A block's entries against the whole array's -/

/-- A [5000, 128] block that is block tb of a [100000, 128] array, read at an index of the block. -/
theorem rowBlock0_entry (G : Spec.Mat 100000 128) (f : S5000x128.Idx → EReal) (tb : Fin 20)
    (h : ∀ (p : Fin 5000) (q : Fin 128), f (ix2 p q) = G (ix2 (Spec.rowOf tb p) q)) (j : S5000x128.Idx) (i : S100000x128.Idx)
    (hi0 : (i 0).val = tb.val * 5000 + (j 0).val) (hi1 : (i 1).val = (j 1).val) : f j = G i := by
  obtain ⟨p, q, rfl⟩ : ∃ (p : Fin 5000) (q : Fin 128), j = ix2 p q := ⟨j 0, j 1, eq_ix2 j⟩
  rw [h]
  refine congrArg G ?_
  funext a; apply Fin.ext
  match a with
  | ⟨0, _⟩ => exact hi0.symm
  | ⟨1, _⟩ => exact hi1.symm

/-- A [1, 1, 128] slab that is slab tb of a [20, 1, 128] array, read at an index of the slab. -/
theorem slab0_entry (G : (⟨3, ![20, 1, 128]⟩ : Shape).Idx → EReal) (f : S1x1x128.Idx → EReal) (tb : Fin 20)
    (h : ∀ (u u' : Fin 1) (q : Fin 128), f (ix3 u u' q) = G (ix3 tb (0 : Fin 1) q)) (j : S1x1x128.Idx) (i : S20x1x128.Idx)
    (hi0 : (i 0).val = tb.val) (hi2 : (i 2).val = (j 2).val) : f j = G i := by
  obtain ⟨u, u', q, rfl⟩ : ∃ (u u' : Fin 1) (q : Fin 128), j = ix3 u u' q := ⟨j 0, j 1, j 2, eq_ix3 j⟩
  rw [h]
  refine congrArg G ?_
  funext a; apply Fin.ext
  match a with
  | ⟨0, _⟩ => exact hi0.symm
  | ⟨1, _⟩ => have h1 : (i 1).val < 1 := (i 1).isLt; show 0 = (i 1).val; omega
  | ⟨2, _⟩ => exact hi2.symm

section Outputs
variable (V : (c : Dev nD) → (b : Ref sig .tc) → Buf (Elt Ideal) ((c : Thread nD τ).loc b))

/-- The rectified layer: the features times the weights plus the bias row, the larger of each entry and zero. -/
abbrev act0 (c : Dev nD) : Spec.Mat 100000 128 :=
  Spec.relu (Spec.affine (V c (Pipeline.arrRef spec0 0) : Spec.Mat 100000 128) (V c (Pipeline.arrRef spec0 1) : Spec.Mat 128 128)
    (V c (Pipeline.arrRef spec0 2) : Spec.Mat 1 128))

/-- The rectified block at point t is block t of the rectified layer. -/
theorem linearRelu_block (c : Dev nD) (t : Fin cfg0.N) (p : Fin 5000) (q : Fin 128) :
    k0_pay1 (iblk0 (F := Ideal) V c 0 t) (iblk0 (F := Ideal) V c 1 t) (iblk0 (F := Ideal) V c 2 t) (ix2 p q)
      = act0 V c (ix2 (Spec.rowOf (blockOf0 t) p) q) :=
  (linearRelu_apply (iblk0 (F := Ideal) V c 0 t) (iblk0 (F := Ideal) V c 1 t) (iblk0 (F := Ideal) V c 2 t) p q).trans
    (congrArg₂ (fun a b : EReal => max (a + b) Spec.zeroW)
      (Finset.sum_congr rfl fun k _ =>
        congrArg₂ (fun a b : EReal => a * b) (iblk0_0_apply V c t p k) (iblk0_1_apply V c t k q))
      (iblk0_2_apply V c t q))

theorem hz2' : (![0, 0] : Fin 2 → Nat) = fun _ => 0 := funext fun a => by fin_cases a <;> rfl
theorem hz3' : (![0, 0, 0] : Fin 3 → Nat) = fun _ => 0 := funext fun a => by fin_cases a <;> rfl

/-! ## Output 0: the rectified layer -/

/-- What point t writes back is block t of the rectified layer. -/
theorem flushed0_3_eq (c : Dev nD) (t : Fin cfg0.N) :
    (dat0 (F := Ideal) V c).flushed 3 t = ((cfg0.win 3).blk t).view.read (Elt Ideal) (act0 V c) := by
  show (cfg0.win 3).cut (grid0.coords t) ((dat0 (F := Ideal) V c).after 3 t) = _
  rw [after0_3]
  unfold out0_3
  rw [View.canon_unit_zero hz2']
  simp only [View.ld_unit_zero (S := S5000x128) hz2', View.ld_unit_zero (S := S128x128) hz2',
    View.ld_unit_zero (S := S1x128) hz2']
  obtain ⟨-, -, -, -, -, -, e0, e1, -⟩ := idx0 t
  funext j
  show k0_pay1 (iblk0 (F := Ideal) V c 0 t) (iblk0 (F := Ideal) V c 1 t) (iblk0 (F := Ideal) V c 2 t) j
    = act0 V c (((cfg0.win 3).blk t).view.emb j)
  exact rowBlock0_entry (act0 V c)
    (k0_pay1 (iblk0 (F := Ideal) V c 0 t) (iblk0 (F := Ideal) V c 1 t) (iblk0 (F := Ideal) V c 2 t)) (blockOf0 t)
    (linearRelu_block V c t) j (((cfg0.win 3).blk t).view.emb j)
    (by show win0_3.index t (0 : Fin 2) * 5000 + 1 * (j 0).val = t.val * 5000 + (j 0).val; omega)
    (by show win0_3.index t (1 : Fin 2) * 128 + 1 * (j 1).val = (j 1).val; omega)

/-- An index of the array is in point t's block iff each coordinate is in the block's range on its axis. -/
theorem mem_blk0_3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v11_0).slice (win0_3.rect t)).set ↔ _
  rw [View.set_slice_whole, Rect.mem_set_unit]
  exact Iff.rfl

/-- Row r is in the block of point r / 5000. -/
theorem covered0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1, -⟩ := idx0 t
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The first output ends holding the rectified layer. -/
theorem final0_3 (c : Dev nD) :
    (dat0 (F := Ideal) V c).arrAt 3 cfg0.N
      = Spec.relu (Spec.affine (V c (Pipeline.arrRef spec0 0) : Spec.Mat 100000 128)
          (V c (Pipeline.arrRef spec0 1) : Spec.Mat 128 128) (V c (Pipeline.arrRef spec0 2) : Spec.Mat 1 128)) :=
  (dat0 (F := Ideal) V c).arrAt_eq_of_cover 3 (act0 V c) (fun t _ => flushed0_3_eq V c t) covered0_3

end Outputs

section Statistics
variable (V : (c : Dev nD) → (b : Ref sig .tc) → Buf (Elt Ideal) ((c : Thread nD τ).loc b))

/-! ## Outputs 1 and 2: each block's column sums, and the column sums of its squares -/

/-- The column sums of the block at point t are slab t of the rectified layer's block sums. -/
theorem colSums0_block (c : Dev nD) (t : Fin cfg0.N) (u u' : Fin 1) (q : Fin 128) :
    k0_pay2 (iblk0 (F := Ideal) V c 0 t) (iblk0 (F := Ideal) V c 1 t) (iblk0 (F := Ideal) V c 2 t) (ix3 u u' q)
      = Spec.blockSums (act0 V c) (ix3 (blockOf0 t) (0 : Fin 1) q) :=
  (colSums0_apply (iblk0 (F := Ideal) V c 0 t) (iblk0 (F := Ideal) V c 1 t) (iblk0 (F := Ideal) V c 2 t) u u' q).trans
    ((Finset.sum_congr rfl fun r _ => linearRelu_block V c t r q).trans
      (Spec.blockSums_apply (act0 V c) (blockOf0 t) (0 : Fin 1) q).symm)

/-- The column sums of the squares of the block at point t. -/
theorem colSumSq0_block (c : Dev nD) (t : Fin cfg0.N) (u u' : Fin 1) (q : Fin 128) :
    k0_pay3 (iblk0 (F := Ideal) V c 0 t) (iblk0 (F := Ideal) V c 1 t) (iblk0 (F := Ideal) V c 2 t) (ix3 u u' q)
      = Spec.blockSumSq (act0 V c) (ix3 (blockOf0 t) (0 : Fin 1) q) :=
  (colSumSq0_apply (iblk0 (F := Ideal) V c 0 t) (iblk0 (F := Ideal) V c 1 t) (iblk0 (F := Ideal) V c 2 t) u u' q).trans
    ((Finset.sum_congr rfl fun r _ =>
        congrArg₂ (fun a b : EReal => a * b) (linearRelu_block V c t r q) (linearRelu_block V c t r q)).trans
      (Spec.blockSumSq_apply (act0 V c) (blockOf0 t) (0 : Fin 1) q).symm)

/-- What point t writes back to the sums is slab t of the block sums. -/
theorem flushed0_4_eq (c : Dev nD) (t : Fin cfg0.N) :
    (dat0 (F := Ideal) V c).flushed 4 t = ((cfg0.win 4).blk t).view.read (Elt Ideal) (Spec.blockSums (act0 V c)) := by
  show (cfg0.win 4).cut (grid0.coords t) ((dat0 (F := Ideal) V c).after 4 t) = _
  rw [after0_4]
  unfold out0_4
  rw [View.canon_unit_zero hz3']
  simp only [View.ld_unit_zero (S := S5000x128) hz2', View.ld_unit_zero (S := S128x128) hz2',
    View.ld_unit_zero (S := S1x128) hz2']
  obtain ⟨-, -, -, -, -, -, -, -, e0, e1, e2, -⟩ := idx0 t
  funext j
  have hj0 : (j 0).val < 1 := (j 0).isLt
  show k0_pay2 (iblk0 (F := Ideal) V c 0 t) (iblk0 (F := Ideal) V c 1 t) (iblk0 (F := Ideal) V c 2 t) j
    = Spec.blockSums (act0 V c) (((cfg0.win 4).blk t).view.emb j)
  exact slab0_entry (Spec.blockSums (act0 V c))
    (k0_pay2 (iblk0 (F := Ideal) V c 0 t) (iblk0 (F := Ideal) V c 1 t) (iblk0 (F := Ideal) V c 2 t)) (blockOf0 t)
    (colSums0_block V c t) j (((cfg0.win 4).blk t).view.emb j)
    (by show win0_4.index t (0 : Fin 3) * 1 + 1 * (j 0).val = t.val; omega)
    (by show win0_4.index t (2 : Fin 3) * 128 + 1 * (j 2).val = (j 2).val; omega)

/-- What point t writes back to the sums of squares is slab t of the block sums of squares. -/
theorem flushed0_5_eq (c : Dev nD) (t : Fin cfg0.N) :
    (dat0 (F := Ideal) V c).flushed 5 t = ((cfg0.win 5).blk t).view.read (Elt Ideal) (Spec.blockSumSq (act0 V c)) := by
  show (cfg0.win 5).cut (grid0.coords t) ((dat0 (F := Ideal) V c).after 5 t) = _
  rw [after0_5]
  unfold out0_5
  rw [View.canon_unit_zero hz3']
  simp only [View.ld_unit_zero (S := S5000x128) hz2', View.ld_unit_zero (S := S128x128) hz2',
    View.ld_unit_zero (S := S1x128) hz2']
  obtain ⟨-, -, -, -, -, -, -, -, -, -, -, e0, e1, e2⟩ := idx0 t
  funext j
  have hj0 : (j 0).val < 1 := (j 0).isLt
  show k0_pay3 (iblk0 (F := Ideal) V c 0 t) (iblk0 (F := Ideal) V c 1 t) (iblk0 (F := Ideal) V c 2 t) j
    = Spec.blockSumSq (act0 V c) (((cfg0.win 5).blk t).view.emb j)
  exact slab0_entry (Spec.blockSumSq (act0 V c))
    (k0_pay3 (iblk0 (F := Ideal) V c 0 t) (iblk0 (F := Ideal) V c 1 t) (iblk0 (F := Ideal) V c 2 t)) (blockOf0 t)
    (colSumSq0_block V c t) j (((cfg0.win 5).blk t).view.emb j)
    (by show win0_5.index t (0 : Fin 3) * 1 + 1 * (j 0).val = t.val; omega)
    (by show win0_5.index t (2 : Fin 3) * 128 + 1 * (j 2).val = (j 2).val; omega)

theorem mem_blk0_4 (t : Fin cfg0.N) (i : S20x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v11_1).slice (win0_4.rect t)).set ↔ _
  rw [View.set_slice_whole, Rect.mem_set_unit]
  exact Iff.rfl

theorem mem_blk0_5 (t : Fin cfg0.N) (i : S20x1x128.Idx) :
    i ∈ ((cfg0.win 5).blk t).view.set ↔ ∀ a : Fin 3, win0_5.index t a * S1x1x128.size a ≤ (i a).val
      ∧ (i a).val < win0_5.index t a * S1x1x128.size a + S1x1x128.size a := by
  show i ∈ ((View.whole main_v11_2).slice (win0_5.rect t)).set ↔ _
  rw [View.set_slice_whole, Rect.mem_set_unit]
  exact Iff.rfl

/-- Slab s is the block of point s. -/
theorem covered0_4 (i : S20x1x128.Idx) :
    ∃ t : Fin cfg0.N, (cfg0.win 4).flush t = true ∧ i ∈ ((cfg0.win 4).blk t).view.set := by
  have hi0 : (i 0).val < 20 := (i 0).isLt
  have hi1 : (i 1).val < 1 := (i 1).isLt
  have hi2 : (i 2).val < 128 := (i 2).isLt
  have hN : cfg0.N = 20 := N_0
  obtain ⟨t, ht⟩ : ∃ t : Fin cfg0.N, t.val = (i 0).val := ⟨⟨(i 0).val, by rw [hN]; omega⟩, rfl⟩
  obtain ⟨-, -, -, -, -, -, -, -, e0, e1, e2, -⟩ := idx0 t
  refine ⟨t, flush0_4 t, ?_⟩
  rw [mem_blk0_4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 128 ≤ (i 2).val ∧ (i 2).val < win0_4.index t (2 : Fin 3) * 128 + 128
    omega

theorem covered0_5 (i : S20x1x128.Idx) :
    ∃ t : Fin cfg0.N, (cfg0.win 5).flush t = true ∧ i ∈ ((cfg0.win 5).blk t).view.set := by
  have hi0 : (i 0).val < 20 := (i 0).isLt
  have hi1 : (i 1).val < 1 := (i 1).isLt
  have hi2 : (i 2).val < 128 := (i 2).isLt
  have hN : cfg0.N = 20 := N_0
  obtain ⟨t, ht⟩ : ∃ t : Fin cfg0.N, t.val = (i 0).val := ⟨⟨(i 0).val, by rw [hN]; omega⟩, rfl⟩
  obtain ⟨-, -, -, -, -, -, -, -, -, -, -, e0, e1, e2⟩ := idx0 t
  refine ⟨t, flush0_5 t, ?_⟩
  rw [mem_blk0_5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1 ≤ (i 1).val ∧ (i 1).val < win0_5.index t (1 : Fin 3) * 1 + 1
    omega
  | ⟨2, _⟩ =>
    show win0_5.index t (2 : Fin 3) * 128 ≤ (i 2).val ∧ (i 2).val < win0_5.index t (2 : Fin 3) * 128 + 128
    omega

/-- The second output ends holding each block's column sums of the rectified layer. -/
theorem final0_4 (c : Dev nD) :
    (dat0 (F := Ideal) V c).arrAt 4 cfg0.N
      = Spec.blockSums (Spec.relu (Spec.affine (V c (Pipeline.arrRef spec0 0) : Spec.Mat 100000 128)
          (V c (Pipeline.arrRef spec0 1) : Spec.Mat 128 128) (V c (Pipeline.arrRef spec0 2) : Spec.Mat 1 128))) :=
  (dat0 (F := Ideal) V c).arrAt_eq_of_cover 4 (Spec.blockSums (act0 V c)) (fun t _ => flushed0_4_eq V c t) covered0_4

/-- The third output ends holding each block's column sums of the squares of the rectified layer. -/
theorem final0_5 (c : Dev nD) :
    (dat0 (F := Ideal) V c).arrAt 5 cfg0.N
      = Spec.blockSumSq (Spec.relu (Spec.affine (V c (Pipeline.arrRef spec0 0) : Spec.Mat 100000 128)
          (V c (Pipeline.arrRef spec0 1) : Spec.Mat 128 128) (V c (Pipeline.arrRef spec0 2) : Spec.Mat 1 128))) :=
  (dat0 (F := Ideal) V c).arrAt_eq_of_cover 5 (Spec.blockSumSq (act0 V c)) (fun t _ => flushed0_5_eq V c t) covered0_5

end Statistics

end Cert.KernelIdeal.RegionValue

end
-- ==== Proof.KRegion1.lean ====
/-
  What the normalisation region leaves in its output array: every entry is the scaled, centred and shifted entry of the
  input array, `γ·(h − μ)·(v + ε)^(-1/2) + β`, the four statistics read from their one-row arrays at the entry's column.

  The region walks the 100000 rows in 20 blocks of 5000 rows. At a point the body's result at entry `(p, q)` of the block is
  the formula at `(p, q)` of the block it loaded; block `t`'s entry `(p, q)` is entry `(5000·t + p, q)` of the array, and the
  one-row windows always show their whole row. So each point writes back its block of the one whole-array function, and
  the 20 blocks cover the array: the row `r` is in block `r / 5000`.
-/
import proofs.«158174_j29059748725634_2_alg».proof.Proof.Gen.KernelIdeal.Frame
import proofs.«158174_j29059748725634_2_alg».proof.Proof.Spec
import Idealize.ShloMosaic.Lib.Pipeline.Value
import Idealize.ShloMosaic.Lib.ValueLayout

set_option maxRecDepth 16384

noncomputable section

namespace Cert.KernelIdeal.RegionValue

open Cert.KernelIdeal Idealize.ShloMosaic Idealize.ShloMosaic.TcCoe Idealize.ShloMosaic.ValueIdx Idealize.SL.Sem
open Idealize.ShloMosaic.Pipeline (Dat)

/-- The zero offsets of a whole-block load or store. -/
theorem zeroOffsets1 : (![0, 0] : Fin 2 → Nat) = fun _ => 0 := funext fun a => by fin_cases a <;> rfl

/-- The body's result at entry `(p, q)` of a block: the formula of the loaded block and rows at `(p, q)`. -/
theorem normPayload1_apply (x0 : Vec Ideal S5000x128 .f32) (x1 x2 x3 x4 : Vec Ideal S1x128 .f32) (p : Fin 5000) (q : Fin 128) :
    Gen.k1_pay1 x0 x1 x2 x3 x4 (ix2 p q)
      = x3 (ix2 (0 : Fin 1) q) * (x0 (ix2 p q) - x1 (ix2 (0 : Fin 1) q)) * Ideal.rsqrt (x2 (ix2 (0 : Fin 1) q) + Spec.epsW)
        + x4 (ix2 (0 : Fin 1) q) := by
  unfold Gen.k1_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The same at any index of the block, the column read off the index. -/
theorem normPayload1_at (x0 : Vec Ideal S5000x128 .f32) (x1 x2 x3 x4 : Vec Ideal S1x128 .f32) (j : S5000x128.Idx) :
    Gen.k1_pay1 x0 x1 x2 x3 x4 j
      = x3 (ix2 (0 : Fin 1) (j 1)) * (x0 j - x1 (ix2 (0 : Fin 1) (j 1))) * Ideal.rsqrt (x2 (ix2 (0 : Fin 1) (j 1)) + Spec.epsW)
        + x4 (ix2 (0 : Fin 1) (j 1)) := by
  obtain ⟨p, q, rfl⟩ : ∃ (p : Fin 5000) (q : Fin 128), j = ix2 p q := ⟨j 0, j 1, eq_ix2 j⟩
  exact normPayload1_apply x0 x1 x2 x3 x4 p q

/-- A block entry of the body's result is the normalised array's entry, once each loaded value is its array's entry there. -/
theorem normBlock1 (x0 : Vec Ideal S5000x128 .f32) (x1 x2 x3 x4 : Vec Ideal S1x128 .f32)
    (H : Spec.Mat 100000 128) (μ v γ β : Spec.Mat 1 128) (j : S5000x128.Idx) (i : S100000x128.Idx)
    (r0 : x0 j = H i) (r1 : x1 (ix2 (0 : Fin 1) (j 1)) = μ (ix2 (0 : Fin 1) (i 1)))
    (r2 : x2 (ix2 (0 : Fin 1) (j 1)) = v (ix2 (0 : Fin 1) (i 1)))
    (r3 : x3 (ix2 (0 : Fin 1) (j 1)) = γ (ix2 (0 : Fin 1) (i 1)))
    (r4 : x4 (ix2 (0 : Fin 1) (j 1)) = β (ix2 (0 : Fin 1) (i 1))) :
    Gen.k1_pay1 x0 x1 x2 x3 x4 j = Spec.bnApply H μ v γ β i := by
  rw [normPayload1_at, r0, r1, r2, r3, r4]
  rfl

/-- The index maps over the grid: the input block moves with the output block down the rows, the one-row windows stay. -/
theorem indexFacts1 : ∀ t : Fin cfg1.N, win1_0.index t = ![t.val, 0] ∧ win1_5.index t = ![t.val, 0]
    ∧ win1_1.index t = ![0, 0] ∧ win1_2.index t = ![0, 0] ∧ win1_3.index t = ![0, 0] ∧ win1_4.index t = ![0, 0] :=
  (by decide +kernel : ∀ t : Fin grid1.N, _)

/-- Every block of rows is some point's. -/
theorem indexOnto1 : ∀ q0 : Fin 20, ∃ t : Fin cfg1.N, win1_5.index t = ![q0.val, 0] :=
  (by decide +kernel : ∀ q0 : Fin 20, ∃ t : Fin grid1.N, win1_5.index t = ![q0.val, 0])

/-- The input block sits where the output block sits. -/
theorem blockEmb1 (t : Fin cfg1.N) (j : S5000x128.Idx) :
    ((cfg1.win 0).blk t).view.emb j = ((cfg1.win 5).blk t).view.emb j := by
  obtain ⟨f0, f5, f1, f2, f3, f4⟩ := indexFacts1 t
  have e0 : win1_0.index t (0 : Fin 2) = t.val := congrFun f0 0
  have e1 : win1_0.index t (1 : Fin 2) = 0 := congrFun f0 1
  have e10 : win1_5.index t (0 : Fin 2) = t.val := congrFun f5 0
  have e11 : win1_5.index t (1 : Fin 2) = 0 := congrFun f5 1
  funext a; apply Fin.ext
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * (j 1).val = win1_5.index t (1 : Fin 2) * 128 + 1 * (j 1).val; omega

/-- Window 1's block is its whole row: the row's entry at a block column is the array row's entry at that column. -/
theorem rowEmb1_1 (t : Fin cfg1.N) (j : S5000x128.Idx) :
    ((cfg1.win 1).blk t).view.emb (ix2 (0 : Fin 1) (j 1)) = ix2 (0 : Fin 1) ((((cfg1.win 5).blk t).view.emb j) 1) := by
  obtain ⟨f0, f5, f1, f2, f3, f4⟩ := indexFacts1 t
  have ea : win1_1.index t (0 : Fin 2) = 0 := congrFun f1 0
  have eb : win1_1.index t (1 : Fin 2) = 0 := congrFun f1 1
  have e11 : win1_5.index t (1 : Fin 2) = 0 := congrFun f5 1
  have hq : ((((cfg1.win 5).blk t).view.emb j) 1).val = (j 1).val := by
    show win1_5.index t (1 : Fin 2) * 128 + 1 * (j 1).val = (j 1).val; omega
  funext a; apply Fin.ext
  match a with
  | ⟨0, _⟩ => show win1_1.index t (0 : Fin 2) * 1 + 1 * 0 = 0; omega
  | ⟨1, _⟩ => show win1_1.index t (1 : Fin 2) * 128 + 1 * (j 1).val = ((((cfg1.win 5).blk t).view.emb j) 1).val; omega

/-- Window 2's block is its whole row: the row's entry at a block column is the array row's entry at that column. -/
theorem rowEmb1_2 (t : Fin cfg1.N) (j : S5000x128.Idx) :
    ((cfg1.win 2).blk t).view.emb (ix2 (0 : Fin 1) (j 1)) = ix2 (0 : Fin 1) ((((cfg1.win 5).blk t).view.emb j) 1) := by
  obtain ⟨f0, f5, f1, f2, f3, f4⟩ := indexFacts1 t
  have ea : win1_2.index t (0 : Fin 2) = 0 := congrFun f2 0
  have eb : win1_2.index t (1 : Fin 2) = 0 := congrFun f2 1
  have e11 : win1_5.index t (1 : Fin 2) = 0 := congrFun f5 1
  have hq : ((((cfg1.win 5).blk t).view.emb j) 1).val = (j 1).val := by
    show win1_5.index t (1 : Fin 2) * 128 + 1 * (j 1).val = (j 1).val; omega
  funext a; apply Fin.ext
  match a with
  | ⟨0, _⟩ => show win1_2.index t (0 : Fin 2) * 1 + 1 * 0 = 0; omega
  | ⟨1, _⟩ => show win1_2.index t (1 : Fin 2) * 128 + 1 * (j 1).val = ((((cfg1.win 5).blk t).view.emb j) 1).val; omega

/-- Window 3's block is its whole row: the row's entry at a block column is the array row's entry at that column. -/
theorem rowEmb1_3 (t : Fin cfg1.N) (j : S5000x128.Idx) :
    ((cfg1.win 3).blk t).view.emb (ix2 (0 : Fin 1) (j 1)) = ix2 (0 : Fin 1) ((((cfg1.win 5).blk t).view.emb j) 1) := by
  obtain ⟨f0, f5, f1, f2, f3, f4⟩ := indexFacts1 t
  have ea : win1_3.index t (0 : Fin 2) = 0 := congrFun f3 0
  have eb : win1_3.index t (1 : Fin 2) = 0 := congrFun f3 1
  have e11 : win1_5.index t (1 : Fin 2) = 0 := congrFun f5 1
  have hq : ((((cfg1.win 5).blk t).view.emb j) 1).val = (j 1).val := by
    show win1_5.index t (1 : Fin 2) * 128 + 1 * (j 1).val = (j 1).val; omega
  funext a; apply Fin.ext
  match a with
  | ⟨0, _⟩ => show win1_3.index t (0 : Fin 2) * 1 + 1 * 0 = 0; omega
  | ⟨1, _⟩ => show win1_3.index t (1 : Fin 2) * 128 + 1 * (j 1).val = ((((cfg1.win 5).blk t).view.emb j) 1).val; omega

/-- Window 4's block is its whole row: the row's entry at a block column is the array row's entry at that column. -/
theorem rowEmb1_4 (t : Fin cfg1.N) (j : S5000x128.Idx) :
    ((cfg1.win 4).blk t).view.emb (ix2 (0 : Fin 1) (j 1)) = ix2 (0 : Fin 1) ((((cfg1.win 5).blk t).view.emb j) 1) := by
  obtain ⟨f0, f5, f1, f2, f3, f4⟩ := indexFacts1 t
  have ea : win1_4.index t (0 : Fin 2) = 0 := congrFun f4 0
  have eb : win1_4.index t (1 : Fin 2) = 0 := congrFun f4 1
  have e11 : win1_5.index t (1 : Fin 2) = 0 := congrFun f5 1
  have hq : ((((cfg1.win 5).blk t).view.emb j) 1).val = (j 1).val := by
    show win1_5.index t (1 : Fin 2) * 128 + 1 * (j 1).val = (j 1).val; omega
  funext a; apply Fin.ext
  match a with
  | ⟨0, _⟩ => show win1_4.index t (0 : Fin 2) * 1 + 1 * 0 = 0; omega
  | ⟨1, _⟩ => show win1_4.index t (1 : Fin 2) * 128 + 1 * (j 1).val = ((((cfg1.win 5).blk t).view.emb j) 1).val; omega

variable (V : (c : Dev nD) → (b : Ref sig .tc) → Buf (Elt Ideal) ((c : Thread nD τ).loc b))

set_option maxHeartbeats 1600000 in
/-- What point `t` writes back is block `t` of the normalised array. -/
theorem flushed1_5_eq (c : Dev nD) (t : Fin cfg1.N) :
    (Gen.dat1 (F := Ideal) V c).flushed 5 t = ((cfg1.win 5).blk t).view.read (Elt Ideal)
      (Spec.bnApply (V c (Pipeline.arrRef spec1 0) : Spec.Mat 100000 128) (V c (Pipeline.arrRef spec1 1) : Spec.Mat 1 128)
        (V c (Pipeline.arrRef spec1 2) : Spec.Mat 1 128) (V c (Pipeline.arrRef spec1 3) : Spec.Mat 1 128)
        (V c (Pipeline.arrRef spec1 4) : Spec.Mat 1 128)) := by
  show (cfg1.win 5).cut (grid1.coords t) ((Gen.dat1 V c).after 5 t) = _
  rw [Gen.after1_5]
  unfold Gen.out1_5
  rw [View.canon_unit_zero zeroOffsets1]
  simp only [View.ld_unit_zero (S := S5000x128) zeroOffsets1, View.ld_unit_zero (S := S1x128) zeroOffsets1]
  refine funext fun (j : S5000x128.Idx) => ?_
  exact normBlock1 (Gen.iblk1 V c 0 t) (Gen.iblk1 V c 1 t) (Gen.iblk1 V c 2 t) (Gen.iblk1 V c 3 t) (Gen.iblk1 V c 4 t)
    (V c (Pipeline.arrRef spec1 0)) (V c (Pipeline.arrRef spec1 1)) (V c (Pipeline.arrRef spec1 2))
    (V c (Pipeline.arrRef spec1 3)) (V c (Pipeline.arrRef spec1 4)) j (((cfg1.win 5).blk t).view.emb j)
    (congrArg (V c (Pipeline.arrRef spec1 0)) (blockEmb1 t j)) (congrArg (V c (Pipeline.arrRef spec1 1)) (rowEmb1_1 t j))
    (congrArg (V c (Pipeline.arrRef spec1 2)) (rowEmb1_2 t j)) (congrArg (V c (Pipeline.arrRef spec1 3)) (rowEmb1_3 t j))
    (congrArg (V c (Pipeline.arrRef spec1 4)) (rowEmb1_4 t j))

/-- An index of the array is in point `t`'s block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v24).slice (win1_5.rect t)).set ↔ _
  rw [View.set_slice_whole, Rect.mem_set_unit]
  exact Iff.rfl

/-- Every index of the array is in some point's block: row `r` in block `r / 5000`. -/
theorem cover1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := indexOnto1 ⟨(i 0).val / 5000, by omega⟩
  have q0 : win1_5.index t (0 : Fin 2) = (i 0).val / 5000 := congrFun ht 0
  have q1 : win1_5.index t (1 : Fin 2) = 0 := congrFun ht 1
  refine ⟨t, Gen.flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The array the region leaves: the normalised input array. -/
theorem final1_5 (c : Dev nD) :
    (Gen.dat1 (F := Ideal) V c).arrAt 5 cfg1.N
      = Spec.bnApply (V c (Pipeline.arrRef spec1 0) : Spec.Mat 100000 128) (V c (Pipeline.arrRef spec1 1) : Spec.Mat 1 128)
        (V c (Pipeline.arrRef spec1 2) : Spec.Mat 1 128) (V c (Pipeline.arrRef spec1 3) : Spec.Mat 1 128)
        (V c (Pipeline.arrRef spec1 4) : Spec.Mat 1 128) :=
  (Gen.dat1 (F := Ideal) V c).arrAt_eq_of_cover 5 _ (fun t _ => flushed1_5_eq V c t) (cover1_5)

end Cert.KernelIdeal.RegionValue

end
-- ==== Proof.KRegion2.lean ====
/-
  What the matrix-product region leaves in its output array: the plain product of the input array with the weights.

  The region walks the 100000 rows in 20 blocks of 5000 rows; the weights' window always shows the whole `[128, 64]` array.
  At a point the body's result at entry `(p, q)` of the block is row `p` of the loaded block against column `q` of the
  weights (the conversion to the narrower format on the way in is the identity on the extended reals, and the accumulator
  starts at zero); row `p` of block `t` is row `5000·t + p` of the array. So each point writes back its block of the product,
  and the 20 blocks cover the array.
-/
import proofs.«158174_j29059748725634_2_alg».proof.Proof.Gen.KernelIdeal.Frame
import proofs.«158174_j29059748725634_2_alg».proof.Proof.Spec
import proofs.«158174_j29059748725634_2_alg».proof.Proof.LibMatDot
import Idealize.ShloMosaic.Lib.Pipeline.Value
import Idealize.ShloMosaic.Lib.ValueLayout

set_option maxRecDepth 16384

noncomputable section

namespace Cert.KernelIdeal.RegionValue

open Cert.KernelIdeal Idealize.ShloMosaic Idealize.ShloMosaic.TcCoe Idealize.ShloMosaic.ValueIdx Idealize.SL.Sem
open Idealize.ShloMosaic.Pipeline (Dat)
open Facts₀ Facts
open scoped BigOperators

/-- The zero offsets of a whole-block load or store. -/
theorem zeroOffsets2 : (![0, 0] : Fin 2 → Nat) = fun _ => 0 := funext fun a => by fin_cases a <;> rfl

/-- The body's result at entry `(p, q)` of a block: row `p` of the loaded block against column `q` of the weights. -/
theorem productPayload2_apply (x0 : Vec Ideal S5000x128 .f32) (x1 : Vec Ideal S128x64 .f32) (p : Fin 5000) (q : Fin 64) :
    Gen.k2_pay1 x0 x1 (ix2 p q) = ∑ k : Fin 128, x0 (ix2 p k) * x1 (ix2 k q) := by
  unfold Gen.k2_pay1
  simp only [shapeCast_self]
  exact Cert.Lib.matmul_plain_zero_apply dot_S5000x128_S128x64_S5000x64_1_0_0_1_n_n.wf none
    (truncf .bf16 x0 bitsLt_bf16_f32) (truncf .bf16 x1 bitsLt_bf16_f32) p q

/-- The same at any index of the block. -/
theorem productPayload2_at (x0 : Vec Ideal S5000x128 .f32) (x1 : Vec Ideal S128x64 .f32) (j : S5000x64.Idx) :
    Gen.k2_pay1 x0 x1 j = ∑ k : Fin 128, x0 (ix2 (j 0) k) * x1 (ix2 k (j 1)) := by
  obtain ⟨p, q, rfl⟩ : ∃ (p : Fin 5000) (q : Fin 64), j = ix2 p q := ⟨j 0, j 1, eq_ix2 j⟩
  exact productPayload2_apply x0 x1 p q

/-- A block entry of the body's result is the product's entry, once each loaded value is its array's entry there. -/
theorem productBlock2 (x0 : Vec Ideal S5000x128 .f32) (x1 : Vec Ideal S128x64 .f32) (X : Spec.Mat 100000 128)
    (W : Spec.Mat 128 64) (j : S5000x64.Idx) (i : S100000x64.Idx)
    (r0 : ∀ k : Fin 128, x0 (ix2 (j 0) k) = X (ix2 (i 0) k)) (r1 : ∀ k : Fin 128, x1 (ix2 k (j 1)) = W (ix2 k (i 1))) :
    Gen.k2_pay1 x0 x1 j = Spec.product X W i := by
  rw [productPayload2_at]
  exact Finset.sum_congr rfl fun k _ => by rw [r0 k, r1 k]

/-- The index maps over the grid: the input block moves with the output block down the rows, the weights' window stays. -/
theorem indexFacts2 : ∀ t : Fin cfg2.N, win2_0.index t = ![t.val, 0] ∧ win2_2.index t = ![t.val, 0] ∧ win2_1.index t = ![0, 0] :=
  (by decide +kernel : ∀ t : Fin grid2.N, _)

/-- Every block of rows is some point's. -/
theorem indexOnto2 : ∀ q0 : Fin 20, ∃ t : Fin cfg2.N, win2_2.index t = ![q0.val, 0] :=
  (by decide +kernel : ∀ q0 : Fin 20, ∃ t : Fin grid2.N, win2_2.index t = ![q0.val, 0])

variable (V : (c : Dev nD) → (b : Ref sig .tc) → Buf (Elt Ideal) ((c : Thread nD τ).loc b))

/-- What point `t` writes back is block `t` of the product. -/
theorem flushed2_2_eq (c : Dev nD) (t : Fin cfg2.N) :
    (Gen.dat2 (F := Ideal) V c).flushed 2 t = ((cfg2.win 2).blk t).view.read (Elt Ideal)
      (Spec.product (V c (Pipeline.arrRef spec2 0) : Spec.Mat 100000 128) (V c (Pipeline.arrRef spec2 1) : Spec.Mat 128 64)) := by
  show (cfg2.win 2).cut (grid2.coords t) ((Gen.dat2 V c).after 2 t) = _
  rw [Gen.after2_2]
  unfold Gen.out2_2
  rw [View.canon_unit_zero zeroOffsets2]
  simp only [View.ld_unit_zero (S := S5000x128) zeroOffsets2, View.ld_unit_zero (S := S128x64) zeroOffsets2]
  obtain ⟨f0, f2, f1⟩ := indexFacts2 t
  have e0 : win2_0.index t (0 : Fin 2) = t.val := congrFun f0 0
  have e1 : win2_0.index t (1 : Fin 2) = 0 := congrFun f0 1
  have e2 : win2_1.index t (0 : Fin 2) = 0 := congrFun f1 0
  have e3 : win2_1.index t (1 : Fin 2) = 0 := congrFun f1 1
  have e4 : win2_2.index t (0 : Fin 2) = t.val := congrFun f2 0
  have e5 : win2_2.index t (1 : Fin 2) = 0 := congrFun f2 1
  refine funext fun (j : S5000x64.Idx) => ?_
  have hp : ((((cfg2.win 2).blk t).view.emb j) 0).val = win2_2.index t (0 : Fin 2) * 5000 + 1 * (j 0).val := rfl
  have hq : ((((cfg2.win 2).blk t).view.emb j) 1).val = win2_2.index t (1 : Fin 2) * 64 + 1 * (j 1).val := rfl
  have h0 : ∀ k : Fin 128, ((cfg2.win 0).blk t).view.emb (ix2 (j 0) k) = ix2 ((((cfg2.win 2).blk t).view.emb j) 0) k := by
    intro k; funext a; apply Fin.ext
    match a with
    | ⟨0, _⟩ => show win2_0.index t (0 : Fin 2) * 5000 + 1 * (j 0).val = ((((cfg2.win 2).blk t).view.emb j) 0).val; omega
    | ⟨1, _⟩ => show win2_0.index t (1 : Fin 2) * 128 + 1 * k.val = k.val; omega
  have h1 : ∀ k : Fin 128, ((cfg2.win 1).blk t).view.emb (ix2 k (j 1)) = ix2 k ((((cfg2.win 2).blk t).view.emb j) 1) := by
    intro k; funext a; apply Fin.ext
    match a with
    | ⟨0, _⟩ => show win2_1.index t (0 : Fin 2) * 128 + 1 * k.val = k.val; omega
    | ⟨1, _⟩ => show win2_1.index t (1 : Fin 2) * 64 + 1 * (j 1).val = ((((cfg2.win 2).blk t).view.emb j) 1).val; omega
  exact productBlock2 (Gen.iblk2 V c 0 t) (Gen.iblk2 V c 1 t) (V c (Pipeline.arrRef spec2 0)) (V c (Pipeline.arrRef spec2 1))
    j (((cfg2.win 2).blk t).view.emb j)
    (fun k => congrArg (V c (Pipeline.arrRef spec2 0)) (h0 k)) (fun k => congrArg (V c (Pipeline.arrRef spec2 1)) (h1 k))

/-- An index of the array is in point `t`'s block iff each coordinate is in the block's range on its axis. -/
theorem mem_blk2_2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v25).slice (win2_2.rect t)).set ↔ _
  rw [View.set_slice_whole, Rect.mem_set_unit]
  exact Iff.rfl

/-- Every index of the array is in some point's block: row `r` in block `r / 5000`. -/
theorem cover2_2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := indexOnto2 ⟨(i 0).val / 5000, by omega⟩
  have q0 : win2_2.index t (0 : Fin 2) = (i 0).val / 5000 := congrFun ht 0
  have q1 : win2_2.index t (1 : Fin 2) = 0 := congrFun ht 1
  refine ⟨t, Gen.flush2_2 t, ?_⟩
  rw [mem_blk2_2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The array the region leaves: the product of the input array with the weights. -/
theorem final2_2 (c : Dev nD) :
    (Gen.dat2 (F := Ideal) V c).arrAt 2 cfg2.N
      = Spec.product (V c (Pipeline.arrRef spec2 0) : Spec.Mat 100000 128) (V c (Pipeline.arrRef spec2 1) : Spec.Mat 128 64) :=
  (Gen.dat2 (F := Ideal) V c).arrAt_eq_of_cover 2 _ (fun t _ => flushed2_2_eq V c t) (cover2_2)

end Cert.KernelIdeal.RegionValue

end
-- ==== Proof.KRegion3.lean ====
/-
  What the bias-and-rectify region leaves in its three output arrays, as whole-array functions of its two input arrays.

  The region runs over 20 grid points. At point t it reads rows 5000·t … 5000·t + 4999 of the [100000, 64] aggregate and
  the one bias row, adds the bias row to every row and takes the larger of each entry and zero; that block is the region's
  first output's rows 5000·t …; the column sums of the block and of its entrywise squares are row (t, 0, ·) of the two
  [20, 1, 64] statistics outputs.
-/
import proofs.«158174_j29059748725634_2_alg».proof.Proof.Gen.KernelIdeal.Frame
import proofs.«158174_j29059748725634_2_alg».proof.Proof.Spec
import proofs.«158174_j29059748725634_2_alg».proof.Proof.LibColSum
import Idealize.ShloMosaic.Lib.ValueLayout
import Idealize.ShloMosaic.Lib.Pipeline.Value

set_option maxRecDepth 16384

noncomputable section

namespace Cert.KernelIdeal.RegionValue

open Cert.KernelIdeal Cert.KernelIdeal.Gen Cert.Lib
open Idealize.ShloMosaic Idealize.ShloMosaic.TcCoe Idealize.ShloMosaic.ValueIdx Idealize.SL.Sem
open Idealize.ShloMosaic.Pipeline (Dat)
open scoped BigOperators

/-! ## The body's three stored values at an entry -/

/-- The rectified block at (p, q): the larger of x0 (p, q) + x1 (0, q) and zero. -/
theorem biasRelu_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) Spec.zeroW := by
  unfold k3_pay1
  show max (shapeCast S5000x64 x0 _ (ix2 p q) + broadcastTo S5000x64 (shapeCast S1x64 x1 _) _ (ix2 p q)) _ = _
  rw [shapeCast_self, shapeCast_self]
  refine congrArg (fun z => max (x0 (ix2 p q) + z) Spec.zeroW) ?_
  exact broadcastTo_1b_ab_apply x1 _ p q

/-- The block's column sums at (u, u', q): the sum of column q of the rectified block. -/
theorem colSums_apply (x0 : Vec Ideal S5000x64 .f32) (x1 : Vec Ideal S1x64 .f32) (u u' : Fin 1) (q : Fin 64) :
    k3_pay2 x0 x1 (ix3 u u' q) = ∑ r : Fin 5000, k3_pay1 x0 x1 (ix2 r q) := by
  unfold k3_pay2
  refine (ValueIdx.shapeCast_ab_1ab_apply _ _ u u' q).trans ?_
  refine (shapeCast_a_1a_apply _ _ u' q).trans ?_
  exact multiReduction_add_cols (K := 5000) (R := 64) (k3_pay1 x0 x1) _ _ _ _ q

/-- The column sums of the block's squares. -/
theorem colSumSq_apply (x0 : Vec Ideal S5000x64 .f32) (x1 : Vec Ideal S1x64 .f32) (u u' : Fin 1) (q : Fin 64) :
    k3_pay3 x0 x1 (ix3 u u' q) = ∑ r : Fin 5000, k3_pay1 x0 x1 (ix2 r q) * k3_pay1 x0 x1 (ix2 r q) := by
  unfold k3_pay3
  refine (ValueIdx.shapeCast_ab_1ab_apply _ _ u u' q).trans ?_
  refine (shapeCast_a_1a_apply _ _ u' q).trans ?_
  exact multiReduction_add_cols (K := 5000) (R := 64) (mulf (k3_pay1 x0 x1) (k3_pay1 x0 x1)) _ _ _ _ q

/-! ## The index maps over the grid -/

/-- Point t reads and writes block t of the row-blocked arrays, the whole bias row, and slab t of the statistics. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 3) = t.val ∧ win3_3.index t (1 : Fin 3) = 0 ∧ win3_3.index t (2 : Fin 3) = 0
    ∧ win3_4.index t (0 : Fin 3) = t.val ∧ win3_4.index t (1 : Fin 3) = 0 ∧ win3_4.index t (2 : Fin 3) = 0 :=
  (by decide +kernel : ∀ t : Fin grid3.N, _)

/-- A grid point as a block number. -/
def blockOf3 (t : Fin cfg3.N) : Fin 20 := ⟨t.val, t.isLt.trans_eq N_3⟩

theorem blockOf3_val (t : Fin cfg3.N) : (blockOf3 t).val = t.val := rfl

section Region
variable (V : (c : Dev nD) → (b : Ref sig .tc) → Buf (Elt Ideal) ((c : Thread nD τ).loc b))

/-- The aggregate's block at point t, at (p, q): row 5000·t + p of the array. -/
theorem iblk3_0_apply (c : Dev nD) (t : Fin cfg3.N) (p : Fin 5000) (q : Fin 64) :
    (iblk3 (F := Ideal) V c 0 t : Vec Ideal S5000x64 .f32) (ix2 p q)
      = (V c (Pipeline.arrRef spec3 0) : Spec.Mat 100000 64) (ix2 (Spec.rowOf (blockOf3 t) p) q) := by
  obtain ⟨e0, e1, -⟩ := idx3 t
  show (V c (Pipeline.arrRef spec3 0) : Spec.Mat 100000 64) (((cfg3.win 0).blk t).view.emb (ix2 p q)) = _
  refine congrArg (V c (Pipeline.arrRef spec3 0) : Spec.Mat 100000 64) ?_
  funext a; apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega

/-- The bias row's block at every point is the row. -/
theorem iblk3_1_apply (c : Dev nD) (t : Fin cfg3.N) (q : Fin 64) :
    (iblk3 (F := Ideal) V c 1 t : Vec Ideal S1x64 .f32) (ix2 (0 : Fin 1) q)
      = (V c (Pipeline.arrRef spec3 1) : Spec.Mat 1 64) (ix2 (0 : Fin 1) q) := by
  obtain ⟨-, -, e0, e1, -⟩ := idx3 t
  show (V c (Pipeline.arrRef spec3 1) : Spec.Mat 1 64) (((cfg3.win 1).blk t).view.emb (ix2 (0 : Fin 1) q)) = _
  refine congrArg (V c (Pipeline.arrRef spec3 1) : Spec.Mat 1 64) ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

end Region

/-! ## A block's entries against the whole array's -/

/-- A [5000, 64] block that is block tb of a [100000, 64] array, read at an index of the block. -/
theorem rowBlock_entry (G : Spec.Mat 100000 64) (f : S5000x64.Idx → EReal) (tb : Fin 20)
    (h : ∀ (p : Fin 5000) (q : Fin 64), f (ix2 p q) = G (ix2 (Spec.rowOf tb p) q)) (j : S5000x64.Idx) (i : S100000x64.Idx)
    (hi0 : (i 0).val = tb.val * 5000 + (j 0).val) (hi1 : (i 1).val = (j 1).val) : f j = G i := by
  obtain ⟨p, q, rfl⟩ : ∃ (p : Fin 5000) (q : Fin 64), j = ix2 p q := ⟨j 0, j 1, eq_ix2 j⟩
  rw [h]
  refine congrArg G ?_
  funext a; apply Fin.ext
  match a with
  | ⟨0, _⟩ => exact hi0.symm
  | ⟨1, _⟩ => exact hi1.symm

/-- A [1, 1, 64] slab that is slab tb of a [20, 1, 64] array, read at an index of the slab. -/
theorem slab_entry (G : (⟨3, ![20, 1, 64]⟩ : Shape).Idx → EReal) (f : S1x1x64.Idx → EReal) (tb : Fin 20)
    (h : ∀ (u u' : Fin 1) (q : Fin 64), f (ix3 u u' q) = G (ix3 tb (0 : Fin 1) q)) (j : S1x1x64.Idx) (i : S20x1x64.Idx)
    (hi0 : (i 0).val = tb.val) (hi2 : (i 2).val = (j 2).val) : f j = G i := by
  obtain ⟨u, u', q, rfl⟩ : ∃ (u u' : Fin 1) (q : Fin 64), j = ix3 u u' q := ⟨j 0, j 1, j 2, eq_ix3 j⟩
  rw [h]
  refine congrArg G ?_
  funext a; apply Fin.ext
  match a with
  | ⟨0, _⟩ => exact hi0.symm
  | ⟨1, _⟩ => have h1 : (i 1).val < 1 := (i 1).isLt; show 0 = (i 1).val; omega
  | ⟨2, _⟩ => exact hi2.symm

section Outputs
variable (V : (c : Dev nD) → (b : Ref sig .tc) → Buf (Elt Ideal) ((c : Thread nD τ).loc b))

/-- The rectified array: every row of the aggregate plus the bias row, the larger of each entry and zero. -/
abbrev act3 (c : Dev nD) : Spec.Mat 100000 64 :=
  Spec.relu (Spec.addRow (V c (Pipeline.arrRef spec3 0) : Spec.Mat 100000 64) (V c (Pipeline.arrRef spec3 1) : Spec.Mat 1 64))

/-- The rectified block at point t is block t of the rectified array. -/
theorem biasRelu_block (c : Dev nD) (t : Fin cfg3.N) (p : Fin 5000) (q : Fin 64) :
    k3_pay1 (iblk3 (F := Ideal) V c 0 t) (iblk3 (F := Ideal) V c 1 t) (ix2 p q)
      = act3 V c (ix2 (Spec.rowOf (blockOf3 t) p) q) :=
  (biasRelu_apply (iblk3 (F := Ideal) V c 0 t) (iblk3 (F := Ideal) V c 1 t) p q).trans
    (congrArg₂ (fun a b : EReal => max (a + b) Spec.zeroW) (iblk3_0_apply V c t p q) (iblk3_1_apply V c t q))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Output 0: the rectified array -/

/-- What point t writes back is block t of the rectified array. -/
theorem flushed3_2_eq (c : Dev nD) (t : Fin cfg3.N) :
    (dat3 (F := Ideal) V c).flushed 2 t = ((cfg3.win 2).blk t).view.read (Elt Ideal) (act3 V c) := by
  show (cfg3.win 2).cut (grid3.coords t) ((dat3 (F := Ideal) V c).after 2 t) = _
  rw [after3_2]
  unfold out3_2
  rw [View.canon_unit_zero hz2]
  simp only [View.ld_unit_zero (S := S5000x64) hz2, View.ld_unit_zero (S := S1x64) hz2]
  obtain ⟨-, -, -, -, e0, e1, -⟩ := idx3 t
  funext j
  show k3_pay1 (iblk3 (F := Ideal) V c 0 t) (iblk3 (F := Ideal) V c 1 t) j = act3 V c (((cfg3.win 2).blk t).view.emb j)
  exact rowBlock_entry (act3 V c) (k3_pay1 (iblk3 (F := Ideal) V c 0 t) (iblk3 (F := Ideal) V c 1 t)) (blockOf3 t)
    (biasRelu_block V c t) j (((cfg3.win 2).blk t).view.emb j)
    (by show win3_2.index t (0 : Fin 2) * 5000 + 1 * (j 0).val = t.val * 5000 + (j 0).val; omega)
    (by show win3_2.index t (1 : Fin 2) * 64 + 1 * (j 1).val = (j 1).val; omega)

/-- An index of the array is in point t's block iff each coordinate is in the block's range on its axis. -/
theorem mem_blk3_2 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v37_0).slice (win3_2.rect t)).set ↔ _
  rw [View.set_slice_whole, Rect.mem_set_unit]
  exact Iff.rfl

/-- Row r is in the block of point r / 5000. -/
theorem covered3_2 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e0, e1, -⟩ := idx3 t
  refine ⟨t, flush3_2 t, ?_⟩
  rw [mem_blk3_2]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- The first output ends holding the rectified array. -/
theorem final3_2 (c : Dev nD) :
    (dat3 (F := Ideal) V c).arrAt 2 cfg3.N
      = Spec.relu (Spec.addRow (V c (Pipeline.arrRef spec3 0) : Spec.Mat 100000 64) (V c (Pipeline.arrRef spec3 1) : Spec.Mat 1 64)) :=
  (dat3 (F := Ideal) V c).arrAt_eq_of_cover 2 (act3 V c) (fun t _ => flushed3_2_eq V c t) covered3_2

end Outputs

section Statistics
variable (V : (c : Dev nD) → (b : Ref sig .tc) → Buf (Elt Ideal) ((c : Thread nD τ).loc b))

/-! ## Outputs 1 and 2: each block's column sums, and the column sums of its squares -/

/-- The column sums of the block at point t are slab t of the rectified array's block sums. -/
theorem colSums_block (c : Dev nD) (t : Fin cfg3.N) (u u' : Fin 1) (q : Fin 64) :
    k3_pay2 (iblk3 (F := Ideal) V c 0 t) (iblk3 (F := Ideal) V c 1 t) (ix3 u u' q)
      = Spec.blockSums (act3 V c) (ix3 (blockOf3 t) (0 : Fin 1) q) :=
  (colSums_apply (iblk3 (F := Ideal) V c 0 t) (iblk3 (F := Ideal) V c 1 t) u u' q).trans
    ((Finset.sum_congr rfl fun r _ => biasRelu_block V c t r q).trans
      (Spec.blockSums_apply (act3 V c) (blockOf3 t) (0 : Fin 1) q).symm)

/-- The column sums of the squares of the block at point t. -/
theorem colSumSq_block (c : Dev nD) (t : Fin cfg3.N) (u u' : Fin 1) (q : Fin 64) :
    k3_pay3 (iblk3 (F := Ideal) V c 0 t) (iblk3 (F := Ideal) V c 1 t) (ix3 u u' q)
      = Spec.blockSumSq (act3 V c) (ix3 (blockOf3 t) (0 : Fin 1) q) :=
  (colSumSq_apply (iblk3 (F := Ideal) V c 0 t) (iblk3 (F := Ideal) V c 1 t) u u' q).trans
    ((Finset.sum_congr rfl fun r _ =>
        congrArg₂ (fun a b : EReal => a * b) (biasRelu_block V c t r q) (biasRelu_block V c t r q)).trans
      (Spec.blockSumSq_apply (act3 V c) (blockOf3 t) (0 : Fin 1) q).symm)

/-- What point t writes back to the sums is slab t of the block sums. -/
theorem flushed3_3_eq (c : Dev nD) (t : Fin cfg3.N) :
    (dat3 (F := Ideal) V c).flushed 3 t = ((cfg3.win 3).blk t).view.read (Elt Ideal) (Spec.blockSums (act3 V c)) := by
  show (cfg3.win 3).cut (grid3.coords t) ((dat3 (F := Ideal) V c).after 3 t) = _
  rw [after3_3]
  unfold out3_3
  rw [View.canon_unit_zero hz3]
  simp only [View.ld_unit_zero (S := S5000x64) hz2, View.ld_unit_zero (S := S1x64) hz2]
  obtain ⟨-, -, -, -, -, -, e0, e1, e2, -⟩ := idx3 t
  funext j
  have hj0 : (j 0).val < 1 := (j 0).isLt
  show k3_pay2 (iblk3 (F := Ideal) V c 0 t) (iblk3 (F := Ideal) V c 1 t) j
    = Spec.blockSums (act3 V c) (((cfg3.win 3).blk t).view.emb j)
  exact slab_entry (Spec.blockSums (act3 V c)) (k3_pay2 (iblk3 (F := Ideal) V c 0 t) (iblk3 (F := Ideal) V c 1 t)) (blockOf3 t)
    (colSums_block V c t) j (((cfg3.win 3).blk t).view.emb j)
    (by show win3_3.index t (0 : Fin 3) * 1 + 1 * (j 0).val = t.val; omega)
    (by show win3_3.index t (2 : Fin 3) * 64 + 1 * (j 2).val = (j 2).val; omega)

/-- What point t writes back to the sums of squares is slab t of the block sums of squares. -/
theorem flushed3_4_eq (c : Dev nD) (t : Fin cfg3.N) :
    (dat3 (F := Ideal) V c).flushed 4 t = ((cfg3.win 4).blk t).view.read (Elt Ideal) (Spec.blockSumSq (act3 V c)) := by
  show (cfg3.win 4).cut (grid3.coords t) ((dat3 (F := Ideal) V c).after 4 t) = _
  rw [after3_4]
  unfold out3_4
  rw [View.canon_unit_zero hz3]
  simp only [View.ld_unit_zero (S := S5000x64) hz2, View.ld_unit_zero (S := S1x64) hz2]
  obtain ⟨-, -, -, -, -, -, -, -, -, e0, e1, e2⟩ := idx3 t
  funext j
  have hj0 : (j 0).val < 1 := (j 0).isLt
  show k3_pay3 (iblk3 (F := Ideal) V c 0 t) (iblk3 (F := Ideal) V c 1 t) j
    = Spec.blockSumSq (act3 V c) (((cfg3.win 4).blk t).view.emb j)
  exact slab_entry (Spec.blockSumSq (act3 V c)) (k3_pay3 (iblk3 (F := Ideal) V c 0 t) (iblk3 (F := Ideal) V c 1 t)) (blockOf3 t)
    (colSumSq_block V c t) j (((cfg3.win 4).blk t).view.emb j)
    (by show win3_4.index t (0 : Fin 3) * 1 + 1 * (j 0).val = t.val; omega)
    (by show win3_4.index t (2 : Fin 3) * 64 + 1 * (j 2).val = (j 2).val; omega)

theorem mem_blk3_3 (t : Fin cfg3.N) (i : S20x1x64.Idx) :
    i ∈ ((cfg3.win 3).blk t).view.set ↔ ∀ a : Fin 3, win3_3.index t a * S1x1x64.size a ≤ (i a).val
      ∧ (i a).val < win3_3.index t a * S1x1x64.size a + S1x1x64.size a := by
  show i ∈ ((View.whole main_v37_1).slice (win3_3.rect t)).set ↔ _
  rw [View.set_slice_whole, Rect.mem_set_unit]
  exact Iff.rfl

theorem mem_blk3_4 (t : Fin cfg3.N) (i : S20x1x64.Idx) :
    i ∈ ((cfg3.win 4).blk t).view.set ↔ ∀ a : Fin 3, win3_4.index t a * S1x1x64.size a ≤ (i a).val
      ∧ (i a).val < win3_4.index t a * S1x1x64.size a + S1x1x64.size a := by
  show i ∈ ((View.whole main_v37_2).slice (win3_4.rect t)).set ↔ _
  rw [View.set_slice_whole, Rect.mem_set_unit]
  exact Iff.rfl

/-- Slab s is the block of point s. -/
theorem covered3_3 (i : S20x1x64.Idx) :
    ∃ t : Fin cfg3.N, (cfg3.win 3).flush t = true ∧ i ∈ ((cfg3.win 3).blk t).view.set := by
  have hi0 : (i 0).val < 20 := (i 0).isLt
  have hi1 : (i 1).val < 1 := (i 1).isLt
  have hi2 : (i 2).val < 64 := (i 2).isLt
  have hN : cfg3.N = 20 := N_3
  obtain ⟨t, ht⟩ : ∃ t : Fin cfg3.N, t.val = (i 0).val := ⟨⟨(i 0).val, by rw [hN]; omega⟩, rfl⟩
  obtain ⟨-, -, -, -, -, -, e0, e1, e2, -⟩ := idx3 t
  refine ⟨t, flush3_3 t, ?_⟩
  rw [mem_blk3_3]
  intro a
  match a with
  | ⟨0, _⟩ =>
    show win3_3.index t (0 : Fin 3) * 1 ≤ (i 0).val ∧ (i 0).val < win3_3.index t (0 : Fin 3) * 1 + 1
    omega
  | ⟨1, _⟩ =>
    show win3_3.index t (1 : Fin 3) * 1 ≤ (i 1).val ∧ (i 1).val < win3_3.index t (1 : Fin 3) * 1 + 1
    omega
  | ⟨2, _⟩ =>
    show win3_3.index t (2 : Fin 3) * 64 ≤ (i 2).val ∧ (i 2).val < win3_3.index t (2 : Fin 3) * 64 + 64
    omega

theorem covered3_4 (i : S20x1x64.Idx) :
    ∃ t : Fin cfg3.N, (cfg3.win 4).flush t = true ∧ i ∈ ((cfg3.win 4).blk t).view.set := by
  have hi0 : (i 0).val < 20 := (i 0).isLt
  have hi1 : (i 1).val < 1 := (i 1).isLt
  have hi2 : (i 2).val < 64 := (i 2).isLt
  have hN : cfg3.N = 20 := N_3
  obtain ⟨t, ht⟩ : ∃ t : Fin cfg3.N, t.val = (i 0).val := ⟨⟨(i 0).val, by rw [hN]; omega⟩, rfl⟩
  obtain ⟨-, -, -, -, -, -, -, -, -, e0, e1, e2⟩ := idx3 t
  refine ⟨t, flush3_4 t, ?_⟩
  rw [mem_blk3_4]
  intro a
  match a with
  | ⟨0, _⟩ =>
    show win3_4.index t (0 : Fin 3) * 1 ≤ (i 0).val ∧ (i 0).val < win3_4.index t (0 : Fin 3) * 1 + 1
    omega
  | ⟨1, _⟩ =>
    show win3_4.index t (1 : Fin 3) * 1 ≤ (i 1).val ∧ (i 1).val < win3_4.index t (1 : Fin 3) * 1 + 1
    omega
  | ⟨2, _⟩ =>
    show win3_4.index t (2 : Fin 3) * 64 ≤ (i 2).val ∧ (i 2).val < win3_4.index t (2 : Fin 3) * 64 + 64
    omega

/-- The second output ends holding each block's column sums of the rectified array. -/
theorem final3_3 (c : Dev nD) :
    (dat3 (F := Ideal) V c).arrAt 3 cfg3.N
      = Spec.blockSums (Spec.relu (Spec.addRow (V c (Pipeline.arrRef spec3 0) : Spec.Mat 100000 64)
          (V c (Pipeline.arrRef spec3 1) : Spec.Mat 1 64))) :=
  (dat3 (F := Ideal) V c).arrAt_eq_of_cover 3 (Spec.blockSums (act3 V c)) (fun t _ => flushed3_3_eq V c t) covered3_3

/-- The third output ends holding each block's column sums of the squares of the rectified array. -/
theorem final3_4 (c : Dev nD) :
    (dat3 (F := Ideal) V c).arrAt 4 cfg3.N
      = Spec.blockSumSq (Spec.relu (Spec.addRow (V c (Pipeline.arrRef spec3 0) : Spec.Mat 100000 64)
          (V c (Pipeline.arrRef spec3 1) : Spec.Mat 1 64))) :=
  (dat3 (F := Ideal) V c).arrAt_eq_of_cover 4 (Spec.blockSumSq (act3 V c)) (fun t _ => flushed3_4_eq V c t) covered3_4

end Statistics

end Cert.KernelIdeal.RegionValue

end
-- ==== Proof.KRegion4.lean ====
/-
  What the second normalisation region leaves in its output array: every entry is the scaled, centred and shifted entry of
  the [100000, 64] input array, γ·(h − μ)·(v + ε)^(-1/2) + β, the four statistics read from their one-row arrays at the
  entry's column.

  The region runs over 20 grid points. At point t it reads rows 5000·t … 5000·t + 4999 of the input and the four whole
  rows; the body's result at (p, q) of the block is the formula at (p, q); that block is rows 5000·t … of the output.
-/
import proofs.«158174_j29059748725634_2_alg».proof.Proof.Gen.KernelIdeal.Frame
import proofs.«158174_j29059748725634_2_alg».proof.Proof.Spec
import proofs.«158174_j29059748725634_2_alg».proof.Proof.KRegion3
import Idealize.ShloMosaic.Lib.ValueLayout
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/-! ## The body's stored value at an entry -/

/-- The normalised block at (p, q): the formula of the loaded block and the four loaded rows at (p, q). -/
theorem normPayload4_apply (x0 : Vec Ideal S5000x64 .f32) (x1 x2 x3 x4 : Vec Ideal S1x64 .f32) (p : Fin 5000) (q : Fin 64) :
    k4_pay1 x0 x1 x2 x3 x4 (ix2 p q)
      = x3 (ix2 (0 : Fin 1) q) * (x0 (ix2 p q) - x1 (ix2 (0 : Fin 1) q)) * Ideal.rsqrt (x2 (ix2 (0 : Fin 1) q) + Spec.epsW)
        + x4 (ix2 (0 : Fin 1) q) := by
  unfold k4_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The formula respects equal arguments. -/
theorem normForm4_congr {a a' b b' v v' g g' e e' : EReal} (ha : a = a') (hb : b = b') (hv : v = v') (hg : g = g')
    (he : e = e') :
    g * (a - b) * Ideal.rsqrt (v + Spec.epsW) + e = g' * (a' - b') * Ideal.rsqrt (v' + Spec.epsW) + e' := by
  rw [ha, hb, hv, hg, he]

/-! ## The index maps over the grid -/

/-- Point t reads block t of the input and writes block t of the output; the four one-row windows stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- A grid point as a block number. -/
def blockOf4 (t : Fin cfg4.N) : Fin 20 := ⟨t.val, t.isLt.trans_eq N_4⟩

theorem blockOf4_val (t : Fin cfg4.N) : (blockOf4 t).val = t.val := rfl

section Region
variable (V : (c : Dev nD) → (b : Ref sig .tc) → Buf (Elt Ideal) ((c : Thread nD τ).loc b))

/-- The input's block at point t, at (p, q): row 5000·t + p of the array. -/
theorem iblk4_0_apply (c : Dev nD) (t : Fin cfg4.N) (p : Fin 5000) (q : Fin 64) :
    (iblk4 (F := Ideal) V c 0 t : Vec Ideal S5000x64 .f32) (ix2 p q)
      = (V c (Pipeline.arrRef spec4 0) : Spec.Mat 100000 64) (ix2 (Spec.rowOf (blockOf4 t) p) q) := by
  obtain ⟨e0, e1, -⟩ := idx4 t
  show (V c (Pipeline.arrRef spec4 0) : Spec.Mat 100000 64) (((cfg4.win 0).blk t).view.emb (ix2 p q)) = _
  refine congrArg (V c (Pipeline.arrRef spec4 0) : Spec.Mat 100000 64) ?_
  funext a; apply Fin.ext
  match a with
  | ⟨0, _⟩ => show win4_0.index t (0 : Fin 2) * 5000 + 1 * p.val = t.val * 5000 + p.val; omega
  | ⟨1, _⟩ => show win4_0.index t (1 : Fin 2) * 64 + 1 * q.val = q.val; omega

/-- The mean row's block at every point is the row. -/
theorem iblk4_1_apply (c : Dev nD) (t : Fin cfg4.N) (q : Fin 64) :
    (iblk4 (F := Ideal) V c 1 t : Vec Ideal S1x64 .f32) (ix2 (0 : Fin 1) q)
      = (V c (Pipeline.arrRef spec4 1) : Spec.Mat 1 64) (ix2 (0 : Fin 1) q) := by
  obtain ⟨-, -, e0, e1, -⟩ := idx4 t
  show (V c (Pipeline.arrRef spec4 1) : Spec.Mat 1 64) (((cfg4.win 1).blk t).view.emb (ix2 (0 : Fin 1) q)) = _
  refine congrArg (V c (Pipeline.arrRef spec4 1) : Spec.Mat 1 64) ?_
  funext a; apply Fin.ext
  match a with
  | ⟨0, _⟩ => show win4_1.index t (0 : Fin 2) * 1 + 1 * 0 = 0; omega
  | ⟨1, _⟩ => show win4_1.index t (1 : Fin 2) * 64 + 1 * q.val = q.val; omega

/-- The variance row's block at every point is the row. -/
theorem iblk4_2_apply (c : Dev nD) (t : Fin cfg4.N) (q : Fin 64) :
    (iblk4 (F := Ideal) V c 2 t : Vec Ideal S1x64 .f32) (ix2 (0 : Fin 1) q)
      = (V c (Pipeline.arrRef spec4 2) : Spec.Mat 1 64) (ix2 (0 : Fin 1) q) := by
  obtain ⟨-, -, -, -, e0, e1, -⟩ := idx4 t
  show (V c (Pipeline.arrRef spec4 2) : Spec.Mat 1 64) (((cfg4.win 2).blk t).view.emb (ix2 (0 : Fin 1) q)) = _
  refine congrArg (V c (Pipeline.arrRef spec4 2) : Spec.Mat 1 64) ?_
  funext a; apply Fin.ext
  match a with
  | ⟨0, _⟩ => show win4_2.index t (0 : Fin 2) * 1 + 1 * 0 = 0; omega
  | ⟨1, _⟩ => show win4_2.index t (1 : Fin 2) * 64 + 1 * q.val = q.val; omega

/-- The scale row's block at every point is the row. -/
theorem iblk4_3_apply (c : Dev nD) (t : Fin cfg4.N) (q : Fin 64) :
    (iblk4 (F := Ideal) V c 3 t : Vec Ideal S1x64 .f32) (ix2 (0 : Fin 1) q)
      = (V c (Pipeline.arrRef spec4 3) : Spec.Mat 1 64) (ix2 (0 : Fin 1) q) := by
  obtain ⟨-, -, -, -, -, -, e0, e1, -⟩ := idx4 t
  show (V c (Pipeline.arrRef spec4 3) : Spec.Mat 1 64) (((cfg4.win 3).blk t).view.emb (ix2 (0 : Fin 1) q)) = _
  refine congrArg (V c (Pipeline.arrRef spec4 3) : Spec.Mat 1 64) ?_
  funext a; apply Fin.ext
  match a with
  | ⟨0, _⟩ => show win4_3.index t (0 : Fin 2) * 1 + 1 * 0 = 0; omega
  | ⟨1, _⟩ => show win4_3.index t (1 : Fin 2) * 64 + 1 * q.val = q.val; omega

/-- The shift row's block at every point is the row. -/
theorem iblk4_4_apply (c : Dev nD) (t : Fin cfg4.N) (q : Fin 64) :
    (iblk4 (F := Ideal) V c 4 t : Vec Ideal S1x64 .f32) (ix2 (0 : Fin 1) q)
      = (V c (Pipeline.arrRef spec4 4) : Spec.Mat 1 64) (ix2 (0 : Fin 1) q) := by
  obtain ⟨-, -, -, -, -, -, -, -, e0, e1, -⟩ := idx4 t
  show (V c (Pipeline.arrRef spec4 4) : Spec.Mat 1 64) (((cfg4.win 4).blk t).view.emb (ix2 (0 : Fin 1) q)) = _
  refine congrArg (V c (Pipeline.arrRef spec4 4) : Spec.Mat 1 64) ?_
  funext a; apply Fin.ext
  match a with
  | ⟨0, _⟩ => show win4_4.index t (0 : Fin 2) * 1 + 1 * 0 = 0; omega
  | ⟨1, _⟩ => show win4_4.index t (1 : Fin 2) * 64 + 1 * q.val = q.val; omega

/-- The normalised array. -/
abbrev norm4 (c : Dev nD) : Spec.Mat 100000 64 :=
  Spec.bnApply (V c (Pipeline.arrRef spec4 0) : Spec.Mat 100000 64) (V c (Pipeline.arrRef spec4 1) : Spec.Mat 1 64)
    (V c (Pipeline.arrRef spec4 2) : Spec.Mat 1 64) (V c (Pipeline.arrRef spec4 3) : Spec.Mat 1 64)
    (V c (Pipeline.arrRef spec4 4) : Spec.Mat 1 64)

/-- The normalised block at point t is block t of the normalised array. -/
theorem normBlock4 (c : Dev nD) (t : Fin cfg4.N) (p : Fin 5000) (q : Fin 64) :
    k4_pay1 (iblk4 (F := Ideal) V c 0 t) (iblk4 (F := Ideal) V c 1 t) (iblk4 (F := Ideal) V c 2 t)
        (iblk4 (F := Ideal) V c 3 t) (iblk4 (F := Ideal) V c 4 t) (ix2 p q)
      = norm4 V c (ix2 (Spec.rowOf (blockOf4 t) p) q) :=
  (normPayload4_apply (iblk4 (F := Ideal) V c 0 t) (iblk4 (F := Ideal) V c 1 t) (iblk4 (F := Ideal) V c 2 t)
      (iblk4 (F := Ideal) V c 3 t) (iblk4 (F := Ideal) V c 4 t) p q).trans
    (normForm4_congr (iblk4_0_apply V c t p q) (iblk4_1_apply V c t q) (iblk4_2_apply V c t q) (iblk4_3_apply V c t q)
      (iblk4_4_apply V c t q))

/-- What point t writes back is block t of the normalised array. -/
theorem flushed4_5_eq (c : Dev nD) (t : Fin cfg4.N) :
    (dat4 (F := Ideal) V c).flushed 5 t = ((cfg4.win 5).blk t).view.read (Elt Ideal) (norm4 V c) := by
  show (cfg4.win 5).cut (grid4.coords t) ((dat4 (F := Ideal) V c).after 5 t) = _
  rw [after4_5]
  unfold out4_5
  rw [View.canon_unit_zero hz2]
  simp only [View.ld_unit_zero (S := S5000x64) hz2, View.ld_unit_zero (S := S1x64) hz2]
  obtain ⟨-, -, -, -, -, -, -, -, -, -, e0, e1⟩ := idx4 t
  funext j
  show k4_pay1 (iblk4 (F := Ideal) V c 0 t) (iblk4 (F := Ideal) V c 1 t) (iblk4 (F := Ideal) V c 2 t)
      (iblk4 (F := Ideal) V c 3 t) (iblk4 (F := Ideal) V c 4 t) j = norm4 V c (((cfg4.win 5).blk t).view.emb j)
  exact rowBlock_entry (norm4 V c)
    (k4_pay1 (iblk4 (F := Ideal) V c 0 t) (iblk4 (F := Ideal) V c 1 t) (iblk4 (F := Ideal) V c 2 t)
      (iblk4 (F := Ideal) V c 3 t) (iblk4 (F := Ideal) V c 4 t)) (blockOf4 t)
    (normBlock4 V c t) j (((cfg4.win 5).blk t).view.emb j)
    (by show win4_5.index t (0 : Fin 2) * 5000 + 1 * (j 0).val = t.val * 5000 + (j 0).val; omega)
    (by show win4_5.index t (1 : Fin 2) * 64 + 1 * (j 1).val = (j 1).val; omega)

/-- An index of the array is in point t's block iff each coordinate is in the block's range on its axis. -/
theorem mem_blk4_5 (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v50).slice (win4_5.rect t)).set ↔ _
  rw [View.set_slice_whole, Rect.mem_set_unit]
  exact Iff.rfl

/-- Row r is in the block of point r / 5000. -/
theorem covered4_5 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, -, -, e0, e1⟩ := idx4 t
  refine ⟨t, flush4_5 t, ?_⟩
  rw [mem_blk4_5]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 64 ≤ (i 1).val ∧ (i 1).val < win4_5.index t (1 : Fin 2) * 64 + 64
    omega

/-- The output ends holding the normalised array. -/
theorem final4_5 (c : Dev nD) :
    (dat4 (F := Ideal) V c).arrAt 5 cfg4.N
      = Spec.bnApply (V c (Pipeline.arrRef spec4 0) : Spec.Mat 100000 64) (V c (Pipeline.arrRef spec4 1) : Spec.Mat 1 64)
        (V c (Pipeline.arrRef spec4 2) : Spec.Mat 1 64) (V c (Pipeline.arrRef spec4 3) : Spec.Mat 1 64)
        (V c (Pipeline.arrRef spec4 4) : Spec.Mat 1 64) :=
  (dat4 (F := Ideal) V c).arrAt_eq_of_cover 5 (norm4 V c) (fun t _ => flushed4_5_eq V c t) covered4_5

end Region

end Cert.KernelIdeal.RegionValue

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«158174_j29059748725634_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KRegion5.lean ====
/-
  What the decoder region leaves in its output array: the softmax, row by row, of the edge embeddings times the decoder's
  weights plus its bias row.

  The region walks the 1600000 rows in 250 blocks of 6400 rows; the weights' and the bias row's windows always show their
  whole arrays. At a point the body forms the block's logits (row against column, plus the bias row), takes each row's
  largest entry (a maximum folded from minus infinity, and once more against minus infinity), the exponentials of the
  entries less that maximum, their sum along the row, and the quotient. Row `p` of the result depends on row `p` of the
  loaded block only, and row `p` of block `t` is row `6400·t + p` of the array: each point writes back its block of the one
  whole-array function, and the 250 blocks cover the array.
-/
import proofs.«158174_j29059748725634_2_alg».proof.Proof.Gen.KernelIdeal.Frame
import proofs.«158174_j29059748725634_2_alg».proof.Proof.Spec
import proofs.«158174_j29059748725634_2_alg».proof.Proof.LibMatDot
import proofs.«158174_j29059748725634_2_alg».proof.Proof.LibRowMax
import proofs.«158174_j29059748725634_2_alg».proof.Proof.LibRowSum
import proofs.«158174_j29059748725634_2_alg».proof.Proof.LibColumn
import Idealize.ShloMosaic.Lib.Pipeline.Value
import Idealize.ShloMosaic.Lib.ValueLayout

set_option maxRecDepth 16384

noncomputable section

namespace Cert.KernelIdeal.RegionValue

open Cert.KernelIdeal Idealize.ShloMosaic Idealize.ShloMosaic.TcCoe Idealize.ShloMosaic.ValueIdx Idealize.SL.Sem
open Idealize.ShloMosaic.Pipeline (Dat)
open Facts₀ Facts
open scoped BigOperators

/-- The zero offsets of a whole-block load or store. -/
theorem zeroOffsets5 : (![0, 0] : Fin 2 → Nat) = fun _ => 0 := funext fun a => by fin_cases a <;> rfl

/-! ## The body, in three steps -/

/-- The block's logits as the body forms them: the matrix unit's product into a zero accumulator plus the bias row
    stretched down the rows. -/
def logits5 (x0 : Vec Ideal S6400x64 .f32) (x1 : Vec Ideal S64x5 .f32) (x2 : Vec Ideal S1x5 .f32) : FVec Ideal S6400x5 .f32 :=
  addf (matmul dot_S6400x64_S64x5_S6400x5_1_0_0_1_n_n none
      (truncf .bf16 (shapeCast S6400x64 x0 shapeCasts_S6400x64_S6400x64) bitsLt_bf16_f32) (truncf .bf16 x1 bitsLt_bf16_f32)
      (constant S6400x5 .f32 0x00000000#32))
    (broadcastTo S6400x5 (shapeCast S1x5 x2 shapeCasts_S1x5_S1x5) broadcasts_S1x5_S6400x5)

/-- Each row's largest entry, stretched along the row. -/
def rowTopSpread5 (L : FVec Ideal S6400x5 .f32) : FVec Ideal S6400x5 .f32 :=
  broadcastTo S6400x5
    (shapeCast S6400x1
      (maximumf (broadcast S6400 (Scalar.ofBits .f32 0xFF800000#32))
        (multiReduction .maximumf [1] S6400 L 0xFF800000#32 reduces_S6400x5_S6400 (.inl rfl) rfl))
      shapeCasts_S6400_S6400x1)
    broadcasts_S6400x1_S6400x5

/-- The exponentials of the entries less their row's largest entry. -/
def expShifted5 (L : FVec Ideal S6400x5 .f32) : FVec Ideal S6400x5 .f32 := exp (subf L (rowTopSpread5 L))

/-- The exponentials over their row's sum. -/
def softmaxBody5 (L : FVec Ideal S6400x5 .f32) : FVec Ideal S6400x5 .f32 :=
  divf (expShifted5 L)
    (broadcastTo S6400x5
      (shapeCast S6400x1
        (multiReduction .add [1] S6400 (expShifted5 L) 0x00000000#32 reduces_S6400x5_S6400 (.inl rfl) rfl)
        shapeCasts_S6400_S6400x1)
      broadcasts_S6400x1_S6400x5)

/-- The body's result is the softmax step of its logits. -/
theorem decoderPayload5_eq (x0 : Vec Ideal S6400x64 .f32) (x1 : Vec Ideal S64x5 .f32) (x2 : Vec Ideal S1x5 .f32) :
    Gen.k5_pay1 x0 x1 x2 = softmaxBody5 (logits5 x0 x1 x2) := rfl

/-- The logits at an entry: row against column, plus the bias row's entry. -/
theorem logits5_apply (x0 : Vec Ideal S6400x64 .f32) (x1 : Vec Ideal S64x5 .f32) (x2 : Vec Ideal S1x5 .f32) (p : Fin 6400) (q : Fin 5) :
    logits5 x0 x1 x2 (ix2 p q) = Spec.affine (n := 6400) x0 x1 x2 (ix2 p q) := by
  unfold logits5
  rw [shapeCast_self, shapeCast_self, addf_apply, broadcastTo_1b_ab_apply]
  exact congrArg (· + x2 (ix2 (0 : Fin 1) q))
    (Cert.Lib.matmul_plain_zero_apply dot_S6400x64_S64x5_S6400x5_1_0_0_1_n_n.wf none
      (truncf .bf16 x0 bitsLt_bf16_f32) (truncf .bf16 x1 bitsLt_bf16_f32) p q)

theorem logits5_eq (x0 : Vec Ideal S6400x64 .f32) (x1 : Vec Ideal S64x5 .f32) (x2 : Vec Ideal S1x5 .f32) :
    logits5 x0 x1 x2 = Spec.affine (n := 6400) x0 x1 x2 := by
  funext j
  obtain ⟨p, q, rfl⟩ : ∃ (p : Fin 6400) (q : Fin 5), j = ix2 p q := ⟨j 0, j 1, eq_ix2 j⟩
  exact logits5_apply x0 x1 x2 p q

/-- The stretched maximum at an entry of row `p` is the row's largest entry. -/
theorem rowTopSpread5_apply (L : FVec Ideal S6400x5 .f32) (p : Fin 6400) (q : Fin 5) :
    rowTopSpread5 L (ix2 p q) = Spec.rowTop (n := 6400) L p := by
  unfold rowTopSpread5
  rw [Cert.Lib.broadcastTo_a1_ab_apply, Cert.Lib.shapeCast_a_a1_apply, maximumf_apply, broadcast_apply]
  exact congrArg (max (Ideal.ofBits .f32 0xFF800000#32))
    (Cert.Lib.multiReduction_maximumf_rows L 0xFF800000#32 reduces_S6400x5_S6400 (.inl rfl) rfl p)

theorem expShifted5_apply (L : FVec Ideal S6400x5 .f32) (p : Fin 6400) (q : Fin 5) :
    expShifted5 L (ix2 p q) = Ideal.exp (L (ix2 p q) - Spec.rowTop (n := 6400) L p) := by
  show Ideal.exp (L (ix2 p q) - rowTopSpread5 L (ix2 p q)) = _
  rw [rowTopSpread5_apply]

/-- The softmax step at an entry. -/
theorem softmaxBody5_apply (L : FVec Ideal S6400x5 .f32) (p : Fin 6400) (q : Fin 5) :
    softmaxBody5 L (ix2 p q) = Spec.softmaxRows (n := 6400) L (ix2 p q) := by
  unfold softmaxBody5
  rw [divf_apply, Cert.Lib.broadcastTo_a1_ab_apply, Cert.Lib.shapeCast_a_a1_apply]
  refine (congrArg (Ideal.div (expShifted5 L (ix2 p q)))
    (Cert.Lib.multiReduction_add_rows (expShifted5 L) 0x00000000#32 reduces_S6400x5_S6400 (.inl rfl) rfl p)).trans ?_
  simp only [expShifted5_apply]
  rfl

/-- The body's result at any index of the block: the softmax of the block's logits. -/
theorem decoderPayload5_at (x0 : Vec Ideal S6400x64 .f32) (x1 : Vec Ideal S64x5 .f32) (x2 : Vec Ideal S1x5 .f32) (j : S6400x5.Idx) :
    Gen.k5_pay1 x0 x1 x2 j = Spec.softmaxRows (Spec.affine (n := 6400) x0 x1 x2) j := by
  obtain ⟨p, q, rfl⟩ : ∃ (p : Fin 6400) (q : Fin 5), j = ix2 p q := ⟨j 0, j 1, eq_ix2 j⟩
  rw [decoderPayload5_eq, softmaxBody5_apply, logits5_eq]

/-! ## A row of the softmax reads one row of the logits, a row of the logits one row of the embeddings -/

theorem affine_row5 {n n' K M : ℕ} (Xb : Spec.Mat n K) (X : Spec.Mat n' K) (W : Spec.Mat K M) (b : Spec.Mat 1 M) (p : Fin n) (r : Fin n')
    (h : ∀ k : Fin K, Xb (ix2 p k) = X (ix2 r k)) (q : Fin M) :
    Spec.affine Xb W b (ix2 p q) = Spec.affine X W b (ix2 r q) := by
  rw [Spec.affine_apply, Spec.affine_apply]
  simp only [h]

theorem softmaxRows_row5 {n n' M : ℕ} (Lb : Spec.Mat n M) (L : Spec.Mat n' M) (p : Fin n) (r : Fin n')
    (h : ∀ q : Fin M, Lb (ix2 p q) = L (ix2 r q)) (q : Fin M) :
    Spec.softmaxRows Lb (ix2 p q) = Spec.softmaxRows L (ix2 r q) := by
  have ht : Spec.rowTop Lb p = Spec.rowTop L r := by
    unfold Spec.rowTop
    simp only [h]
  rw [Spec.softmaxRows_apply, Spec.softmaxRows_apply, ht]
  simp only [h]

/-- A block entry of the body's result is the array's softmax entry, once the loaded row is the array's row and the
    loaded weights and bias row are the arrays'. -/
theorem decoderBlock5 (x0 : Vec Ideal S6400x64 .f32) (x1 : Vec Ideal S64x5 .f32) (x2 : Vec Ideal S1x5 .f32)
    (E : Spec.Mat 1600000 64) (Wd : Spec.Mat 64 5) (bd : Spec.Mat 1 5) (j : S6400x5.Idx) (i : S1600000x5.Idx)
    (hq : (i 1).val = (j 1).val) (r0 : ∀ k : Fin 64, x0 (ix2 (j 0) k) = E (ix2 (i 0) k)) (r1 : x1 = Wd) (r2 : x2 = bd) :
    Gen.k5_pay1 x0 x1 x2 j = Spec.softmaxRows (Spec.affine E Wd bd) i := by
  subst r1 r2
  obtain ⟨p, q, rfl⟩ : ∃ (p : Fin 6400) (q : Fin 5), j = ix2 p q := ⟨j 0, j 1, eq_ix2 j⟩
  obtain ⟨r, q', rfl⟩ : ∃ (r : Fin 1600000) (q' : Fin 5), i = ix2 r q' := ⟨i 0, i 1, eq_ix2 i⟩
  have hqq : q' = q := Fin.ext hq
  subst hqq
  rw [decoderPayload5_at]
  exact softmaxRows_row5 _ _ p r (fun q'' => affine_row5 x0 E x1 x2 p r r0 q'') q'

/-! ## From the blocks to the array -/

/-- The index maps over the grid: the input block moves with the output block down the rows, the other windows stay. -/
theorem indexFacts5 : ∀ t : Fin cfg5.N, win5_0.index t = ![t.val, 0] ∧ win5_3.index t = ![t.val, 0]
    ∧ win5_1.index t = ![0, 0] ∧ win5_2.index t = ![0, 0] :=
  (by decide +kernel : ∀ t : Fin grid5.N, _)

/-- Every block of rows is some point's. -/
theorem indexOnto5 : ∀ q0 : Fin 250, ∃ t : Fin cfg5.N, win5_3.index t = ![q0.val, 0] :=
  (by decide +kernel : ∀ q0 : Fin 250, ∃ t : Fin grid5.N, win5_3.index t = ![q0.val, 0])

/-- Row `p` of the input block is the array's row under row `p` of the output block. -/
theorem blockEmb5 (t : Fin cfg5.N) (j : S6400x5.Idx) (k : Fin 64) :
    ((cfg5.win 0).blk t).view.emb (ix2 (j 0) k) = ix2 ((((cfg5.win 3).blk t).view.emb j) 0) k := by
  obtain ⟨f0, f3, f1, f2⟩ := indexFacts5 t
  have e0 : win5_0.index t (0 : Fin 2) = t.val := congrFun f0 0
  have e1 : win5_0.index t (1 : Fin 2) = 0 := congrFun f0 1
  have e6 : win5_3.index t (0 : Fin 2) = t.val := congrFun f3 0
  have hp : ((((cfg5.win 3).blk t).view.emb j) 0).val = win5_3.index t (0 : Fin 2) * 6400 + 1 * (j 0).val := rfl
  funext a; apply Fin.ext
  match a with
  | ⟨0, _⟩ => show win5_0.index t (0 : Fin 2) * 6400 + 1 * (j 0).val = ((((cfg5.win 3).blk t).view.emb j) 0).val; omega
  | ⟨1, _⟩ => show win5_0.index t (1 : Fin 2) * 64 + 1 * k.val = k.val; omega

/-- The column of an entry of the output block is its column in the array. -/
theorem colEmb5 (t : Fin cfg5.N) (j : S6400x5.Idx) : ((((cfg5.win 3).blk t).view.emb j) 1).val = (j 1).val := by
  obtain ⟨f0, f3, f1, f2⟩ := indexFacts5 t
  have e7 : win5_3.index t (1 : Fin 2) = 0 := congrFun f3 1
  show win5_3.index t (1 : Fin 2) * 5 + 1 * (j 1).val = (j 1).val; omega

/-- The weights' window shows the whole array. -/
theorem wholeEmb5_1 (t : Fin cfg5.N) (y : S64x5.Idx) : ((cfg5.win 1).blk t).view.emb y = y := by
  obtain ⟨f0, f3, f1, f2⟩ := indexFacts5 t
  have e2 : win5_1.index t (0 : Fin 2) = 0 := congrFun f1 0
  have e3 : win5_1.index t (1 : Fin 2) = 0 := congrFun f1 1
  funext a; apply Fin.ext
  match a with
  | ⟨0, _⟩ => show win5_1.index t (0 : Fin 2) * 64 + 1 * (y 0).val = (y 0).val; omega
  | ⟨1, _⟩ => show win5_1.index t (1 : Fin 2) * 5 + 1 * (y 1).val = (y 1).val; omega

/-- The bias row's window shows the whole row. -/
theorem wholeEmb5_2 (t : Fin cfg5.N) (y : S1x5.Idx) : ((cfg5.win 2).blk t).view.emb y = y := by
  obtain ⟨f0, f3, f1, f2⟩ := indexFacts5 t
  have e4 : win5_2.index t (0 : Fin 2) = 0 := congrFun f2 0
  have e5 : win5_2.index t (1 : Fin 2) = 0 := congrFun f2 1
  funext a; apply Fin.ext
  match a with
  | ⟨0, _⟩ => show win5_2.index t (0 : Fin 2) * 1 + 1 * (y 0).val = (y 0).val; omega
  | ⟨1, _⟩ => show win5_2.index t (1 : Fin 2) * 5 + 1 * (y 1).val = (y 1).val; omega

variable (V : (c : Dev nD) → (b : Ref sig .tc) → Buf (Elt Ideal) ((c : Thread nD τ).loc b))

set_option maxHeartbeats 1600000 in
/-- What point `t` writes back is block `t` of the softmax of the logits. -/
theorem flushed5_3_eq (c : Dev nD) (t : Fin cfg5.N) :
    (Gen.dat5 (F := Ideal) V c).flushed 3 t = ((cfg5.win 3).blk t).view.read (Elt Ideal)
      (Spec.softmaxRows (Spec.affine (V c (Pipeline.arrRef spec5 0) : Spec.Mat 1600000 64)
        (V c (Pipeline.arrRef spec5 1) : Spec.Mat 64 5) (V c (Pipeline.arrRef spec5 2) : Spec.Mat 1 5))) := by
  show (cfg5.win 3).cut (grid5.coords t) ((Gen.dat5 V c).after 3 t) = _
  rw [Gen.after5_3]
  unfold Gen.out5_3
  rw [View.canon_unit_zero zeroOffsets5]
  simp only [View.ld_unit_zero (S := S6400x64) zeroOffsets5, View.ld_unit_zero (S := S64x5) zeroOffsets5,
    View.ld_unit_zero (S := S1x5) zeroOffsets5]
  refine funext fun (j : S6400x5.Idx) => ?_
  exact decoderBlock5 (Gen.iblk5 V c 0 t) (Gen.iblk5 V c 1 t) (Gen.iblk5 V c 2 t)
    (V c (Pipeline.arrRef spec5 0)) (V c (Pipeline.arrRef spec5 1)) (V c (Pipeline.arrRef spec5 2))
    j (((cfg5.win 3).blk t).view.emb j) (colEmb5 t j)
    (fun k => congrArg (V c (Pipeline.arrRef spec5 0)) (blockEmb5 t j k))
    (funext fun y => congrArg (V c (Pipeline.arrRef spec5 1)) (wholeEmb5_1 t y))
    (funext fun y => congrArg (V c (Pipeline.arrRef spec5 2)) (wholeEmb5_2 t y))

/-- An index of the array is in point `t`'s block iff each coordinate is in the block's range on its axis. -/
theorem mem_blk5_3 (t : Fin cfg5.N) (i : S1600000x5.Idx) :
    i ∈ ((cfg5.win 3).blk t).view.set ↔ ∀ a : Fin 2, win5_3.index t a * S6400x5.size a ≤ (i a).val
      ∧ (i a).val < win5_3.index t a * S6400x5.size a + S6400x5.size a := by
  show i ∈ ((View.whole main_v67).slice (win5_3.rect t)).set ↔ _
  rw [View.set_slice_whole, Rect.mem_set_unit]
  exact Iff.rfl

/-- Every index of the array is in some point's block: row `r` in block `r / 6400`. -/
theorem cover5_3 (i : S1600000x5.Idx) :
    ∃ t : Fin cfg5.N, (cfg5.win 3).flush t = true ∧ i ∈ ((cfg5.win 3).blk t).view.set := by
  have hi0 : (i 0).val < 1600000 := (i 0).isLt
  have hi1 : (i 1).val < 5 := (i 1).isLt
  obtain ⟨t, ht⟩ := indexOnto5 ⟨(i 0).val / 6400, by omega⟩
  have q0 : win5_3.index t (0 : Fin 2) = (i 0).val / 6400 := congrFun ht 0
  have q1 : win5_3.index t (1 : Fin 2) = 0 := congrFun ht 1
  refine ⟨t, Gen.flush5_3 t, ?_⟩
  rw [mem_blk5_3]
  intro a
  match a with
  | ⟨0, _⟩ => show win5_3.index t (0 : Fin 2) * 6400 ≤ (i 0).val ∧ (i 0).val < win5_3.index t (0 : Fin 2) * 6400 + 6400; omega
  | ⟨1, _⟩ => show win5_3.index t (1 : Fin 2) * 5 ≤ (i 1).val ∧ (i 1).val < win5_3.index t (1 : Fin 2) * 5 + 5; omega

/-- The array the region leaves: the row softmax of the embeddings times the weights plus the bias row. -/
theorem final5_3 (c : Dev nD) :
    (Gen.dat5 (F := Ideal) V c).arrAt 3 cfg5.N
      = Spec.softmaxRows (Spec.affine (V c (Pipeline.arrRef spec5 0) : Spec.Mat 1600000 64)
        (V c (Pipeline.arrRef spec5 1) : Spec.Mat 64 5) (V c (Pipeline.arrRef spec5 2) : Spec.Mat 1 5)) :=
  (Gen.dat5 (F := Ideal) V c).arrAt_eq_of_cover 3 _ (fun t _ => flushed5_3_eq V c t) (cover5_3)

end Cert.KernelIdeal.RegionValue

end
-- ==== Proof.KChain.lean ====
/-
  The kernel's three results, on the extended reals, as the block-summed pipeline of the launch memory's arguments.

  Following @main from the launch: the first stretch forms the neighbourhood sum of the features and the bias row; the first
  launch leaves the first hidden layer and its per-block sums and sums of squares; the second stretch turns those into the
  column statistics; the second launch normalises; the third multiplies by the second layer's weights; the next stretch
  sums those rows over neighbours; the fourth launch adds the bias, clips at zero and takes block sums again; the fifth
  normalises — the second encoding, one of the results —; the last long stretch multiplies looked-up rows per edge and the
  sixth launch decodes them to probabilities; the final stretch subtracts one from the edge weights. Each launch's outputs
  are functions of the contents it is entered with (one theorem per output array, imported), each stretch is read
  off the contents it starts from, and an argument buffer is the launch memory's all along.
-/
import proofs.«158174_j29059748725634_2_alg».proof.Proof.KStretch
import proofs.«158174_j29059748725634_2_alg».proof.Proof.KRegion0
import proofs.«158174_j29059748725634_2_alg».proof.Proof.KRegion1
import proofs.«158174_j29059748725634_2_alg».proof.Proof.KRegion2
import proofs.«158174_j29059748725634_2_alg».proof.Proof.KRegion3
import proofs.«158174_j29059748725634_2_alg».proof.Proof.KRegion4
import proofs.«158174_j29059748725634_2_alg».proof.Proof.KRegion5

set_option maxRecDepth 16384
set_option maxHeartbeats 4000000

noncomputable section

namespace Cert.KernelIdeal.ChainValue

open Idealize.ShloMosaic Idealize.ShloMosaic.TcCoe Idealize.SL.Sem Idealize.ShloMosaic.StableHlo
open Idealize.ShloMosaic.ValueIdx
open Cert.KernelIdeal Cert.KernelIdeal.Gen Cert.KernelIdeal.HostValue Cert.Spec Cert.Model
open scoped BigOperators

variable (m : (ℓ : Loc nD τ sig) → Buf (Elt Ideal) ℓ) (ρ : Dev nD → PrngReg) (c : Dev nD)

/-- The arguments in the launch memory. -/
abbrev aX : A S100000x128 := m ((c : Thread nD τ).loc main_arg0)
abbrev aW1 : A S128x128 := m ((c : Thread nD τ).loc main_arg1)
abbrev aB1 : A S128 := m ((c : Thread nD τ).loc main_arg2)
abbrev aG1 : A S128 := m ((c : Thread nD τ).loc main_arg3)
abbrev aC1 : A S128 := m ((c : Thread nD τ).loc main_arg4)
abbrev aW2 : A S128x64 := m ((c : Thread nD τ).loc main_arg5)
abbrev aB2 : A S64 := m ((c : Thread nD τ).loc main_arg6)
abbrev aG2 : A S64 := m ((c : Thread nD τ).loc main_arg7)
abbrev aC2 : A S64 := m ((c : Thread nD τ).loc main_arg8)
abbrev aWd : A S64x5 := m ((c : Thread nD τ).loc main_arg9)
abbrev aBd : A S5 := m ((c : Thread nD τ).loc main_arg10)
abbrev aS : I S1600000 := m ((c : Thread nD τ).loc main_arg11)
abbrev aD : I S1600000 := m ((c : Thread nD τ).loc main_arg12)
abbrev aE : I S1600000 := m ((c : Thread nD τ).loc main_arg13)

/-- The edge weights less one. -/
abbrev gtK : I S1600000 := subi (aE m c) (broadcastInDim S1600000 ![] bcast_S_S1600000 (constantI S_ 32 1#32))

/-- The first hidden layer, as the first launch leaves it. -/
abbrev h1 : Mat 100000 128 := hid1 (agg128 (aS m c) (aD m c)) (aX m c) (aW1 m c) (Cert.Lib.asRow (aB1 m c))

theorem at_v11_0 : W2 m ρ c (Proc.devRef .tc main_v11_0) = h1 m c := by
  refine (W2_arr m ρ c 3).trans ((Cert.KernelIdeal.RegionValue.final0_3 (V1 m ρ) c).trans ?_)
  have e0 : V1 m ρ c (Pipeline.arrRef spec0 0) = agg128 (aS m c) (aD m c) (aX m c) := s0_v9 (W0 m ρ c)
  have e1 : V1 m ρ c (Pipeline.arrRef spec0 1) = aW1 m c := W1_main_arg1 m ρ c
  have e2 : V1 m ρ c (Pipeline.arrRef spec0 2) = Cert.Lib.asRow (aB1 m c) := (s0_v10 (W0 m ρ c)).trans (row128_eq _)
  rw [e0, e1, e2] <;> rfl

theorem at_v11_1 : W2 m ρ c (Proc.devRef .tc main_v11_1) = blockSums (h1 m c) := by
  refine (W2_arr m ρ c 4).trans ((Cert.KernelIdeal.RegionValue.final0_4 (V1 m ρ) c).trans ?_)
  have e0 : V1 m ρ c (Pipeline.arrRef spec0 0) = agg128 (aS m c) (aD m c) (aX m c) := s0_v9 (W0 m ρ c)
  have e1 : V1 m ρ c (Pipeline.arrRef spec0 1) = aW1 m c := W1_main_arg1 m ρ c
  have e2 : V1 m ρ c (Pipeline.arrRef spec0 2) = Cert.Lib.asRow (aB1 m c) := (s0_v10 (W0 m ρ c)).trans (row128_eq _)
  rw [e0, e1, e2] <;> rfl

theorem at_v11_2 : W2 m ρ c (Proc.devRef .tc main_v11_2) = blockSumSq (h1 m c) := by
  refine (W2_arr m ρ c 5).trans ((Cert.KernelIdeal.RegionValue.final0_5 (V1 m ρ) c).trans ?_)
  have e0 : V1 m ρ c (Pipeline.arrRef spec0 0) = agg128 (aS m c) (aD m c) (aX m c) := s0_v9 (W0 m ρ c)
  have e1 : V1 m ρ c (Pipeline.arrRef spec0 1) = aW1 m c := W1_main_arg1 m ρ c
  have e2 : V1 m ρ c (Pipeline.arrRef spec0 2) = Cert.Lib.asRow (aB1 m c) := (s0_v10 (W0 m ρ c)).trans (row128_eq _)
  rw [e0, e1, e2] <;> rfl

/-- The first encoding, as the second launch leaves it. -/
abbrev e1K : Mat 100000 128 :=
  encB1 (agg128 (aS m c) (aD m c)) (aX m c) (aW1 m c) (Cert.Lib.asRow (aB1 m c)) (Cert.Lib.asRow (aG1 m c)) (Cert.Lib.asRow (aC1 m c))

theorem at_v24 : W4 m ρ c (Proc.devRef .tc main_v24) = e1K m c := by
  refine (W4_arr m ρ c 5).trans ((Cert.KernelIdeal.RegionValue.final1_5 (V3 m ρ) c).trans ?_)
  have e0 : V3 m ρ c (Pipeline.arrRef spec1 0) = h1 m c := (W3_main_v11_0 m ρ c).trans (at_v11_0 m ρ c)
  have e1 : V3 m ρ c (Pipeline.arrRef spec1 1) = meanBlocks (h1 m c) :=
    (s1_v15 (W2 m ρ c)).trans ((congrArg mean128 (at_v11_1 m ρ c)).trans (mean128_blocks _))
  have e2 : V3 m ρ c (Pipeline.arrRef spec1 2) = varBlocks (h1 m c) :=
    (s1_v21 (W2 m ρ c)).trans ((congrArg₂ var128 (at_v11_1 m ρ c) (at_v11_2 m ρ c)).trans (var128_blocks _))
  have e3 : V3 m ρ c (Pipeline.arrRef spec1 3) = Cert.Lib.asRow (aG1 m c) :=
    (s1_v22 (W2 m ρ c)).trans ((congrArg row128 (W2_main_arg3 m ρ c)).trans (row128_eq _))
  have e4 : V3 m ρ c (Pipeline.arrRef spec1 4) = Cert.Lib.asRow (aC1 m c) :=
    (s1_v23 (W2 m ρ c)).trans ((congrArg row128 (W2_main_arg4 m ρ c)).trans (row128_eq _))
  rw [e0, e1, e2, e3, e4] <;> rfl

theorem at_v25 : W5 m ρ c (Proc.devRef .tc main_v25) = product (e1K m c) (aW2 m c) := by
  refine (W5_arr m ρ c 2).trans ((Cert.KernelIdeal.RegionValue.final2_2 (V4 m ρ) c).trans ?_)
  have e0 : V4 m ρ c (Pipeline.arrRef spec2 0) = e1K m c := at_v24 m ρ c
  have e1 : V4 m ρ c (Pipeline.arrRef spec2 1) = aW2 m c := W4_main_arg5 m ρ c
  rw [e0, e1] <;> rfl

/-- The second hidden layer, as the fourth launch leaves it. -/
abbrev h2K : Mat 100000 64 :=
  hidB2 (agg128 (aS m c) (aD m c)) (agg64 (aS m c) (aD m c)) (aX m c) (aW1 m c) (Cert.Lib.asRow (aB1 m c)) (Cert.Lib.asRow (aG1 m c))
    (Cert.Lib.asRow (aC1 m c)) (aW2 m c) (Cert.Lib.asRow (aB2 m c))

theorem in3 : V6 m ρ c (Pipeline.arrRef spec3 0) = agg64 (aS m c) (aD m c) (product (e1K m c) (aW2 m c))
    ∧ V6 m ρ c (Pipeline.arrRef spec3 1) = Cert.Lib.asRow (aB2 m c) := by
  refine ⟨(s3_v35 (W5 m ρ c)).trans ?_, (s3_v36 (W5 m ρ c)).trans ((congrArg row64 (W5_main_arg6 m ρ c)).trans (row64_eq _))⟩
  rw [W5_main_arg11 m ρ c, W5_main_arg12 m ρ c, at_v25 m ρ c]

theorem at_v37_0 : W7 m ρ c (Proc.devRef .tc main_v37_0) = h2K m c := by
  refine (W7_arr m ρ c 2).trans ((Cert.KernelIdeal.RegionValue.final3_2 (V6 m ρ) c).trans ?_)
  obtain ⟨e0, e1⟩ := in3 m ρ c
  rw [e0, e1] <;> rfl

theorem at_v37_1 : W7 m ρ c (Proc.devRef .tc main_v37_1) = blockSums (h2K m c) := by
  refine (W7_arr m ρ c 3).trans ((Cert.KernelIdeal.RegionValue.final3_3 (V6 m ρ) c).trans ?_)
  obtain ⟨e0, e1⟩ := in3 m ρ c
  rw [e0, e1] <;> rfl

theorem at_v37_2 : W7 m ρ c (Proc.devRef .tc main_v37_2) = blockSumSq (h2K m c) := by
  refine (W7_arr m ρ c 4).trans ((Cert.KernelIdeal.RegionValue.final3_4 (V6 m ρ) c).trans ?_)
  obtain ⟨e0, e1⟩ := in3 m ρ c
  rw [e0, e1] <;> rfl

/-- The second encoding and the prediction of the block-summed pipeline at the launch memory's arguments. -/
abbrev e2K : Mat 100000 64 :=
  encB2 (agg128 (aS m c) (aD m c)) (agg64 (aS m c) (aD m c)) (aX m c) (aW1 m c) (Cert.Lib.asRow (aB1 m c)) (Cert.Lib.asRow (aG1 m c))
    (Cert.Lib.asRow (aC1 m c)) (aW2 m c) (Cert.Lib.asRow (aB2 m c)) (Cert.Lib.asRow (aG2 m c)) (Cert.Lib.asRow (aC2 m c))
abbrev predK : Mat 1600000 5 :=
  predB (agg128 (aS m c) (aD m c)) (agg64 (aS m c) (aD m c)) (emb (aS m c) (aD m c)) (aX m c) (aW1 m c) (Cert.Lib.asRow (aB1 m c))
    (Cert.Lib.asRow (aG1 m c)) (Cert.Lib.asRow (aC1 m c)) (aW2 m c) (Cert.Lib.asRow (aB2 m c)) (Cert.Lib.asRow (aG2 m c))
    (Cert.Lib.asRow (aC2 m c)) (aWd m c) (Cert.Lib.asRow (aBd m c))

theorem at_v50 : W9 m ρ c (Proc.devRef .tc main_v50) = e2K m c := by
  refine (W9_arr m ρ c 5).trans ((Cert.KernelIdeal.RegionValue.final4_5 (V8 m ρ) c).trans ?_)
  have e0 : V8 m ρ c (Pipeline.arrRef spec4 0) = h2K m c :=
    (W8_main_v37_0 m ρ c).trans (at_v37_0 m ρ c)
  have e1 : V8 m ρ c (Pipeline.arrRef spec4 1) = meanBlocks (h2K m c) :=
    (s4_v41 (W7 m ρ c)).trans ((congrArg mean64 (at_v37_1 m ρ c)).trans (mean64_blocks _))
  have e2 : V8 m ρ c (Pipeline.arrRef spec4 2) = varBlocks (h2K m c) :=
    (s4_v47 (W7 m ρ c)).trans ((congrArg₂ var64 (at_v37_1 m ρ c)
      (at_v37_2 m ρ c)).trans (var64_blocks _))
  have e3 : V8 m ρ c (Pipeline.arrRef spec4 3) = Cert.Lib.asRow (aG2 m c) :=
    (s4_v48 (W7 m ρ c)).trans ((congrArg row64 (W7_main_arg7 m ρ c)).trans (row64_eq _))
  have e4 : V8 m ρ c (Pipeline.arrRef spec4 4) = Cert.Lib.asRow (aC2 m c) :=
    (s4_v49 (W7 m ρ c)).trans ((congrArg row64 (W7_main_arg8 m ρ c)).trans (row64_eq _))
  rw [e0, e1, e2, e3, e4] <;> rfl

/-- The three results at the last boundary. -/
theorem results :
    W12 m ρ c (Proc.devRef .tc main_v67) = predK m c
    ∧ W12 m ρ c (Proc.devRef .tc main_v69) = gtK m c
    ∧ W12 m ρ c (Proc.devRef .tc main_v50) = e2K m c := by
  have hE := at_v50 m ρ c
  refine ⟨?_, ?_, (W12_main_v50 m ρ c).trans hE⟩
  · refine (W12_main_v67 m ρ c).trans ((W11_arr m ρ c 3).trans ((Cert.KernelIdeal.RegionValue.final5_3 (V10 m ρ) c).trans ?_))
    have e0 : V10 m ρ c (Pipeline.arrRef spec5 0) = emb (aS m c) (aD m c) (e2K m c) := by
      refine (s5_v65 (W9 m ρ c)).trans ?_
      rw [W9_main_arg11 m ρ c, W9_main_arg12 m ρ c, hE]
    have e1 : V10 m ρ c (Pipeline.arrRef spec5 1) = aWd m c := W10_main_arg9 m ρ c
    have e2 : V10 m ρ c (Pipeline.arrRef spec5 2) = Cert.Lib.asRow (aBd m c) :=
      (s5_v66 (W9 m ρ c)).trans ((congrArg row5 (W9_main_arg10 m ρ c)).trans (row5_eq _))
    rw [e0, e1, e2] <;> rfl
  · refine (s6_v69 (W11 m ρ c)).trans ?_
    rw [W11_main_arg13 m ρ c]

end Cert.KernelIdeal.ChainValue

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.AggFacts.lean ====
/-
  A neighbourhood sum over the edges of a graph, entry by entry, and two of its properties on the extended reals.

  For node features `X : [N, D]`, a column `s : [R, 1]` of source row numbers and a column `d : [R, 1]` of target row numbers,
  `nsum zero s d X` looks up row `s e` of `X` for every edge `e` (the number read signed and clamped into `[0, N − 1]`) and adds
  it into row `d e` of `zero` (the number read signed; an edge whose target is outside `[0, N)` is dropped). Its entry
  `(p, k)` is `zero (p, k)` plus the sum, over the edges `e` with target `p`, of `X (s e, k)`.
  * Real data stay real: a finite sum of reals is a real.
  * For real `X` and `W`, summing over neighbours commutes with a matrix product: both are the double sum over edges `e` and
    columns `k` of `X (s e, k) · W (k, q)`. Distributivity is used, so the entries must be real.
-/
import Idealize.ShloMosaic.PureOps.Ideal.Laws
import Idealize.ShloMosaic.Lib.ValueIdx
import proofs.«158174_j29059748725634_2_alg».proof.Proof.Spec
import proofs.«158174_j29059748725634_2_alg».proof.Proof.LibEdgeRows
import proofs.«158174_j29059748725634_2_alg».proof.Proof.LibAggLinear
import proofs.«158174_j29059748725634_2_alg».proof.Proof.LibRealEntries

noncomputable section

namespace Cert.Agg

open Idealize.ShloMosaic Idealize.ShloMosaic.ValueIdx Cert.Spec Cert.Lib
open scoped BigOperators

variable {N D R K M : ℕ}

/-- Rows looked up at `s`, accumulated at `d` into `zero`. -/
def nsum (wg : GatherDims.WF ⟨2, ![N, D]⟩ ⟨2, ![R, 1]⟩ ⟨2, ![R, D]⟩ [1] [0] [] [0] [] 1 ![1, D])
    (ws : ScatterDims.WF ⟨2, ![N, D]⟩ ⟨2, ![R, 1]⟩ ⟨2, ![R, D]⟩ [1] [0] [0] 1)
    (zero : Mat N D) (s d : IVec ⟨2, ![R, 1]⟩ 32) (X : Mat N D) : Mat N D :=
  Host.scatterAdd (F := Ideal) (φ := .f32) (rowsScatter N D R ws) zero d (Host.gather (rowsTake N D R wg) X s)

/-- The source row of edge `e`: its number read signed and clamped into `[0, N − 1]`. -/
def srcRow (hN : 0 < N) (s : IVec ⟨2, ![R, 1]⟩ 32) (e : Fin R) : Fin N :=
  ⟨min (s (ix2 e (0 : Fin 1))).toInt.toNat (N - 1), by omega⟩

/-- The edges whose target row number, read signed, is `p`. -/
def into (d : IVec ⟨2, ![R, 1]⟩ 32) (p : Fin N) : Finset (Fin R) :=
  Finset.univ.filter fun e : Fin R => (d (ix2 e (0 : Fin 1))).toInt = (p.val : ℤ)

theorem nsum_apply (hN : 0 < N)
    (wg : GatherDims.WF ⟨2, ![N, D]⟩ ⟨2, ![R, 1]⟩ ⟨2, ![R, D]⟩ [1] [0] [] [0] [] 1 ![1, D])
    (ws : ScatterDims.WF ⟨2, ![N, D]⟩ ⟨2, ![R, 1]⟩ ⟨2, ![R, D]⟩ [1] [0] [0] 1)
    (zero : Mat N D) (s d : IVec ⟨2, ![R, 1]⟩ 32) (X : Mat N D) (p : Fin N) (k : Fin D) :
    nsum wg ws zero s d X (ix2 p k) = zero (ix2 p k) + ∑ e ∈ into d p, X (ix2 (srcRow hN s e) k) := by
  unfold nsum
  rw [scatterAdd_rowsScatter_apply]
  refine congrArg (_ + ·) (Finset.sum_congr rfl fun e _ => ?_)
  exact gather_rowsTake_apply hN wg X s e k

theorem zeroW_eq : zeroW = 0 := Ideal.ofBits_zero_f32

/-- Real features have real neighbourhood sums. -/
theorem nsum_real (hN : 0 < N)
    (wg : GatherDims.WF ⟨2, ![N, D]⟩ ⟨2, ![R, 1]⟩ ⟨2, ![R, D]⟩ [1] [0] [] [0] [] 1 ![1, D])
    (ws : ScatterDims.WF ⟨2, ![N, D]⟩ ⟨2, ![R, 1]⟩ ⟨2, ![R, D]⟩ [1] [0] [0] 1)
    (zero : Mat N D) (hz : ∀ i, zero i = zeroW) (s d : IVec ⟨2, ![R, 1]⟩ 32) (X : Mat N D) (hX : AllReal X) :
    AllReal (nsum wg ws zero s d X) := fun i => by
  obtain ⟨p, k, rfl⟩ : ∃ (p : Fin N) (k : Fin D), i = ix2 p k := ⟨i 0, i 1, eq_ix2 i⟩
  rw [nsum_apply hN, hz, zeroW_eq, zero_add]
  exact real_sum _ _ fun e => hX _

/-- For real features and real weights, multiplying by the weights and summing over neighbours is summing over
    neighbours and multiplying by the weights. -/
theorem nsum_product (hN : 0 < N)
    (wgK : GatherDims.WF ⟨2, ![N, K]⟩ ⟨2, ![R, 1]⟩ ⟨2, ![R, K]⟩ [1] [0] [] [0] [] 1 ![1, K])
    (wsK : ScatterDims.WF ⟨2, ![N, K]⟩ ⟨2, ![R, 1]⟩ ⟨2, ![R, K]⟩ [1] [0] [0] 1)
    (wgM : GatherDims.WF ⟨2, ![N, M]⟩ ⟨2, ![R, 1]⟩ ⟨2, ![R, M]⟩ [1] [0] [] [0] [] 1 ![1, M])
    (wsM : ScatterDims.WF ⟨2, ![N, M]⟩ ⟨2, ![R, 1]⟩ ⟨2, ![R, M]⟩ [1] [0] [0] 1)
    (zK : Mat N K) (hzK : ∀ i, zK i = zeroW) (zM : Mat N M) (hzM : ∀ i, zM i = zeroW)
    (s d : IVec ⟨2, ![R, 1]⟩ 32) (X : Mat N K) (hX : AllReal X) (W : Mat K M) (hW : AllReal W) :
    nsum wgM wsM zM s d (product X W) = product (nsum wgK wsK zK s d X) W := by
  funext i
  obtain ⟨p, q, rfl⟩ : ∃ (p : Fin N) (q : Fin M), i = ix2 p q := ⟨i 0, i 1, eq_ix2 i⟩
  rw [nsum_apply hN, hzM, zeroW_eq, zero_add, product_apply]
  simp only [product_apply, nsum_apply hN wgK wsK, hzK, zeroW_eq, zero_add]
  have h := sum_agg_mul (into d p) (srcRow hN s) (fun v k => X (ix2 v k)) (fun k => W (ix2 k q)) (fun _ => (1 : EReal))
    (fun v k => hX _) (fun k => hW _) (fun _ => ⟨1, rfl⟩)
  simp only [mul_one] at h
  exact h.symm

end Cert.Agg

end
-- ==== Proof.KAgg.lean ====
/-
  The kernel's neighbourhood sums keep real arrays real and commute with a product by real weights.

  The host's lookup of rows at the wrapped source numbers followed by the accumulation at the target numbers into zeros is
  the general neighbourhood sum, at 128 and at 64 columns, over the same two columns of edge numbers; the accumulator is
  the zero word everywhere. The two general facts then specialise.
-/
import proofs.«158174_j29059748725634_2_alg».proof.Proof.KStretch
import proofs.«158174_j29059748725634_2_alg».proof.Proof.AggFacts

set_option maxRecDepth 16384

noncomputable section

namespace Cert.KernelIdeal.HostValue

open Idealize.ShloMosaic Idealize.ShloMosaic.ValueIdx
open Cert.KernelIdeal Cert.KernelIdeal.Gen Cert.Spec Cert.Lib Cert.Agg

theorem zeros128_apply (i : S100000x128.Idx) : zeros128 i = zeroW :=
  broadcastInDim_apply _ bcast_S_S100000x128 (constant (F := Ideal) S_ .f32 0x00000000#32) i (fun a => a.elim0) (fun a => a.elim0)
theorem zeros64_apply (i : S100000x64.Idx) : zeros64 i = zeroW :=
  broadcastInDim_apply _ bcast_S_S100000x64 (constant (F := Ideal) S_ .f32 0x00000000#32) i (fun a => a.elim0) (fun a => a.elim0)

theorem agg128_eq (s d : I S1600000) (X : A S100000x128) :
    agg128 s d X = nsum (N := 100000) (D := 128) (R := 1600000) gather_S100000x128_S1600000x1_S1600000x128_1_0_n_n_0_1_1128_wf
      scatter_S100000x128_S1600000x1_S1600000x128_1_0_0_1_wf zeros128 (wrapCol s) (col d) X := rfl

theorem agg64_eq (s d : I S1600000) (X : A S100000x64) :
    agg64 s d X = nsum (N := 100000) (D := 64) (R := 1600000) gather_S100000x64_S1600000x1_S1600000x64_1_0_n_n_0_1_164_wf
      scatter_S100000x64_S1600000x1_S1600000x64_1_0_0_1_wf zeros64 (wrapCol s) (col d) X := rfl

/-- Real features have real neighbourhood sums. -/
theorem agg128_real (s d : I S1600000) (X : Mat 100000 128) (hX : AllReal X) : AllReal (agg128 s d X) := by
  rw [agg128_eq]; exact nsum_real (by decide) _ _ _ zeros128_apply _ _ _ hX

/-- Multiplying by real weights and then summing over neighbours is summing first and multiplying afterwards. -/
theorem agg_product (s d : I S1600000) (X : Mat 100000 128) (W : Mat 128 64) (hX : AllReal X) (hW : AllReal W) :
    agg64 s d (product X W) = product (agg128 s d X) W := by
  rw [agg64_eq, agg128_eq]
  exact nsum_product (by decide) _ _ _ _ zeros128 zeros128_apply zeros64 zeros64_apply _ _ X hX W hW

end Cert.KernelIdeal.HostValue

end
-- ==== Proof.ModelEq.lean ====
/-
  The block-summed and the all-rows pipelines compute the same encodings and predictions on real data.

  Given: the column means agree (a sum regrouped into blocks), the two variances agree on a real array (the mean of squares
  less the squared mean is the mean squared deviation, and is not negative), a normalised real array is real, the
  neighbourhood sum keeps real arrays real and commutes with a product by real weights. Then layer by layer the two sides
  are equal: the first hidden layer is the same term; its normalisations agree because the statistics do; in the second
  layer `X · W` summed over neighbours is the neighbours' sum times `W`, and adding the bias row to a product is the affine
  layer; the second normalisation and the decoder follow.
-/
import proofs.«158174_j29059748725634_2_alg».proof.Proof.Model
import proofs.«158174_j29059748725634_2_alg».proof.Proof.LibRealEntries

noncomputable section

namespace Cert.Model

open Idealize.ShloMosaic Idealize.ShloMosaic.ValueIdx Cert.Spec Cert.Lib
open scoped BigOperators

/-- Adding the bias row to a product is the affine layer. -/
theorem addRow_product {n K M : ℕ} (X : Mat n K) (W : Mat K M) (b : Mat 1 M) : addRow (product X W) b = affine X W b := rfl

section
variable (agg : Mat 100000 128 → Mat 100000 128) (agg' : Mat 100000 64 → Mat 100000 64)
  (emb : Mat 100000 64 → Mat 1600000 64)
  (x : Mat 100000 128) (W1 : Mat 128 128) (b1 g1 c1 : Mat 1 128) (W2 : Mat 128 64) (b2 g2 c2 : Mat 1 64)
  (Wd : Mat 64 5) (bd : Mat 1 5)

theorem enc2_eq
    (hmean : ∀ {M : ℕ} (H : Mat 100000 M), meanBlocks H = meanAll H)
    (hvar : ∀ {M : ℕ} (H : Mat 100000 M), AllReal H → varBlocks H = varAll H)
    (hbn : ∀ {M : ℕ} (H : Mat 100000 M) (g c : Mat 1 M), AllReal H → AllReal g → AllReal c →
      AllReal (bnApply H (meanAll H) (varAll H) g c))
    (hdense : ∀ {n K M : ℕ} (X : Mat n K) (W : Mat K M) (b : Mat 1 M), AllReal X → AllReal W → AllReal b →
      AllReal (relu (affine X W b)))
    (hagg : ∀ X, AllReal X → AllReal (agg X))
    (hlin : ∀ (X : Mat 100000 128) (W : Mat 128 64), AllReal X → AllReal W → agg' (product X W) = product (agg X) W)
    (hx : AllReal x) (hW1 : AllReal W1) (hb1 : AllReal b1) (hg1 : AllReal g1) (hc1 : AllReal c1)
    (hW2 : AllReal W2) (hb2 : AllReal b2) :
    encB2 agg agg' x W1 b1 g1 c1 W2 b2 g2 c2 = encA2 agg x W1 b1 g1 c1 W2 b2 g2 c2 := by
  have h1 : AllReal (hid1 agg x W1 b1) := hdense _ _ _ (hagg x hx) hW1 hb1
  have e1 : encB1 agg x W1 b1 g1 c1 = encA1 agg x W1 b1 g1 c1 := by
    unfold encB1 encA1; rw [hmean, hvar _ h1]
  have r1 : AllReal (encA1 agg x W1 b1 g1 c1) := hbn _ _ _ h1 hg1 hc1
  have e2 : hidB2 agg agg' x W1 b1 g1 c1 W2 b2 = hidA2 agg x W1 b1 g1 c1 W2 b2 := by
    unfold hidB2 hidA2; rw [e1, hlin _ _ r1 hW2, addRow_product]
  have h2 : AllReal (hidA2 agg x W1 b1 g1 c1 W2 b2) := hdense _ _ _ (hagg _ r1) hW2 hb2
  unfold encB2 encA2; rw [e2, hmean, hvar _ h2]

theorem pred_eq
    (h : encB2 agg agg' x W1 b1 g1 c1 W2 b2 g2 c2 = encA2 agg x W1 b1 g1 c1 W2 b2 g2 c2) :
    predB agg agg' emb x W1 b1 g1 c1 W2 b2 g2 c2 Wd bd = predA agg emb x W1 b1 g1 c1 W2 b2 g2 c2 Wd bd := by
  unfold predB predA; rw [h]

end

end Cert.Model

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.BridgeBlockTotals.lean ====
/-
  The per-block partial sums of a column add up to the column's sum over all rows.

  A 100000-row array is cut into 20 consecutive blocks of 5000 rows. Summing, over the blocks, each block's sum of a
  column (or of the squares of a column) is the sum over all 100000 rows: the rows are only regrouped, so
  commutativity and associativity of + suffice and no entry needs to be finite.
-/
import Idealize.ShloMosaic.PureOps.Ideal.Laws
import Idealize.ShloMosaic.Lib.ValueIdx
import proofs.«158174_j29059748725634_2_alg».proof.Proof.Spec
import proofs.«158174_j29059748725634_2_alg».proof.Proof.LibBlockSum

noncomputable section

namespace Cert.Bridge

open Idealize.ShloMosaic Idealize.ShloMosaic.ValueIdx
open scoped BigOperators

/-- A sum over the 20 blocks of the sums over each block's 5000 rows is the sum over all 100000 rows. -/
theorem sum_rows_blocks {A : Type*} [AddCommMonoid A] (g : Fin 100000 → A) :
    ∑ t : Fin 20, ∑ r : Fin 5000, g (Spec.rowOf t r) = ∑ p : Fin 100000, g p := by
  have h : 20 * 5000 = 100000 := by norm_num
  rw [← Equiv.sum_comp (finCongr h) g, Cert.Lib.sum_blocks 20 5000]
  refine Finset.sum_congr rfl fun t _ => Finset.sum_congr rfl fun r _ => congrArg g (Fin.ext ?_)
  have hv : (finCongr h (finProdFinEquiv (t, r))).val = r.val + 5000 * t.val := rfl
  rw [Spec.rowOf_val, hv]
  omega

variable {M : ℕ}

/-- The block sums of column `j`, added over the blocks from the zero word, are the column's sum over all rows. -/
theorem blockSums_total (H : Spec.Mat 100000 M) (j : Fin M) :
    Spec.zeroW + ∑ t : Fin 20, Spec.blockSums H (ix3 t (0 : Fin 1) j)
      = Spec.zeroW + ∑ p : Fin 100000, H (ix2 p j) := by
  simp only [Spec.blockSums_apply]
  exact congrArg (Spec.zeroW + ·) (sum_rows_blocks fun p => H (ix2 p j))

/-- The block sums of squares of column `j`, added over the blocks from the zero word, are the column's sum of
    squares over all rows. -/
theorem blockSumSq_total (H : Spec.Mat 100000 M) (j : Fin M) :
    Spec.zeroW + ∑ t : Fin 20, Spec.blockSumSq H (ix3 t (0 : Fin 1) j)
      = Spec.zeroW + ∑ p : Fin 100000, H (ix2 p j) * H (ix2 p j) := by
  simp only [Spec.blockSumSq_apply]
  exact congrArg (Spec.zeroW + ·) (sum_rows_blocks fun p => H (ix2 p j) * H (ix2 p j))

end Cert.Bridge

end
-- ==== Proof.LibBatchNormForms.lean ====
/-
  Two spellings of batch normalisation over a finite set of rows, and that they agree.

  For a column `h : ι → ℝ` over `n = |ι|` rows, with mean `μ = (∑ h) / n`:
  * the mean of squares minus the square of the mean is the mean of the squared deviations,
    `(∑ h²) / n − μ² = (∑ (h − μ)²) / n`  (`Cert.Lib.meanSq_sub_sq_mean`);
  * hence "scale and shift" `h · (γ · r) + (β − μ · (γ · r))` with `r = (√(E[h²] − μ² + ε))⁻¹` is
    "centre, scale, shift" `(h − μ) · (√(E[(h − μ)²] + ε))⁻¹ · γ + β`  (`Cert.Lib.bn_real`).
  On the extended reals, with the printed operations (`Ideal.div` by the row count, `Ideal.rsqrt`), the same holds for a
  column whose entries are all real, real `γ`, `β`, and a positive real `ε`; and the common value is real
  (`Cert.Lib.bn_ereal`). Distributivity is what is used, so the entries must be real: at an infinite entry both sides are
  junk of different kinds.
-/
import Idealize.ShloMosaic.PureOps.Ideal
import Mathlib.Algebra.BigOperators.Ring.Finset
import Mathlib.Tactic.Ring
import Mathlib.Tactic.FieldSimp
import Mathlib.Tactic.Positivity

noncomputable section

namespace Cert.Lib

open Idealize.ShloMosaic
open scoped BigOperators

variable {ι : Type*} [Fintype ι]

/-- The mean of squares minus the squared mean is the mean squared deviation. -/
theorem meanSq_sub_sq_mean (h : ι → ℝ) (n : ℝ) (hn : n ≠ 0) (hcard : (Fintype.card ι : ℝ) = n) :
    (∑ p, h p * h p) / n - (∑ p, h p) / n * ((∑ p, h p) / n)
      = (∑ p, (h p - (∑ p, h p) / n) * (h p - (∑ p, h p) / n)) / n := by
  set μ : ℝ := (∑ p, h p) / n with hμ
  have hS : ∑ p, h p = n * μ := by rw [hμ]; field_simp
  have hdev : ∑ p, (h p - μ) * (h p - μ) = (∑ p, h p * h p) - 2 * μ * (∑ p, h p) + n * (μ * μ) := by
    have : ∀ p, (h p - μ) * (h p - μ) = h p * h p - 2 * μ * h p + μ * μ := fun p => by ring
    simp only [this, Finset.sum_add_distrib, Finset.sum_sub_distrib, ← Finset.mul_sum, Finset.sum_const, Finset.card_univ,
      nsmul_eq_mul, hcard]
    ring
  rw [hdev, hS]
  field_simp
  ring

/-- The mean squared deviation is not negative. -/
theorem meanDev_nonneg (h : ι → ℝ) (n : ℝ) (hn : 0 < n) :
    0 ≤ (∑ p, (h p - (∑ p, h p) / n) * (h p - (∑ p, h p) / n)) / n :=
  div_nonneg (Finset.sum_nonneg fun p _ => mul_self_nonneg _) hn.le

/-- Scale-and-shift is centre-scale-shift, over the reals. -/
theorem bn_real (h : ι → ℝ) (n : ℝ) (hn : n ≠ 0) (hcard : (Fintype.card ι : ℝ) = n) (γ β ε : ℝ) (p : ι) :
    h p * (γ * (Real.sqrt ((∑ p, h p * h p) / n - (∑ p, h p) / n * ((∑ p, h p) / n) + ε))⁻¹)
        + (β - (∑ p, h p) / n * (γ * (Real.sqrt ((∑ p, h p * h p) / n - (∑ p, h p) / n * ((∑ p, h p) / n) + ε))⁻¹))
      = (h p - (∑ p, h p) / n) * (Real.sqrt ((∑ p, (h p - (∑ p, h p) / n) * (h p - (∑ p, h p) / n)) / n + ε))⁻¹ * γ + β := by
  rw [meanSq_sub_sq_mean h n hn hcard]
  ring

/-- A finite sum of coerced reals is the coerced sum. -/
theorem coe_sum_univ (f : ι → ℝ) : ((∑ p, f p : ℝ) : EReal) = ∑ p, (f p : EReal) := by
  classical
  refine Finset.induction_on (Finset.univ : Finset ι) (by simp) ?_
  intro a s ha ih
  rw [Finset.sum_insert ha, Finset.sum_insert ha, EReal.coe_add, ih]

/-- The reciprocal square root of a positive real is the real one. -/
theorem rsqrt_coe_pos (v : ℝ) (hv : 0 < v) : Ideal.rsqrt (v : EReal) = (((Real.sqrt v)⁻¹ : ℝ) : EReal) := by
  rw [Ideal.rsqrt_coe, if_neg (not_lt.mpr hv.le), if_neg hv.ne']

/-- Division by a nonzero real of a real is the real quotient. -/
theorem div_coe_coe (a n : ℝ) (hn : n ≠ 0) : Ideal.div (a : EReal) (n : EReal) = ((a / n : ℝ) : EReal) := by
  rw [Ideal.div_coe hn, ← EReal.coe_mul]; congr 1; ring

/-- The two spellings on the extended reals, for a real column: both are the coerced real value. -/
theorem bn_ereal (h : ι → EReal) (hr : ι → ℝ) (hh : ∀ p, h p = (hr p : EReal)) (n : ℝ) (hn : 0 < n)
    (hcard : (Fintype.card ι : ℝ) = n) (γ β ε : ℝ) (hε : 0 < ε) (p : ι) :
    h p * ((γ : EReal) * Ideal.rsqrt (Ideal.div (∑ p, h p * h p) (n : EReal)
            - Ideal.div (∑ p, h p) (n : EReal) * Ideal.div (∑ p, h p) (n : EReal) + (ε : EReal)))
        + ((β : EReal) - Ideal.div (∑ p, h p) (n : EReal) * ((γ : EReal) * Ideal.rsqrt (Ideal.div (∑ p, h p * h p) (n : EReal)
            - Ideal.div (∑ p, h p) (n : EReal) * Ideal.div (∑ p, h p) (n : EReal) + (ε : EReal))))
      = (((hr p - (∑ p, hr p) / n) * (Real.sqrt ((∑ p, (hr p - (∑ p, hr p) / n) * (hr p - (∑ p, hr p) / n)) / n + ε))⁻¹ * γ + β : ℝ) : EReal)
    ∧ (h p - Ideal.div (0 + ∑ p, h p) (n : EReal))
          * Ideal.rsqrt (Ideal.div (0 + ∑ p, (h p - Ideal.div (0 + ∑ p, h p) (n : EReal)) * (h p - Ideal.div (0 + ∑ p, h p) (n : EReal))) (n : EReal) + (ε : EReal))
          * (γ : EReal) + (β : EReal)
      = (((hr p - (∑ p, hr p) / n) * (Real.sqrt ((∑ p, (hr p - (∑ p, hr p) / n) * (hr p - (∑ p, hr p) / n)) / n + ε))⁻¹ * γ + β : ℝ) : EReal) := by
  have hn' : n ≠ 0 := hn.ne'
  have hfun : h = fun p => (hr p : EReal) := funext hh
  subst hfun
  have hS : (∑ p, (hr p : EReal)) = ((∑ p, hr p : ℝ) : EReal) := (coe_sum_univ hr).symm
  have hQ : (∑ p, (hr p : EReal) * (hr p : EReal)) = ((∑ p, hr p * hr p : ℝ) : EReal) := by
    rw [coe_sum_univ]; exact Finset.sum_congr rfl fun p _ => (EReal.coe_mul _ _).symm
  constructor
  · rw [hS, hQ, div_coe_coe _ _ hn', div_coe_coe _ _ hn', ← EReal.coe_mul, ← EReal.coe_sub, ← EReal.coe_add,
      rsqrt_coe_pos _ (by
        rw [meanSq_sub_sq_mean hr n hn' hcard]
        exact add_pos_of_nonneg_of_pos (meanDev_nonneg hr n hn) hε),
      ← EReal.coe_mul, ← EReal.coe_mul, ← EReal.coe_mul, ← EReal.coe_sub, ← EReal.coe_add, bn_real hr n hn' hcard]
  · rw [zero_add, hS, div_coe_coe _ _ hn']
    have hD : (∑ p, ((hr p : EReal) - (((∑ p, hr p) / n : ℝ) : EReal)) * ((hr p : EReal) - (((∑ p, hr p) / n : ℝ) : EReal)))
        = ((∑ p, (hr p - (∑ p, hr p) / n) * (hr p - (∑ p, hr p) / n) : ℝ) : EReal) := by
      rw [coe_sum_univ]; exact Finset.sum_congr rfl fun p _ => by rw [← EReal.coe_sub, ← EReal.coe_mul]
    rw [zero_add, hD, div_coe_coe _ _ hn', ← EReal.coe_add,
      rsqrt_coe_pos _ (add_pos_of_nonneg_of_pos (meanDev_nonneg hr n hn) hε),
      ← EReal.coe_sub, ← EReal.coe_mul, ← EReal.coe_mul, ← EReal.coe_add]

end Cert.Lib

end
-- ==== Proof.BridgeWords.lean ====
/-
  Two float words of the batch statistics read as real numbers: the row count, whose word denotes 100000, and the
  small constant added to a variance before the reciprocal square root, whose word denotes a positive real.
-/
import Idealize.ShloMosaic.PureOps.Ideal.Laws
import proofs.«158174_j29059748725634_2_alg».proof.Proof.Spec

noncomputable section

namespace Cert.Bridge

open Idealize.ShloMosaic

/-- The word of the row count denotes the real 100000. -/
theorem countW_eq : Ideal.ofBits .f32 0x47C35000#32 = ((100000 : ℝ) : EReal) := by
  simp [Ideal.ofBits, Ideal.ieee, -EReal.coe_mul]; norm_num

/-- The word of the variance's added constant denotes 10995116 · 2^(-40). -/
theorem epsW_eq : Spec.epsW = (((10995116 : ℝ) * (2 : ℝ) ^ (-40 : ℤ) : ℝ) : EReal) := by
  simp [Ideal.ofBits, Ideal.ieee, -EReal.coe_mul]

/-- The variance's added constant is a positive real. -/
theorem epsW_pos : ∃ e : ℝ, 0 < e ∧ Spec.epsW = (e : EReal) :=
  ⟨(10995116 : ℝ) * (2 : ℝ) ^ (-40 : ℤ), by positivity, epsW_eq⟩

/-- The zero word denotes 0. -/
theorem zeroW_eq : Spec.zeroW = 0 := Ideal.ofBits_zero_f32

end Cert.Bridge

end
-- ==== Proof.BridgeVariance.lean ====
/-
  The one-pass variance of a real column is its mean squared deviation.

  For a column of 100000 real entries with sum `S`, sum of squares `Q` and mean `μ = S / 100000`, the larger of
  `Q / 100000 − μ·μ` and zero is the mean of `(h − μ)·(h − μ)` over the rows: the two agree over the reals, and the
  second is a mean of squares, hence not negative, so the maximum with zero changes nothing. All sums start from the
  zero word and the divisor is the word of 100000; the entries must be real since the identity uses distributivity.
-/
import Idealize.ShloMosaic.PureOps.Ideal.Laws
import Idealize.ShloMosaic.Lib.ValueIdx
import proofs.«158174_j29059748725634_2_alg».proof.Proof.Spec
import proofs.«158174_j29059748725634_2_alg».proof.Proof.LibBatchNormForms
import proofs.«158174_j29059748725634_2_alg».proof.Proof.LibRealEntries
import proofs.«158174_j29059748725634_2_alg».proof.Proof.BridgeWords

noncomputable section

namespace Cert.Bridge

open Idealize.ShloMosaic Idealize.ShloMosaic.ValueIdx
open scoped BigOperators

variable {M : ℕ}

/-- For a real column: the mean is a real `m`, and the one-pass variance clamped at zero and the mean squared
    deviation are one real `v` with `0 ≤ v`. -/
theorem variance_real (H : Spec.Mat 100000 M) (hH : Cert.Lib.AllReal H) (j : Fin M) :
    ∃ m v : ℝ, 0 ≤ v
      ∧ Ideal.div (Spec.zeroW + ∑ p : Fin 100000, H (ix2 p j)) (Ideal.ofBits .f32 0x47C35000#32) = (m : EReal)
      ∧ max (Ideal.div (Spec.zeroW + ∑ p : Fin 100000, H (ix2 p j) * H (ix2 p j)) (Ideal.ofBits .f32 0x47C35000#32)
              - Ideal.div (Spec.zeroW + ∑ p : Fin 100000, H (ix2 p j)) (Ideal.ofBits .f32 0x47C35000#32)
                * Ideal.div (Spec.zeroW + ∑ p : Fin 100000, H (ix2 p j)) (Ideal.ofBits .f32 0x47C35000#32))
            Spec.zeroW = (v : EReal)
      ∧ Ideal.div (Spec.zeroW + ∑ p : Fin 100000,
              (H (ix2 p j) - Ideal.div (Spec.zeroW + ∑ p : Fin 100000, H (ix2 p j)) (Ideal.ofBits .f32 0x47C35000#32))
              * (H (ix2 p j) - Ideal.div (Spec.zeroW + ∑ p : Fin 100000, H (ix2 p j)) (Ideal.ofBits .f32 0x47C35000#32)))
            (Ideal.ofBits .f32 0x47C35000#32) = (v : EReal) := by
  choose h hh using fun p : Fin 100000 => hH (ix2 p j)
  have hn0 : (100000 : ℝ) ≠ 0 := by norm_num
  have hnpos : (0 : ℝ) < 100000 := by norm_num
  have hcard : (Fintype.card (Fin 100000) : ℝ) = 100000 := by simp
  have hS : Spec.zeroW + ∑ p : Fin 100000, H (ix2 p j) = ((∑ p, h p : ℝ) : EReal) := by
    rw [zeroW_eq, zero_add, Cert.Lib.coe_sum_univ]
    exact Finset.sum_congr rfl fun p _ => hh p
  have hQ : Spec.zeroW + ∑ p : Fin 100000, H (ix2 p j) * H (ix2 p j) = ((∑ p, h p * h p : ℝ) : EReal) := by
    rw [zeroW_eq, zero_add, Cert.Lib.coe_sum_univ]
    exact Finset.sum_congr rfl fun p _ => by rw [hh p, EReal.coe_mul]
  have hmean : Ideal.div (Spec.zeroW + ∑ p : Fin 100000, H (ix2 p j)) (Ideal.ofBits .f32 0x47C35000#32)
      = (((∑ p, h p) / 100000 : ℝ) : EReal) := by
    rw [hS, countW_eq, Cert.Lib.div_coe_coe _ _ hn0]
  have hD : Spec.zeroW + ∑ p : Fin 100000,
        (H (ix2 p j) - (((∑ p, h p) / 100000 : ℝ) : EReal)) * (H (ix2 p j) - (((∑ p, h p) / 100000 : ℝ) : EReal))
      = ((∑ p, (h p - (∑ p, h p) / 100000) * (h p - (∑ p, h p) / 100000) : ℝ) : EReal) := by
    rw [zeroW_eq, zero_add, Cert.Lib.coe_sum_univ]
    exact Finset.sum_congr rfl fun p _ => by rw [hh p, ← EReal.coe_sub, ← EReal.coe_mul]
  have hv0 := Cert.Lib.meanDev_nonneg h 100000 hnpos
  refine ⟨(∑ p, h p) / 100000,
    (∑ p, (h p - (∑ p, h p) / 100000) * (h p - (∑ p, h p) / 100000)) / 100000, hv0, hmean, ?_, ?_⟩
  · rw [hmean, hQ, countW_eq, Cert.Lib.div_coe_coe _ _ hn0, ← EReal.coe_mul, ← EReal.coe_sub,
      Cert.Lib.meanSq_sub_sq_mean h 100000 hn0 hcard, zeroW_eq]
    exact max_eq_left (EReal.coe_nonneg.mpr hv0)
  · rw [hmean, hD, countW_eq, Cert.Lib.div_coe_coe _ _ hn0]

/-- For a real column, the one-pass variance clamped at zero is the mean squared deviation. -/
theorem variance_eq (H : Spec.Mat 100000 M) (hH : Cert.Lib.AllReal H) (j : Fin M) :
    max (Ideal.div (Spec.zeroW + ∑ p : Fin 100000, H (ix2 p j) * H (ix2 p j)) (Ideal.ofBits .f32 0x47C35000#32)
            - Ideal.div (Spec.zeroW + ∑ p : Fin 100000, H (ix2 p j)) (Ideal.ofBits .f32 0x47C35000#32)
              * Ideal.div (Spec.zeroW + ∑ p : Fin 100000, H (ix2 p j)) (Ideal.ofBits .f32 0x47C35000#32))
          Spec.zeroW
      = Ideal.div (Spec.zeroW + ∑ p : Fin 100000,
              (H (ix2 p j) - Ideal.div (Spec.zeroW + ∑ p : Fin 100000, H (ix2 p j)) (Ideal.ofBits .f32 0x47C35000#32))
              * (H (ix2 p j) - Ideal.div (Spec.zeroW + ∑ p : Fin 100000, H (ix2 p j)) (Ideal.ofBits .f32 0x47C35000#32)))
            (Ideal.ofBits .f32 0x47C35000#32) := by
  obtain ⟨m, v, _, _, h1, h2⟩ := variance_real H hH j
  rw [h1, h2]

end Cert.Bridge

end
-- ==== Proof.BridgeRealClosure.lean ====
/-
  Arrays of reals stay arrays of reals through the layers.

  A matrix product, a product plus a bias row, the addition of a bias row, the entrywise maximum with zero, and the
  normalisation `γ·(h − μ)·(v + ε)^(-1/2) + β` with real statistics and a variance that is not negative all send
  arrays whose entries are real numbers to arrays whose entries are real numbers.
-/
import Idealize.ShloMosaic.PureOps.Ideal.Laws
import Idealize.ShloMosaic.Lib.ValueIdx
import proofs.«158174_j29059748725634_2_alg».proof.Proof.Spec
import proofs.«158174_j29059748725634_2_alg».proof.Proof.LibBatchNormForms
import proofs.«158174_j29059748725634_2_alg».proof.Proof.LibAggLinear
import proofs.«158174_j29059748725634_2_alg».proof.Proof.LibRealEntries
import proofs.«158174_j29059748725634_2_alg».proof.Proof.BridgeWords

noncomputable section

namespace Cert.Bridge

open Idealize.ShloMosaic Idealize.ShloMosaic.ValueIdx
open Cert.Lib (AllReal)
open scoped BigOperators

variable {n K M : ℕ}

/-- A row of `X` against a column of `W`, both real, is real. -/
theorem real_dot (X : Spec.Mat n K) (W : Spec.Mat K M) (hX : AllReal X) (hW : AllReal W) (p : Fin n) (q : Fin M) :
    ∃ r : ℝ, ∑ k : Fin K, X (ix2 p k) * W (ix2 k q) = (r : EReal) :=
  Cert.Lib.real_sum Finset.univ _ fun k => by
    obtain ⟨a, ha⟩ := hX (ix2 p k)
    obtain ⟨b, hb⟩ := hW (ix2 k q)
    exact ⟨a * b, by rw [ha, hb, EReal.coe_mul]⟩

/-- The product of real matrices is real. -/
theorem allReal_product (X : Spec.Mat n K) (W : Spec.Mat K M) (hX : AllReal X) (hW : AllReal W) :
    AllReal (Spec.product X W) := fun i => real_dot X W hX hW (i 0) (i 1)

/-- The product of real matrices plus a real bias row is real. -/
theorem allReal_affine (X : Spec.Mat n K) (W : Spec.Mat K M) (b : Spec.Mat 1 M) (hX : AllReal X) (hW : AllReal W)
    (hb : AllReal b) : AllReal (Spec.affine X W b) := fun i => by
  obtain ⟨s, hs⟩ := real_dot X W hX hW (i 0) (i 1)
  obtain ⟨c, hc⟩ := hb (ix2 (0 : Fin 1) (i 1))
  refine ⟨s + c, ?_⟩
  show (∑ k : Fin K, X (ix2 (i 0) k) * W (ix2 k (i 1))) + b (ix2 (0 : Fin 1) (i 1)) = _
  rw [hs, hc, EReal.coe_add]

/-- A real array plus a real bias row is real. -/
theorem allReal_addRow (X : Spec.Mat n M) (b : Spec.Mat 1 M) (hX : AllReal X) (hb : AllReal b) :
    AllReal (Spec.addRow X b) := fun i => by
  obtain ⟨s, hs⟩ := hX i
  obtain ⟨c, hc⟩ := hb (ix2 (0 : Fin 1) (i 1))
  refine ⟨s + c, ?_⟩
  show X i + b (ix2 (0 : Fin 1) (i 1)) = _
  rw [hs, hc, EReal.coe_add]

/-- The larger of a real and zero is real. -/
theorem real_max_zero (y : ℝ) : ∃ r : ℝ, max (y : EReal) 0 = (r : EReal) := by
  rcases le_total (0 : ℝ) y with h | h
  · exact ⟨y, max_eq_left (EReal.coe_nonneg.mpr h)⟩
  · exact ⟨0, by rw [max_eq_right (EReal.coe_nonpos.mpr h), EReal.coe_zero]⟩

/-- The entrywise maximum of a real array with zero is real. -/
theorem allReal_relu (Y : Spec.Mat n M) (hY : AllReal Y) : AllReal (Spec.relu Y) := fun i => by
  obtain ⟨y, hy⟩ := hY i
  show ∃ r : ℝ, max (Y i) Spec.zeroW = (r : EReal)
  rw [hy, zeroW_eq]
  exact real_max_zero y

/-- The normalisation of a real array by real statistics, the variance not negative, is real. -/
theorem allReal_bnApply (H : Spec.Mat n M) (μ v γ β : Spec.Mat 1 M) (hH : AllReal H) (hμ : AllReal μ)
    (hv : ∀ q : Fin M, ∃ r : ℝ, 0 ≤ r ∧ v (ix2 (0 : Fin 1) q) = (r : EReal)) (hγ : AllReal γ) (hβ : AllReal β) :
    AllReal (Spec.bnApply H μ v γ β) := fun i => by
  obtain ⟨x, hx⟩ := hH i
  obtain ⟨m, hm⟩ := hμ (ix2 (0 : Fin 1) (i 1))
  obtain ⟨w, hw0, hw⟩ := hv (i 1)
  obtain ⟨g, hg⟩ := hγ (ix2 (0 : Fin 1) (i 1))
  obtain ⟨c, hc⟩ := hβ (ix2 (0 : Fin 1) (i 1))
  obtain ⟨e, he0, he⟩ := epsW_pos
  refine ⟨g * (x - m) * (Real.sqrt (w + e))⁻¹ + c, ?_⟩
  show γ (ix2 (0 : Fin 1) (i 1)) * (H i - μ (ix2 (0 : Fin 1) (i 1)))
      * Ideal.rsqrt (v (ix2 (0 : Fin 1) (i 1)) + Spec.epsW) + β (ix2 (0 : Fin 1) (i 1)) = _
  have hsum : (w : EReal) + (e : EReal) = ((w + e : ℝ) : EReal) := (EReal.coe_add w e).symm
  rw [hx, hm, hw, hg, hc, he, hsum, Cert.Lib.rsqrt_coe_pos _ (by linarith), ← EReal.coe_sub, ← EReal.coe_mul,
    ← EReal.coe_mul, ← EReal.coe_add]

end Cert.Bridge

end
-- ==== Proof.BridgeModel.lean ====
/-
  The block-summed and the all-rows batch statistics agree, and the layers keep real arrays real.

  The column means from per-block partial sums are the column means over all rows (a sum regrouped). On a real array
  the variance taken as the larger of the mean of squares less the squared mean and zero is the mean squared
  deviation. A real array normalised by its own all-rows statistics with real scale and shift is real, and so is a
  dense layer with its maximum against zero.
-/
import proofs.«158174_j29059748725634_2_alg».proof.Proof.Model
import proofs.«158174_j29059748725634_2_alg».proof.Proof.ModelEq
import proofs.«158174_j29059748725634_2_alg».proof.Proof.BridgeBlockTotals
import proofs.«158174_j29059748725634_2_alg».proof.Proof.BridgeVariance
import proofs.«158174_j29059748725634_2_alg».proof.Proof.BridgeRealClosure

noncomputable section

namespace Cert.Bridge

open Idealize.ShloMosaic Idealize.ShloMosaic.ValueIdx
open Cert.Lib (AllReal)
open scoped BigOperators

variable {n K M : ℕ}

/-- The column means from block sums are the column means over all rows. -/
theorem mean_eq (H : Spec.Mat 100000 M) : Model.meanBlocks H = Model.meanAll H := by
  funext i
  show Ideal.div (Spec.zeroW + ∑ t : Fin 20, ∑ r : Fin 5000, H (ix2 (Spec.rowOf t r) (i 1))) Model.nW
    = Ideal.div (Spec.zeroW + ∑ p : Fin 100000, H (ix2 p (i 1))) Model.nW
  exact congrArg (fun s => Ideal.div (Spec.zeroW + s) Model.nW) (sum_rows_blocks fun p => H (ix2 p (i 1)))

/-- On a real array the one-pass variance from block sums, clamped at zero, is the mean squared deviation. -/
theorem var_eq (H : Spec.Mat 100000 M) (hH : AllReal H) : Model.varBlocks H = Model.varAll H := by
  funext i
  have hm : Model.meanBlocks H i = Model.meanAll H i := congrFun (mean_eq H) i
  have hq : ∑ t : Fin 20, ∑ r : Fin 5000, H (ix2 (Spec.rowOf t r) (i 1)) * H (ix2 (Spec.rowOf t r) (i 1))
      = ∑ p : Fin 100000, H (ix2 p (i 1)) * H (ix2 p (i 1)) := sum_rows_blocks fun p => H (ix2 p (i 1)) * H (ix2 p (i 1))
  show max (Ideal.div (Spec.zeroW
        + ∑ t : Fin 20, ∑ r : Fin 5000, H (ix2 (Spec.rowOf t r) (i 1)) * H (ix2 (Spec.rowOf t r) (i 1))) Model.nW
      - Model.meanBlocks H i * Model.meanBlocks H i) Spec.zeroW = Model.varAll H i
  rw [hm, hq]
  exact variance_eq H hH (i 1)

/-- The all-rows column means of a real array are real. -/
theorem allReal_meanAll (H : Spec.Mat 100000 M) (hH : AllReal H) : AllReal (Model.meanAll H) := fun i => by
  obtain ⟨m, v, _, hm, _, _⟩ := variance_real H hH (i 1)
  exact ⟨m, hm⟩

/-- The all-rows column variances of a real array are real and not negative. -/
theorem varAll_nonneg (H : Spec.Mat 100000 M) (hH : AllReal H) (q : Fin M) :
    ∃ r : ℝ, 0 ≤ r ∧ Model.varAll H (ix2 (0 : Fin 1) q) = (r : EReal) := by
  obtain ⟨m, v, hv0, _, _, hv⟩ := variance_real H hH q
  exact ⟨v, hv0, hv⟩

/-- A real array normalised by its all-rows statistics, with real scale and shift, is real. -/
theorem bn_real (H : Spec.Mat 100000 M) (g c : Spec.Mat 1 M) (hH : AllReal H) (hg : AllReal g) (hc : AllReal c) :
    AllReal (Spec.bnApply H (Model.meanAll H) (Model.varAll H) g c) :=
  allReal_bnApply H (Model.meanAll H) (Model.varAll H) g c hH (allReal_meanAll H hH) (varAll_nonneg H hH) hg hc

/-- A dense layer of real arrays followed by the maximum with zero is real. -/
theorem dense_real (X : Spec.Mat n K) (W : Spec.Mat K M) (b : Spec.Mat 1 M) (hX : AllReal X) (hW : AllReal W)
    (hb : AllReal b) : AllReal (Spec.relu (Spec.affine X W b)) :=
  allReal_relu _ (allReal_affine X W b hX hW hb)

end Cert.Bridge

end
-- ==== Proof.PreReal.lean ====
/-
  From the finiteness precondition to real entries.

  The precondition computes, for each of the eleven float arguments, whether every entry's absolute value is below
  +∞, and joins the eleven answers by `and`. If the joint answer is one, each answer is one, and an array all of
  whose entries have absolute value below +∞ is an array of real numbers.
-/
import proofs.«158174_j29059748725634_2_alg».proof.Defs
import proofs.«158174_j29059748725634_2_alg».proof.Proof.Gen.Pre_finite_inputs
import proofs.«158174_j29059748725634_2_alg».proof.Proof.LibRealEntries
import Idealize.ShloMosaic.Lib.ReduceAll
import Idealize.ShloMosaic.Lib.ValueIdx

noncomputable section

namespace Cert.PreReal

open Idealize.ShloMosaic
open Cert.Pre_finite_inputs
open Cert.Pre_finite_inputs.Facts

/-- The shape with no axes has one index. -/
instance : Subsingleton S_.Idx := ⟨fun a b => funext fun d => d.elim0⟩

variable [Cert.Pre_finite_inputs.Facts]

/-- If the finiteness predicate of the fourteen arguments answers one, the eleven float arguments are arrays of reals. -/
theorem real_of_fn (a0 : FVec Ideal S100000x128 .f32) (a1 : FVec Ideal S128x128 .f32) (a2 a3 a4 : FVec Ideal S128 .f32)
    (a5 : FVec Ideal S128x64 .f32) (a6 a7 a8 : FVec Ideal S64 .f32) (a9 : FVec Ideal S64x5 .f32) (a10 : FVec Ideal S5 .f32)
    (a11 a12 a13 : IVec S1600000 32)
    (h : Cert.Pre_finite_inputs.fn (F := Ideal) a0 a1 a2 a3 a4 a5 a6 a7 a8 a9 a10 a11 a12 a13 = (fun _ => 1#1)) :
    Cert.Lib.AllReal a0 ∧ Cert.Lib.AllReal a1 ∧ Cert.Lib.AllReal a2 ∧ Cert.Lib.AllReal a3 ∧ Cert.Lib.AllReal a4
      ∧ Cert.Lib.AllReal a5 ∧ Cert.Lib.AllReal a6 ∧ Cert.Lib.AllReal a7 ∧ Cert.Lib.AllReal a8 ∧ Cert.Lib.AllReal a9
      ∧ Cert.Lib.AllReal a10 := by
  have h0 := congrFun h ValueIdx.ix0
  dsimp only [fn, fn_part1, fn_part2, fn_part3] at h0
  simp only [Idealize.ShloMosaic.andi, IntOp.andi_eq_one] at h0
  obtain ⟨⟨⟨⟨⟨⟨⟨⟨⟨⟨e0, e1⟩, e2⟩, e3⟩, e4⟩, e5⟩, e6⟩, e7⟩, e8⟩, e9⟩, e10⟩ := h0
  refine ⟨?_, ?_, ?_, ?_, ?_, ?_, ?_, ?_, ?_, ?_, ?_⟩
  · exact Cert.Lib.allReal_of_all_abs_lt a0 _ (by intro i; rfl) _ _ _ _ e0
  · exact Cert.Lib.allReal_of_all_abs_lt a1 _ (by intro i; rfl) _ _ _ _ e1
  · exact Cert.Lib.allReal_of_all_abs_lt a2 _ (by intro i; rfl) _ _ _ _ e2
  · exact Cert.Lib.allReal_of_all_abs_lt a3 _ (by intro i; rfl) _ _ _ _ e3
  · exact Cert.Lib.allReal_of_all_abs_lt a4 _ (by intro i; rfl) _ _ _ _ e4
  · exact Cert.Lib.allReal_of_all_abs_lt a5 _ (by intro i; rfl) _ _ _ _ e5
  · exact Cert.Lib.allReal_of_all_abs_lt a6 _ (by intro i; rfl) _ _ _ _ e6
  · exact Cert.Lib.allReal_of_all_abs_lt a7 _ (by intro i; rfl) _ _ _ _ e7
  · exact Cert.Lib.allReal_of_all_abs_lt a8 _ (by intro i; rfl) _ _ _ _ e8
  · exact Cert.Lib.allReal_of_all_abs_lt a9 _ (by intro i; rfl) _ _ _ _ e9
  · exact Cert.Lib.allReal_of_all_abs_lt a10 _ (by intro i; rfl) _ _ _ _ e10

end Cert.PreReal

end
-- ==== Proof.RefStage1.lean ====
/-
  The first hidden layer of the all-rows pipeline, read entry by entry.

  Entry `(p, q)` is the larger of zero and the sum over `k` of the neighbourhood sum's entry `(p, k)` times the weight
  `(k, q)`, plus the bias entry `q`: the relu of the affine layer applied to the neighbourhood sums.
-/
import proofs.«158174_j29059748725634_2_alg».proof.Proof.Gen.ReferenceIdeal.Read
import proofs.«158174_j29059748725634_2_alg».proof.Proof.Spec
import proofs.«158174_j29059748725634_2_alg».proof.Proof.Model
import proofs.«158174_j29059748725634_2_alg».proof.Proof.LibAsRow

noncomputable section

namespace Cert.ReferenceIdeal.RefValue

open Cert.ReferenceIdeal Cert.ReferenceIdeal.Gen Cert.ReferenceIdeal.Read Idealize.ShloMosaic Idealize.ShloMosaic.ValueIdx
open scoped BigOperators

/-- The first hidden layer is `relu (agg · W1 + b1)`. -/
theorem hidden1_eq (x0 : (⟨S100000x128, .f32⟩ : BufTy).Contents (Elt Ideal))
    (x1 : (⟨S128x128, .f32⟩ : BufTy).Contents (Elt Ideal)) (x2 : (⟨S128, .f32⟩ : BufTy).Contents (Elt Ideal))
    (x11 x12 : (⟨S1600000, .i32⟩ : BufTy).Contents (Elt Ideal)) :
    val_main_v14 (F := Ideal) x0 x1 x2 x11 x12
      = Cert.Spec.relu (Cert.Spec.affine (n := 100000) (K := 128) (M := 128)
          (val_main_v9 (F := Ideal) x0 x11 x12) x1 (Cert.Lib.asRow x2)) := by
  funext i
  obtain ⟨p, q, rfl⟩ : ∃ (p : Fin 100000) (q : Fin 128), i = ix2 p q := ⟨i 0, i 1, eq_ix2 i⟩
  have el : ∀ k : Fin 128, lidx_main_v10 (ix2 p q) k = ix2 p k := fun k =>
    funext fun a => Fin.ext (by match a with | ⟨0, _⟩ => rfl | ⟨1, _⟩ => rfl)
  have er : ∀ k : Fin 128, ridx_main_v10 (ix2 p q) k = ix2 k q := fun k =>
    funext fun a => Fin.ext (by match a with | ⟨0, _⟩ => rfl | ⟨1, _⟩ => rfl)
  have eb : idx_main_v11 (idx_main_v12 (ix2 p q)) = ix1 q :=
    funext fun a => Fin.ext (by match a with | ⟨0, _⟩ => rfl)
  rw [val_main_v14_apply, val_main_v13_apply, val_main_v10_apply, val_main_v12_apply, val_main_v11_apply,
    val_main_call0_v0_apply, val_main_call0_cst_apply]
  simp only [el, er, eb, Ideal.maximumf_def, Ideal.addf_def, Ideal.ofBits_def]
  rfl

end Cert.ReferenceIdeal.RefValue

end
-- ==== Proof.RefStage2.lean ====
/-
  The first batch normalisation of the all-rows pipeline, read entry by entry.

  For the first hidden array `H`, entry `(p, q)` of the normalised array is `γ q · (H (p, q) − μ q) · (v q + ε)^(-1/2) + β q`,
  where `μ q` is the sum of column `q` over all 100000 rows (from zero) over the row count, and `v q` the sum over all rows
  of the squared deviations from `μ q`, over the row count.
-/
import proofs.«158174_j29059748725634_2_alg».proof.Proof.Gen.ReferenceIdeal.Read
import proofs.«158174_j29059748725634_2_alg».proof.Proof.Spec
import proofs.«158174_j29059748725634_2_alg».proof.Proof.Model
import proofs.«158174_j29059748725634_2_alg».proof.Proof.LibAsRow

noncomputable section

namespace Cert.ReferenceIdeal.RefValue

open Cert.ReferenceIdeal Cert.ReferenceIdeal.Gen Cert.ReferenceIdeal.Read Idealize.ShloMosaic Idealize.ShloMosaic.ValueIdx
open scoped BigOperators

section

variable (x0 : (⟨S100000x128, .f32⟩ : BufTy).Contents (Elt Ideal))
  (x1 : (⟨S128x128, .f32⟩ : BufTy).Contents (Elt Ideal)) (x2 x3 x4 : (⟨S128, .f32⟩ : BufTy).Contents (Elt Ideal))
  (x11 x12 : (⟨S1600000, .i32⟩ : BufTy).Contents (Elt Ideal))

/-- The all-rows mean of column `q`, written out. -/
private theorem meanAll_apply {M : ℕ} (H : Cert.Spec.Mat 100000 M) (u : Fin 1) (q : Fin M) :
    Cert.Model.meanAll H (ix2 u q)
      = Ideal.div (Cert.Spec.zeroW + ∑ r : Fin 100000, H (ix2 r q)) Cert.Model.nW := rfl

/-- The all-rows variance of column `q`, written out. -/
private theorem varAll_apply {M : ℕ} (H : Cert.Spec.Mat 100000 M) (u : Fin 1) (q : Fin M) :
    Cert.Model.varAll H (ix2 u q)
      = Ideal.div (Cert.Spec.zeroW + ∑ r : Fin 100000,
          (H (ix2 r q) - Cert.Model.meanAll H (ix2 u q)) * (H (ix2 r q) - Cert.Model.meanAll H (ix2 u q))) Cert.Model.nW := rfl

/-- The reference's column mean is the all-rows mean of the hidden array. -/
theorem encoded1_mean (q : Fin 128) :
    val_main_v17 (F := Ideal) x0 x1 x2 x11 x12 (ix1 q) = Cert.Model.meanAll (val_main_v14 (F := Ideal) x0 x1 x2 x11 x12) (ix2 (0 : Fin 1) q) := by
  have e : ∀ k : Fin 100000, idx_main_v15 (ix1 q) k = ix2 k q := fun k =>
    funext fun a => Fin.ext (by match a with | ⟨0, _⟩ => rfl | ⟨1, _⟩ => rfl)
  rw [meanAll_apply, val_main_v17_apply, val_main_v15_apply, val_main_v16_apply, val_main_cst_2_apply, val_main_cst_1_apply]
  generalize val_main_v14 (F := Ideal) x0 x1 x2 x11 x12 = H
  rw [Finset.sum_congr (s₁ := (Finset.univ : Finset (Fin 100000))) rfl fun k _ => congrArg H (e k)]
  rfl

/-- The reference's column variance is the all-rows mean squared deviation of the hidden array. -/
theorem encoded1_var (q : Fin 128) :
    val_main_v24 (F := Ideal) x0 x1 x2 x11 x12 (ix1 q) = Cert.Model.varAll (val_main_v14 (F := Ideal) x0 x1 x2 x11 x12) (ix2 (0 : Fin 1) q) := by
  have e : ∀ k : Fin 100000, idx_main_v22 (ix1 q) k = ix2 k q := fun k =>
    funext fun a => Fin.ext (by match a with | ⟨0, _⟩ => rfl | ⟨1, _⟩ => rfl)
  have eb : ∀ k : Fin 100000, idx_main_v18 (idx_main_v19 (ix2 k q)) = ix1 q := fun k =>
    funext fun a => Fin.ext (by match a with | ⟨0, _⟩ => rfl)
  have hk : ∀ k : Fin 100000, val_main_v21 (F := Ideal) x0 x1 x2 x11 x12 (idx_main_v22 (ix1 q) k)
      = ((val_main_v14 (F := Ideal) x0 x1 x2 x11 x12) (ix2 k q) - Cert.Model.meanAll (val_main_v14 (F := Ideal) x0 x1 x2 x11 x12) (ix2 (0 : Fin 1) q))
        * ((val_main_v14 (F := Ideal) x0 x1 x2 x11 x12) (ix2 k q) - Cert.Model.meanAll (val_main_v14 (F := Ideal) x0 x1 x2 x11 x12) (ix2 (0 : Fin 1) q)) := fun k => by
    rw [e k, val_main_v21_apply, val_main_v20_apply, val_main_v19_apply, val_main_v18_apply, eb k, encoded1_mean]
    rfl
  rw [varAll_apply, val_main_v24_apply, val_main_v22_apply, val_main_v23_apply, val_main_cst_4_apply, val_main_cst_3_apply,
    Finset.sum_congr (s₁ := (Finset.univ : Finset (Fin 100000))) rfl fun k _ => hk k]
  rfl

/-- The first normalised array is `bnApply` of the first hidden layer with its all-rows mean and variance. -/
theorem encoded1_eq :
    val_main_v39 (F := Ideal) x0 x1 x2 x3 x4 x11 x12
      = Cert.Spec.bnApply (n := 100000) (M := 128) (val_main_v14 (F := Ideal) x0 x1 x2 x11 x12)
          (Cert.Model.meanAll (val_main_v14 (F := Ideal) x0 x1 x2 x11 x12))
          (Cert.Model.varAll (val_main_v14 (F := Ideal) x0 x1 x2 x11 x12))
          (Cert.Lib.asRow x3) (Cert.Lib.asRow x4) := by
  funext i
  obtain ⟨p, q, rfl⟩ : ∃ (p : Fin 100000) (q : Fin 128), i = ix2 p q := ⟨i 0, i 1, eq_ix2 i⟩
  have eβ : idx_main_v37 (idx_main_v38 (ix2 p q)) = ix1 q :=
    funext fun a => Fin.ext (by match a with | ⟨0, _⟩ => rfl)
  have eγ : idx_main_v28 (idx_main_v29 (ix2 p q)) = ix1 q :=
    funext fun a => Fin.ext (by match a with | ⟨0, _⟩ => rfl)
  have eμ : idx_main_v25 (idx_main_v26 (ix2 p q)) = ix1 q :=
    funext fun a => Fin.ext (by match a with | ⟨0, _⟩ => rfl)
  have eσ : idx_main_v34 (idx_main_v35 (ix2 p q)) = ix1 q :=
    funext fun a => Fin.ext (by match a with | ⟨0, _⟩ => rfl)
  rw [Cert.Spec.bnApply_apply, ← encoded1_mean, ← encoded1_var,
    val_main_v39_apply, val_main_v36_apply, val_main_v38_apply, val_main_v37_apply, eβ, val_main_v30_apply, val_main_v29_apply, val_main_v28_apply, eγ,
    val_main_v27_apply, val_main_v26_apply, val_main_v25_apply, eμ, val_main_v35_apply, val_main_v34_apply, eσ, val_main_v33_apply, val_main_v32_apply, val_main_v31_apply,
    val_main_cst_5_apply]
  rfl

end

end Cert.ReferenceIdeal.RefValue

end
-- ==== Proof.RefStage3.lean ====
/-
  The second hidden layer of the all-rows pipeline, read entry by entry.

  Entry `(p, q)` is the larger of zero and the sum over `k` of the second neighbourhood sum's entry `(p, k)` times the
  weight `(k, q)`, plus the bias entry `q`: the relu of the affine layer applied to the neighbourhood sums of the first
  normalised array.
-/
import proofs.«158174_j29059748725634_2_alg».proof.Proof.Gen.ReferenceIdeal.Read
import proofs.«158174_j29059748725634_2_alg».proof.Proof.Spec
import proofs.«158174_j29059748725634_2_alg».proof.Proof.Model
import proofs.«158174_j29059748725634_2_alg».proof.Proof.LibAsRow

noncomputable section

namespace Cert.ReferenceIdeal.RefValue

open Cert.ReferenceIdeal Cert.ReferenceIdeal.Gen Cert.ReferenceIdeal.Read Idealize.ShloMosaic Idealize.ShloMosaic.ValueIdx
open scoped BigOperators

/-- The second hidden layer is `relu (agg · W2 + b2)`. -/
theorem hidden2_eq (x0 : (⟨S100000x128, .f32⟩ : BufTy).Contents (Elt Ideal))
    (x1 : (⟨S128x128, .f32⟩ : BufTy).Contents (Elt Ideal)) (x2 x3 x4 : (⟨S128, .f32⟩ : BufTy).Contents (Elt Ideal))
    (x5 : (⟨S128x64, .f32⟩ : BufTy).Contents (Elt Ideal)) (x6 : (⟨S64, .f32⟩ : BufTy).Contents (Elt Ideal))
    (x11 x12 : (⟨S1600000, .i32⟩ : BufTy).Contents (Elt Ideal)) :
    val_main_v54 (F := Ideal) x0 x1 x2 x3 x4 x5 x6 x11 x12
      = Cert.Spec.relu (Cert.Spec.affine (n := 100000) (K := 128) (M := 64)
          (val_main_v49 (F := Ideal) x0 x1 x2 x3 x4 x11 x12) x5 (Cert.Lib.asRow x6)) := by
  funext i
  obtain ⟨p, q, rfl⟩ : ∃ (p : Fin 100000) (q : Fin 64), i = ix2 p q := ⟨i 0, i 1, eq_ix2 i⟩
  have el : ∀ k : Fin 128, lidx_main_v50 (ix2 p q) k = ix2 p k := fun k =>
    funext fun a => Fin.ext (by match a with | ⟨0, _⟩ => rfl | ⟨1, _⟩ => rfl)
  have er : ∀ k : Fin 128, ridx_main_v50 (ix2 p q) k = ix2 k q := fun k =>
    funext fun a => Fin.ext (by match a with | ⟨0, _⟩ => rfl | ⟨1, _⟩ => rfl)
  have eb : idx_main_v51 (idx_main_v52 (ix2 p q)) = ix1 q :=
    funext fun a => Fin.ext (by match a with | ⟨0, _⟩ => rfl)
  rw [val_main_v54_apply, val_main_v53_apply, val_main_v50_apply, val_main_v52_apply, val_main_v51_apply,
    val_main_call1_v0_apply, val_main_call1_cst_apply]
  simp only [el, er, eb, Ideal.maximumf_def, Ideal.addf_def, Ideal.ofBits_def]
  rfl

end Cert.ReferenceIdeal.RefValue

end
-- ==== Proof.RefStage4.lean ====
/-
  The second batch normalisation of the all-rows pipeline, read entry by entry.

  For the second hidden array `H`, entry `(p, q)` of the normalised array is `γ q · (H (p, q) − μ q) · (v q + ε)^(-1/2) + β q`,
  where `μ q` is the sum of column `q` over all 100000 rows (from zero) over the row count, and `v q` the sum over all rows
  of the squared deviations from `μ q`, over the row count.
-/
import proofs.«158174_j29059748725634_2_alg».proof.Proof.Gen.ReferenceIdeal.Read
import proofs.«158174_j29059748725634_2_alg».proof.Proof.Spec
import proofs.«158174_j29059748725634_2_alg».proof.Proof.Model
import proofs.«158174_j29059748725634_2_alg».proof.Proof.LibAsRow

noncomputable section

namespace Cert.ReferenceIdeal.RefValue

open Cert.ReferenceIdeal Cert.ReferenceIdeal.Gen Cert.ReferenceIdeal.Read Idealize.ShloMosaic Idealize.ShloMosaic.ValueIdx
open scoped BigOperators

section

variable (x0 : (⟨S100000x128, .f32⟩ : BufTy).Contents (Elt Ideal))
  (x1 : (⟨S128x128, .f32⟩ : BufTy).Contents (Elt Ideal)) (x2 x3 x4 : (⟨S128, .f32⟩ : BufTy).Contents (Elt Ideal))
  (x5 : (⟨S128x64, .f32⟩ : BufTy).Contents (Elt Ideal)) (x6 x7 x8 : (⟨S64, .f32⟩ : BufTy).Contents (Elt Ideal))
  (x11 x12 : (⟨S1600000, .i32⟩ : BufTy).Contents (Elt Ideal))

/-- The all-rows mean of column `q`, written out. -/
private theorem meanAll_apply {M : ℕ} (H : Cert.Spec.Mat 100000 M) (u : Fin 1) (q : Fin M) :
    Cert.Model.meanAll H (ix2 u q)
      = Ideal.div (Cert.Spec.zeroW + ∑ r : Fin 100000, H (ix2 r q)) Cert.Model.nW := rfl

/-- The all-rows variance of column `q`, written out. -/
private theorem varAll_apply {M : ℕ} (H : Cert.Spec.Mat 100000 M) (u : Fin 1) (q : Fin M) :
    Cert.Model.varAll H (ix2 u q)
      = Ideal.div (Cert.Spec.zeroW + ∑ r : Fin 100000,
          (H (ix2 r q) - Cert.Model.meanAll H (ix2 u q)) * (H (ix2 r q) - Cert.Model.meanAll H (ix2 u q))) Cert.Model.nW := rfl

/-- The reference's column mean is the all-rows mean of the hidden array. -/
theorem encoded2_mean (q : Fin 64) :
    val_main_v57 (F := Ideal) x0 x1 x2 x3 x4 x5 x6 x11 x12 (ix1 q) = Cert.Model.meanAll (val_main_v54 (F := Ideal) x0 x1 x2 x3 x4 x5 x6 x11 x12) (ix2 (0 : Fin 1) q) := by
  have e : ∀ k : Fin 100000, idx_main_v55 (ix1 q) k = ix2 k q := fun k =>
    funext fun a => Fin.ext (by match a with | ⟨0, _⟩ => rfl | ⟨1, _⟩ => rfl)
  rw [meanAll_apply, val_main_v57_apply, val_main_v55_apply, val_main_v56_apply, val_main_cst_10_apply, val_main_cst_9_apply]
  generalize val_main_v54 (F := Ideal) x0 x1 x2 x3 x4 x5 x6 x11 x12 = H
  rw [Finset.sum_congr (s₁ := (Finset.univ : Finset (Fin 100000))) rfl fun k _ => congrArg H (e k)]
  rfl

/-- The reference's column variance is the all-rows mean squared deviation of the hidden array. -/
theorem encoded2_var (q : Fin 64) :
    val_main_v64 (F := Ideal) x0 x1 x2 x3 x4 x5 x6 x11 x12 (ix1 q) = Cert.Model.varAll (val_main_v54 (F := Ideal) x0 x1 x2 x3 x4 x5 x6 x11 x12) (ix2 (0 : Fin 1) q) := by
  have e : ∀ k : Fin 100000, idx_main_v62 (ix1 q) k = ix2 k q := fun k =>
    funext fun a => Fin.ext (by match a with | ⟨0, _⟩ => rfl | ⟨1, _⟩ => rfl)
  have eb : ∀ k : Fin 100000, idx_main_v58 (idx_main_v59 (ix2 k q)) = ix1 q := fun k =>
    funext fun a => Fin.ext (by match a with | ⟨0, _⟩ => rfl)
  have hk : ∀ k : Fin 100000, val_main_v61 (F := Ideal) x0 x1 x2 x3 x4 x5 x6 x11 x12 (idx_main_v62 (ix1 q) k)
      = ((val_main_v54 (F := Ideal) x0 x1 x2 x3 x4 x5 x6 x11 x12) (ix2 k q) - Cert.Model.meanAll (val_main_v54 (F := Ideal) x0 x1 x2 x3 x4 x5 x6 x11 x12) (ix2 (0 : Fin 1) q))
        * ((val_main_v54 (F := Ideal) x0 x1 x2 x3 x4 x5 x6 x11 x12) (ix2 k q) - Cert.Model.meanAll (val_main_v54 (F := Ideal) x0 x1 x2 x3 x4 x5 x6 x11 x12) (ix2 (0 : Fin 1) q)) := fun k => by
    rw [e k, val_main_v61_apply, val_main_v60_apply, val_main_v59_apply, val_main_v58_apply, eb k, encoded2_mean]
    rfl
  rw [varAll_apply, val_main_v64_apply, val_main_v62_apply, val_main_v63_apply, val_main_cst_12_apply, val_main_cst_11_apply,
    Finset.sum_congr (s₁ := (Finset.univ : Finset (Fin 100000))) rfl fun k _ => hk k]
  rfl

/-- The second normalised array is `bnApply` of the second hidden layer with its all-rows mean and variance. -/
theorem encoded2_eq :
    val_main_v79 (F := Ideal) x0 x1 x2 x3 x4 x5 x6 x7 x8 x11 x12
      = Cert.Spec.bnApply (n := 100000) (M := 64) (val_main_v54 (F := Ideal) x0 x1 x2 x3 x4 x5 x6 x11 x12)
          (Cert.Model.meanAll (val_main_v54 (F := Ideal) x0 x1 x2 x3 x4 x5 x6 x11 x12))
          (Cert.Model.varAll (val_main_v54 (F := Ideal) x0 x1 x2 x3 x4 x5 x6 x11 x12))
          (Cert.Lib.asRow x7) (Cert.Lib.asRow x8) := by
  funext i
  obtain ⟨p, q, rfl⟩ : ∃ (p : Fin 100000) (q : Fin 64), i = ix2 p q := ⟨i 0, i 1, eq_ix2 i⟩
  have eβ : idx_main_v77 (idx_main_v78 (ix2 p q)) = ix1 q :=
    funext fun a => Fin.ext (by match a with | ⟨0, _⟩ => rfl)
  have eγ : idx_main_v68 (idx_main_v69 (ix2 p q)) = ix1 q :=
    funext fun a => Fin.ext (by match a with | ⟨0, _⟩ => rfl)
  have eμ : idx_main_v65 (idx_main_v66 (ix2 p q)) = ix1 q :=
    funext fun a => Fin.ext (by match a with | ⟨0, _⟩ => rfl)
  have eσ : idx_main_v74 (idx_main_v75 (ix2 p q)) = ix1 q :=
    funext fun a => Fin.ext (by match a with | ⟨0, _⟩ => rfl)
  rw [Cert.Spec.bnApply_apply, ← encoded2_mean, ← encoded2_var,
    val_main_v79_apply, val_main_v76_apply, val_main_v78_apply, val_main_v77_apply, eβ, val_main_v70_apply, val_main_v69_apply, val_main_v68_apply, eγ,
    val_main_v67_apply, val_main_v66_apply, val_main_v65_apply, eμ, val_main_v75_apply, val_main_v74_apply, eσ, val_main_v73_apply, val_main_v72_apply, val_main_v71_apply,
    val_main_cst_13_apply]
  rfl

end

end Cert.ReferenceIdeal.RefValue

end
-- ==== Proof.RefStage5.lean ====
/-
  The decoder of the all-rows pipeline, read entry by entry.

  The logits are the affine layer applied to the products of looked-up rows: entry `(p, q)` is the sum over `k` of the
  product array's entry `(p, k)` times the weight `(k, q)`, plus the bias entry `q`. A row's largest logit is the fold of
  `max` from minus infinity over the row's five entries, taken once more against minus infinity. The prediction at
  `(p, q)` is the exponential of the logit less the row's largest, over the sum of the row's five such exponentials;
  that sum is taken from zero, and zero plus a sum is the sum.
-/
import proofs.«158174_j29059748725634_2_alg».proof.Proof.Gen.ReferenceIdeal.Read
import proofs.«158174_j29059748725634_2_alg».proof.Proof.Spec
import proofs.«158174_j29059748725634_2_alg».proof.Proof.Model
import proofs.«158174_j29059748725634_2_alg».proof.Proof.LibAsRow

noncomputable section

namespace Cert.ReferenceIdeal.RefValue

open Cert.ReferenceIdeal Cert.ReferenceIdeal.Gen Cert.ReferenceIdeal.Read Idealize.ShloMosaic Idealize.ShloMosaic.ValueIdx
open scoped BigOperators

/-- A maximum-reduce over the second axis of an `[R, K]` array from the initial value, at row `p`: the fold of `max` from the
    initial value's element over that row's entries. -/
theorem hostReduce_maximumf_rows {R K : ℕ} (x : FVec Ideal ⟨2, ![R, K]⟩ .f32) (init : FVec Ideal ⟨0, ![]⟩ .f32)
    (h' : (⟨2, ![R, K]⟩ : Shape).ReducesTo [1] (⟨1, ![R]⟩ : Shape))
    (h : (⟨2, ![R, K]⟩ : Shape).Reduces [1] (⟨1, ![R]⟩ : Shape)) (hu : 0 < (⟨0, ![]⟩ : Shape).numel) (p : Fin R) :
    Host.reduce FloatOps.maximumf x init h' hu (ix1 p)
      = (Finset.univ : Finset (Fin K)).fold max (init (Shape.Idx.first hu)) (fun k => x (ix2 p k)) := by
  rw [Host.reduce_eq_fold_single FloatOps.maximumf x _ h' h hu]
  have hf : (x ∘ h.lift (ix1 p)) = fun k : Fin K => x (ix2 p k) := funext fun k => by
    show x (h.lift (ix1 p) k) = x (ix2 p (⟨k.val, k.isLt⟩ : Fin K))
    refine congrArg x ?_
    funext c; apply Fin.ext
    fin_cases c <;> rfl
  exact congrArg (fun f => Finset.fold max (init (Shape.Idx.first hu)) f (Finset.univ : Finset (Fin K))) hf

section Decoder

variable (x0 : (⟨S100000x128, .f32⟩ : BufTy).Contents (Elt Ideal))
  (x1 : (⟨S128x128, .f32⟩ : BufTy).Contents (Elt Ideal)) (x2 x3 x4 : (⟨S128, .f32⟩ : BufTy).Contents (Elt Ideal))
  (x5 : (⟨S128x64, .f32⟩ : BufTy).Contents (Elt Ideal)) (x6 x7 x8 : (⟨S64, .f32⟩ : BufTy).Contents (Elt Ideal))
  (x9 : (⟨S64x5, .f32⟩ : BufTy).Contents (Elt Ideal)) (x10 : (⟨S5, .f32⟩ : BufTy).Contents (Elt Ideal))
  (x11 x12 : (⟨S1600000, .i32⟩ : BufTy).Contents (Elt Ideal))

/-- The logits are `emb · Wd + bd`. -/
theorem logits_eq :
    val_main_v98 (F := Ideal) x0 x1 x2 x3 x4 x5 x6 x7 x8 x9 x10 x11 x12
      = Cert.Spec.affine (n := 1600000) (K := 64) (M := 5)
          (val_main_v94 (F := Ideal) x0 x1 x2 x3 x4 x5 x6 x7 x8 x11 x12) x9 (Cert.Lib.asRow x10) := by
  funext i
  obtain ⟨p, q, rfl⟩ : ∃ (p : Fin 1600000) (q : Fin 5), i = ix2 p q := ⟨i 0, i 1, eq_ix2 i⟩
  have el : ∀ k : Fin 64, lidx_main_v95 (ix2 p q) k = ix2 p k := fun k =>
    funext fun a => Fin.ext (by match a with | ⟨0, _⟩ => rfl | ⟨1, _⟩ => rfl)
  have er : ∀ k : Fin 64, ridx_main_v95 (ix2 p q) k = ix2 k q := fun k =>
    funext fun a => Fin.ext (by match a with | ⟨0, _⟩ => rfl | ⟨1, _⟩ => rfl)
  have eb : idx_main_v96 (idx_main_v97 (ix2 p q)) = ix1 q :=
    funext fun a => Fin.ext (by match a with | ⟨0, _⟩ => rfl)
  rw [val_main_v98_apply, val_main_v95_apply, val_main_v97_apply, val_main_v96_apply]
  simp only [el, er, eb, Ideal.addf_def]
  rfl

/-- A row's largest logit from minus infinity: the fold of `max` over the row's five logits. -/
theorem rowMax_apply (p : Fin 1600000) :
    val_main_v99 (F := Ideal) x0 x1 x2 x3 x4 x5 x6 x7 x8 x9 x10 x11 x12 (ix1 p)
      = (Finset.univ : Finset (Fin 5)).fold max Cert.Spec.negInfW
          (fun k => (val_main_v98 (F := Ideal) x0 x1 x2 x3 x4 x5 x6 x7 x8 x9 x10 x11 x12) (ix2 p k)) := by
  unfold val_main_v99
  generalize val_main_v98 (F := Ideal) x0 x1 x2 x3 x4 x5 x6 x7 x8 x9 x10 x11 x12 = L
  exact hostReduce_maximumf_rows (R := 1600000) (K := 5) L (val_main_cst_18 (F := Ideal))
    reducesTo_S1600000x5_S1600000_d1 (by decide) h_S_ p

/-- A row's largest logit, once more against minus infinity. -/
theorem rowTop_ref (p : Fin 1600000) :
    val_main_v101 (F := Ideal) x0 x1 x2 x3 x4 x5 x6 x7 x8 x9 x10 x11 x12 (ix1 p) = Cert.Spec.rowTop (val_main_v98 (F := Ideal) x0 x1 x2 x3 x4 x5 x6 x7 x8 x9 x10 x11 x12) p := by
  rw [val_main_v101_apply, val_main_v100_apply, val_main_cst_19_apply, rowMax_apply]
  rfl

/-- The exponential of a logit less its row's largest. -/
theorem expTerm_ref (p : Fin 1600000) (k : Fin 5) :
    val_main_v105 (F := Ideal) x0 x1 x2 x3 x4 x5 x6 x7 x8 x9 x10 x11 x12 (ix2 p k)
      = Ideal.exp ((val_main_v98 (F := Ideal) x0 x1 x2 x3 x4 x5 x6 x7 x8 x9 x10 x11 x12) (ix2 p k) - Cert.Spec.rowTop (val_main_v98 (F := Ideal) x0 x1 x2 x3 x4 x5 x6 x7 x8 x9 x10 x11 x12) p) := by
  have e : idx_main_v102 (idx_main_v103 (ix2 p k)) = ix1 p :=
    funext fun a => Fin.ext (by match a with | ⟨0, _⟩ => rfl)
  rw [val_main_v105_apply, val_main_v104_apply, val_main_v103_apply, val_main_v102_apply, e, rowTop_ref]
  rfl

/-- A row's sum of exponentials: taken from zero, it is the sum. -/
theorem expSum_ref (p : Fin 1600000) :
    val_main_v106 (F := Ideal) x0 x1 x2 x3 x4 x5 x6 x7 x8 x9 x10 x11 x12 (ix1 p)
      = ∑ k : Fin 5, Ideal.exp ((val_main_v98 (F := Ideal) x0 x1 x2 x3 x4 x5 x6 x7 x8 x9 x10 x11 x12) (ix2 p k) - Cert.Spec.rowTop (val_main_v98 (F := Ideal) x0 x1 x2 x3 x4 x5 x6 x7 x8 x9 x10 x11 x12) p) := by
  have e : ∀ k : Fin 5, idx_main_v106 (ix1 p) k = ix2 p k := fun k =>
    funext fun a => Fin.ext (by match a with | ⟨0, _⟩ => rfl | ⟨1, _⟩ => rfl)
  rw [val_main_v106_apply, val_main_cst_20_apply,
    Finset.sum_congr (s₁ := (Finset.univ : Finset (Fin 5))) rfl fun k _ =>
      (congrArg (val_main_v105 (F := Ideal) x0 x1 x2 x3 x4 x5 x6 x7 x8 x9 x10 x11 x12) (e k)).trans (expTerm_ref x0 x1 x2 x3 x4 x5 x6 x7 x8 x9 x10 x11 x12 p k),
    Ideal.ofBits_def, Ideal.ofBits_zero_f32, zero_add]

/-- The prediction is the row softmax of the logits. -/
theorem prediction_eq :
    val_main_v109 (F := Ideal) x0 x1 x2 x3 x4 x5 x6 x7 x8 x9 x10 x11 x12
      = Cert.Spec.softmaxRows (n := 1600000) (M := 5) (Cert.Spec.affine (n := 1600000) (K := 64) (M := 5)
          (val_main_v94 (F := Ideal) x0 x1 x2 x3 x4 x5 x6 x7 x8 x11 x12) x9 (Cert.Lib.asRow x10)) := by
  rw [← logits_eq]
  funext i
  obtain ⟨p, q, rfl⟩ : ∃ (p : Fin 1600000) (q : Fin 5), i = ix2 p q := ⟨i 0, i 1, eq_ix2 i⟩
  have e : idx_main_v107 (idx_main_v108 (ix2 p q)) = ix1 p :=
    funext fun a => Fin.ext (by match a with | ⟨0, _⟩ => rfl)
  rw [Cert.Spec.softmaxRows_apply, val_main_v109_apply, val_main_v108_apply, val_main_v107_apply, e, expSum_ref,
    expTerm_ref]
  rfl

end Decoder

end Cert.ReferenceIdeal.RefValue

end
-- ==== Proof.RefChain.lean ====
/-
  The reference's two float results as the all-rows pipeline.

  Stage by stage the reference computes: the neighbourhood sum of the features, a dense layer with the maximum against
  zero, a normalisation by the all-rows column statistics, the same three steps once more on the result, and the row
  softmax of an affine layer applied to the per-edge products of looked-up rows. The neighbourhood sums and the edge
  lookup are the same host operations the other program runs, so they are the same functions of a whole array; with
  them as the pipeline's parameters the stages compose to the pipeline's encoding and prediction.
-/
import proofs.«158174_j29059748725634_2_alg».proof.Proof.Gen.ReferenceIdeal.Read
import proofs.«158174_j29059748725634_2_alg».proof.Proof.Spec
import proofs.«158174_j29059748725634_2_alg».proof.Proof.Model
import proofs.«158174_j29059748725634_2_alg».proof.Proof.LibAsRow
import proofs.«158174_j29059748725634_2_alg».proof.Proof.KStretch
import proofs.«158174_j29059748725634_2_alg».proof.Proof.RefStage1
import proofs.«158174_j29059748725634_2_alg».proof.Proof.RefStage2
import proofs.«158174_j29059748725634_2_alg».proof.Proof.RefStage3
import proofs.«158174_j29059748725634_2_alg».proof.Proof.RefStage4
import proofs.«158174_j29059748725634_2_alg».proof.Proof.RefStage5

set_option maxRecDepth 16384

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S100000x128, .f32⟩ : BufTy).Contents (Elt Ideal))
  (x1 : (⟨S128x128, .f32⟩ : BufTy).Contents (Elt Ideal)) (x2 x3 x4 : (⟨S128, .f32⟩ : BufTy).Contents (Elt Ideal))
  (x5 : (⟨S128x64, .f32⟩ : BufTy).Contents (Elt Ideal)) (x6 x7 x8 : (⟨S64, .f32⟩ : BufTy).Contents (Elt Ideal))
  (x9 : (⟨S64x5, .f32⟩ : BufTy).Contents (Elt Ideal)) (x10 : (⟨S5, .f32⟩ : BufTy).Contents (Elt Ideal))
  (x11 x12 : (⟨S1600000, .i32⟩ : BufTy).Contents (Elt Ideal))

/-- The first neighbourhood sum is the sum of looked-up rows of the features. -/
theorem agg1_eq : val_main_v9 (F := Ideal) x0 x11 x12 = Cert.KernelIdeal.HostValue.agg128 x11 x12 x0 := rfl

/-- The second neighbourhood sum is the same sum of looked-up rows of the first normalised array. -/
theorem agg2_eq : val_main_v49 (F := Ideal) x0 x1 x2 x3 x4 x11 x12
    = Cert.KernelIdeal.HostValue.agg128 x11 x12 (val_main_v39 (F := Ideal) x0 x1 x2 x3 x4 x11 x12) := rfl

/-- The decoder's input is, per edge, the source's row times the target's row of the second normalised array. -/
theorem emb_eq : val_main_v94 (F := Ideal) x0 x1 x2 x3 x4 x5 x6 x7 x8 x11 x12
    = Cert.KernelIdeal.HostValue.emb x11 x12 (val_main_v79 (F := Ideal) x0 x1 x2 x3 x4 x5 x6 x7 x8 x11 x12) := rfl

/-- The first hidden layer as the model's. -/
theorem hid1_eq : val_main_v14 (F := Ideal) x0 x1 x2 x11 x12
    = Cert.Model.hid1 (Cert.KernelIdeal.HostValue.agg128 x11 x12) x0 x1 (Cert.Lib.asRow x2) := by
  rw [hidden1_eq, agg1_eq]; rfl

/-- The first normalised array as the model's. -/
theorem enc1_eq : val_main_v39 (F := Ideal) x0 x1 x2 x3 x4 x11 x12
    = Cert.Model.encA1 (Cert.KernelIdeal.HostValue.agg128 x11 x12) x0 x1 (Cert.Lib.asRow x2) (Cert.Lib.asRow x3)
        (Cert.Lib.asRow x4) := by
  rw [encoded1_eq, hid1_eq]; rfl

/-- The second hidden layer as the model's. -/
theorem hid2_eq : val_main_v54 (F := Ideal) x0 x1 x2 x3 x4 x5 x6 x11 x12
    = Cert.Model.hidA2 (Cert.KernelIdeal.HostValue.agg128 x11 x12) x0 x1 (Cert.Lib.asRow x2) (Cert.Lib.asRow x3)
        (Cert.Lib.asRow x4) x5 (Cert.Lib.asRow x6) := by
  rw [hidden2_eq, agg2_eq, enc1_eq]; rfl

/-- The reference's encoding is the all-rows pipeline's second normalised array. -/
theorem ref_enc2 : val_main_v79 (F := Ideal) x0 x1 x2 x3 x4 x5 x6 x7 x8 x11 x12
    = Cert.Model.encA2 (Cert.KernelIdeal.HostValue.agg128 x11 x12) x0 x1 (Cert.Lib.asRow x2) (Cert.Lib.asRow x3)
        (Cert.Lib.asRow x4) x5 (Cert.Lib.asRow x6) (Cert.Lib.asRow x7) (Cert.Lib.asRow x8) := by
  rw [encoded2_eq, hid2_eq]; rfl

/-- The reference's prediction is the all-rows pipeline's. -/
theorem ref_pred : val_main_v109 (F := Ideal) x0 x1 x2 x3 x4 x5 x6 x7 x8 x9 x10 x11 x12
    = Cert.Model.predA (Cert.KernelIdeal.HostValue.agg128 x11 x12) (Cert.KernelIdeal.HostValue.emb x11 x12) x0 x1
        (Cert.Lib.asRow x2) (Cert.Lib.asRow x3) (Cert.Lib.asRow x4) x5 (Cert.Lib.asRow x6) (Cert.Lib.asRow x7)
        (Cert.Lib.asRow x8) x9 (Cert.Lib.asRow x10) := by
  rw [prediction_eq, emb_eq, ref_enc2]; rfl

end Cert.ReferenceIdeal.RefValue

end
-- ==== Proof.lean ====
/-
  The certificate of a two-layer graph auto-encoder against its plain reference.

  Both programs compute, from node features, two encoder layers — a sum over each node's incoming edges of the source rows,
  a dense layer clipped at zero, a batch normalisation over the 100000 nodes — and decode every edge by a softmax over a
  small dense layer of the product of its two endpoint encodings; they also return the edge weights less one.
  The kernel splits the work into six launches among host operations. Read on the extended reals it differs from the
  reference in two places only. Its batch statistics are summed block by block (20 blocks of 5000 rows) and its variance is
  the larger of `E[h²] − mean²` and zero, against the reference's mean squared deviation: for real entries the two are the
  same number, and it is not negative. In the second layer it multiplies by the weights before summing over neighbours,
  where the reference sums first: for real entries a product distributes over the sum. Finite inputs give real entries at
  every stage — a finite sum of reals, a maximum with zero, a quotient by the row count and an inverse square root of a
  positive number are real — so the two encodings agree, and with them the predictions. Every other operation (the
  neighbourhood sum itself, the affine layers as matrix products into a zero accumulator, the softmax as exponentials less
  the row's largest entry over their sum) is the same function on both sides.
  The kernel's run is the launch over its twelve segments with the returned buffers read at the last boundary; the
  reference's run and its stage-by-stage reading are imported; the three frames are the generated ones.
-/
import proofs.«158174_j29059748725634_2_alg».proof.Defs
import proofs.«158174_j29059748725634_2_alg».proof.Proof.Gen.Kernel
import proofs.«158174_j29059748725634_2_alg».proof.Proof.Gen.Kernel.Skeleton
import proofs.«158174_j29059748725634_2_alg».proof.Proof.Gen.Kernel.Launch
import proofs.«158174_j29059748725634_2_alg».proof.Proof.Gen.Kernel.Points
import proofs.«158174_j29059748725634_2_alg».proof.Proof.Gen.Kernel.Frame
import proofs.«158174_j29059748725634_2_alg».proof.Proof.Gen.KernelIdeal
import proofs.«158174_j29059748725634_2_alg».proof.Proof.Gen.KernelIdeal.Skeleton
import proofs.«158174_j29059748725634_2_alg».proof.Proof.Gen.KernelIdeal.Launch
import proofs.«158174_j29059748725634_2_alg».proof.Proof.Gen.KernelIdeal.Points
import proofs.«158174_j29059748725634_2_alg».proof.Proof.Gen.KernelIdeal.Frame
import proofs.«158174_j29059748725634_2_alg».proof.Proof.Gen.ReferenceIdeal
import proofs.«158174_j29059748725634_2_alg».proof.Proof.Gen.Pre_finite_inputs
import proofs.«158174_j29059748725634_2_alg».proof.Proof.Gen.ReferenceIdeal.Run
import proofs.«158174_j29059748725634_2_alg».proof.Proof.Gen.ReferenceIdeal.Read
import proofs.«158174_j29059748725634_2_alg».proof.Proof.KRun
import proofs.«158174_j29059748725634_2_alg».proof.Proof.KChain
import proofs.«158174_j29059748725634_2_alg».proof.Proof.KAgg
import proofs.«158174_j29059748725634_2_alg».proof.Proof.KRegion0
import proofs.«158174_j29059748725634_2_alg».proof.Proof.KRegion1
import proofs.«158174_j29059748725634_2_alg».proof.Proof.KRegion2
import proofs.«158174_j29059748725634_2_alg».proof.Proof.KRegion3
import proofs.«158174_j29059748725634_2_alg».proof.Proof.KRegion4
import proofs.«158174_j29059748725634_2_alg».proof.Proof.KRegion5
import proofs.«158174_j29059748725634_2_alg».proof.Proof.ModelEq
import proofs.«158174_j29059748725634_2_alg».proof.Proof.BridgeModel
import proofs.«158174_j29059748725634_2_alg».proof.Proof.PreReal
import proofs.«158174_j29059748725634_2_alg».proof.Proof.RefChain
import Idealize.ShloMosaic.Adequacy
import Idealize.ShloMosaic.Init

set_option maxRecDepth 16384
set_option maxHeartbeats 4000000

noncomputable section

namespace Cert.Proof

open Idealize.ShloMosaic Idealize.SL.Sem
open Cert.KernelIdeal.ChainValue Cert.KernelIdeal.HostValue Cert.Lib

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- A real vector laid out as a row is a real row. -/
theorem asRow_real {n : ℕ} (v : (⟨1, ![n]⟩ : Shape).Idx → EReal) (hv : AllReal v) : AllReal (asRow v) := fun i => hv _

/-- From memories agreeing on finite arguments both programs, read on the extended reals, end with the block-summed pipeline's second
    encoding and prediction, and the edge weights less one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hres := fun c => results m ρ c
  refine ⟨fun c => predK m c, fun c => gtK m c,
    fun c => e2K m c, ?_, ?_⟩
  · exact (θ_run Cert.KernelIdeal.defs _ _).mono
      (fun r h c => ⟨(h c).1.trans (hres c).1, (h c).2.1.trans (hres c).2.1, (h c).2.2.1.trans (hres c).2.2, (h c).2.2.2⟩)
      (Cert.KernelIdeal.RunValue.run_main (F := Ideal) m ρ)
  · refine (θ_run Cert.ReferenceIdeal.defs _ _).mono (fun r h c => ?_) (Cert.ReferenceIdeal.Value.run (F := Ideal) m' ρ')
    obtain ⟨hr0, hr1, hr2, hargs⟩ := h c
    obtain ⟨g0, g1, g2, g3, g4, g5, g6, g7, g8, g9, g10, g11, g12, g13⟩ := hagree c
    obtain ⟨q0, q1, q2, q3, q4, q5, q6, q7, q8, q9, q10⟩ := Cert.PreReal.real_of_fn _ _ _ _ _ _ _ _ _ _ _ _ _ _ (hpre c)
    have henc : e2K m c = Cert.Model.encA2 (agg128 (aS m c) (aD m c)) (aX m c) (aW1 m c) (asRow (aB1 m c)) (asRow (aG1 m c))
        (asRow (aC1 m c)) (aW2 m c) (asRow (aB2 m c)) (asRow (aG2 m c)) (asRow (aC2 m c)) :=
      Cert.Model.enc2_eq _ _ _ _ _ _ _ _ _ _ _ (fun H => Cert.Bridge.mean_eq H) (fun H h => Cert.Bridge.var_eq H h)
        (fun H g c hH hg hc => Cert.Bridge.bn_real H g c hH hg hc) (fun X W b hX hW hb => Cert.Bridge.dense_real X W b hX hW hb)
        (fun X hX => agg128_real _ _ X hX) (fun X W hX hW => agg_product _ _ X W hX hW)
        q0 q1 (asRow_real _ q2) (asRow_real _ q3) (asRow_real _ q4) q5 (asRow_real _ q6)
    refine ⟨hr0.trans ?_, hr1.trans ?_, hr2.trans ?_, hargs⟩
    · rw [Cert.ReferenceIdeal.Read.val_main_v109_eq, Cert.ReferenceIdeal.RefValue.ref_pred, g0, g1, g2, g3, g4, g5, g6, g7, g8, g9, g10, g11, g12]
      exact (Cert.Model.pred_eq _ _ _ _ _ _ _ _ _ _ _ _ _ _ henc).symm
    · rw [g13]
    · rw [Cert.ReferenceIdeal.Read.val_main_v79_eq, Cert.ReferenceIdeal.RefValue.ref_enc2, g0, g1, g2, g3, g4, g5, g6, g7, g8, g11, g12]
      exact henc.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
